-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048 : Shape := ⟨2, ![512, 2048]⟩
abbrev S512 : Shape := ⟨1, ![512]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel

variable [Facts]

def fn {F : FTy → Type} [FloatOps F] (main_arg0 : FVec F S512x2048 .f32) (main_arg1 : IVec S512 32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  main_v3
-- ==== Kernel.lean ====
abbrev S512x2048 : Shape := ⟨2, ![512, 2048]⟩
abbrev S512 : Shape := ⟨1, ![512]⟩
abbrev S512x512 : Shape := ⟨2, ![512, 512]⟩
abbrev S128x2048 : Shape := ⟨2, ![128, 2048]⟩
abbrev S128x512 : Shape := ⟨2, ![128, 512]⟩
abbrev S128 : Shape := ⟨1, ![128]⟩
abbrev S128x1 : Shape := ⟨2, ![128, 1]⟩
abbrev S1x512 : Shape := ⟨2, ![1, 512]⟩
abbrev S512x1 : Shape := ⟨2, ![512, 1]⟩
abbrev S1x1 : Shape := ⟨2, ![1, 1]⟩
abbrev S32x128 : Shape := ⟨2, ![32, 128]⟩
abbrev S32x1 : Shape := ⟨2, ![32, 1]⟩
abbrev S1x128 : Shape := ⟨2, ![1, 128]⟩
abbrev S32x128x1 : Shape := ⟨3, ![32, 128, 1]⟩
abbrev S32x1x128 : Shape := ⟨3, ![32, 1, 128]⟩
abbrev S32x128x128 : Shape := ⟨3, ![32, 128, 128]⟩
abbrev S32 : Shape := ⟨1, ![32]⟩
abbrev S1x32 : Shape := ⟨2, ![1, 32]⟩
abbrev S1 : Shape := ⟨1, ![1]⟩
abbrev S_ : Shape := ⟨0, ![]⟩

abbrev nBuf : Space → Nat
  | .hbm => 13
  | .vmem => 17
  | .smem => 0
  | _ => 0

abbrev bufTy : (tb : Table) → Fin (tcTables nBuf tb) → BufTy
  | .hbm, ⟨0, _⟩ => ⟨S512x2048, .f32⟩
  | .hbm, ⟨1, _⟩ => ⟨S512, .i32⟩
  | .hbm, ⟨2, _⟩ => ⟨S512x512, .f32⟩
  | .hbm, ⟨3, _⟩ => ⟨S512x1, .i32⟩
  | .hbm, ⟨4, _⟩ => ⟨S1x512, .i32⟩
  | .hbm, ⟨5, _⟩ => ⟨S1x1, .f32⟩
  | .hbm, ⟨6, _⟩ => ⟨S1x1, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S128x2048, .f32⟩
  | .local _ .vmem, ⟨1, _⟩ => ⟨S128x2048, .f32⟩
  | .local _ .vmem, ⟨2, _⟩ => ⟨S512x2048, .f32⟩
  | .local _ .vmem, ⟨3, _⟩ => ⟨S128x512, .f32⟩
  | .local _ .vmem, ⟨4, _⟩ => ⟨S128x512, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x1, .i32⟩
  | .local _ .vmem, ⟨10, _⟩ => ⟨S32x1, .i32⟩
  | .local _ .vmem, ⟨11, _⟩ => ⟨S1x128, .i32⟩
  | .local _ .vmem, ⟨12, _⟩ => ⟨S1x128, .i32⟩
  | .local _ .vmem, ⟨13, _⟩ => ⟨S1x128, .i32⟩
  | .local _ .vmem, ⟨14, _⟩ => ⟨S1x128, .i32⟩
  | .local _ .vmem, ⟨15, _⟩ => ⟨S1x1, .f32⟩
  | .local _ .vmem, ⟨16, _⟩ => ⟨S1x1, .i32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg6_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem6_0 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![16, 4, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S32x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S32x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S32x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x128 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x128 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, false, true]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S1x1 .i32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

class Facts₀ : Prop where
  inb_S128x2048_S128x2048_0_0 : ∀ a, (![0, 0] : Fin 2 → Nat) a + S128x2048.size a ≤ S128x2048.size a
  h_S128x2048 : 0 < S128x2048.numel
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  reduces_S128x2048_S128 : S128x2048.Reduces [1] S128
  shapeCasts_S128_S128x1 : S128.ShapeCasts S128x1
  reduces_S512x2048_S512 : S512x2048.Reduces [1] S512
  shapeCasts_S512_S1x512 : S512.ShapeCasts S1x512
  broadcasts_S128x1_S128x512 : S128x1.Broadcasts S128x512
  broadcasts_S1x512_S128x512 : S1x512.Broadcasts S128x512
  inb_S128x512_S128x512_0_0 : ∀ a, (![0, 0] : Fin 2 → Nat) a + S128x512.size a ≤ S128x512.size a
  h_S128x512 : 0 < S128x512.numel
  shapeCasts_S512_S512x1 : S512.ShapeCasts S512x1
  inb_S1x1_S1x1_0_0 : ∀ a, (![0, 0] : Fin 2 → Nat) a + S1x1.size a ≤ S1x1.size a
  h_S1x1 : 0 < S1x1.numel
  iota_S32x1_d0_w32 : S32x1.Iotas .tc 32 [0]
  iota_S1x128_d1_w32 : S1x128.Iotas .tc 32 [1]
  broadcasts_S32x1_S32x128 : S32x1.Broadcasts S32x128
  broadcasts_S1x128_S32x128 : S1x128.Broadcasts S32x128
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  shapeCasts_S32x128_S32x128x1 : S32x128.ShapeCasts S32x128x1
  shapeCasts_S32x128_S32x1x128 : S32x128.ShapeCasts S32x1x128
  broadcasts_S32x1x128_S32x128x128 : S32x1x128.Broadcasts S32x128x128
  broadcasts_S32x128x1_S32x128x128 : S32x128x1.Broadcasts S32x128x128
  natLt_1_32 : 1 < 32
  reduces_S32x128x128_S32x128 : S32x128x128.Reduces [2] S32x128
  reduces_S32x128_S32 : S32x128.Reduces [1] S32
  shapeCasts_S32_S1x32 : S32.ShapeCasts S1x32
  reduces_S1x32_S1 : S1x32.Reduces [1] S1
  shapeCasts_S1_S1x1 : S1.ShapeCasts S1x1
  inpos_S1x1_p0_0 : ∀ a, (![0, 0] : Fin 2 → Nat) a < S1x1.size a
  shapeCasts_S1x1_S1x1 : S1x1.ShapeCasts S1x1
  shapeCasts_S1x1_S_ : S1x1.ShapeCasts S_
  dot_S128x2048_S512x2048_S128x512_1_1_0_0_n_n_wf : DotDims.WF S128x2048 S512x2048 S128x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S512x2048.size a
  hwx0_0 : ∀ i : grid0.Coords, EltTy.bits .f32 = 32 ∨ (Rect.block (s := S512x2048) S128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .f32 = 32 ∨ (Rect.block (s := S512x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S512x512.size a
  hwx0_2 : ∀ i : grid0.Coords, EltTy.bits .f32 = 32 ∨ (Rect.block (s := S512x512) S128x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x128.size a ≤ S512x512.size a
  hwx1_0 : ∀ i : grid1.Coords, EltTy.bits .f32 = 32 ∨ (Rect.block (s := S512x512) S32x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x128.size a ≤ S512x512.size a
  hwx1_1 : ∀ i : grid1.Coords, EltTy.bits .f32 = 32 ∨ (Rect.block (s := S512x512) S32x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x1.size a ≤ S512x1.size a
  hwx1_2 : ∀ i : grid1.Coords, EltTy.bits .i32 = 32 ∨ (Rect.block (s := S512x1) S32x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x512.size a
  hwx1_3 : ∀ i : grid1.Coords, EltTy.bits .i32 = 32 ∨ (Rect.block (s := S1x512) S1x128.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x512.size a
  hwx1_4 : ∀ i : grid1.Coords, EltTy.bits .i32 = 32 ∨ (Rect.block (s := S1x512) S1x128.size (cc1_transform_4 i) (hinb1_4 i)).WholeWords (EltTy.packing .i32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .i32 = 32 ∨ (Rect.block (s := S1x1) S1x1.size (cc1_transform_6 i) (hinb1_6 i)).WholeWords (EltTy.packing .i32)

variable [Facts₀]

def dot_S128x2048_S512x2048_S128x512_1_1_0_0_n_n : DotDims S128x2048 S512x2048 S128x512 where
  lhsContracting := [1]
  rhsContracting := [1]
  lhsNonContracting := [0]
  rhsNonContracting := [0]
  lhsBatch := []
  rhsBatch := []
  wf := dot_S128x2048_S512x2048_S128x512_1_1_0_0_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S32x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S32x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S32x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_0) S1x1.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3_1) S1x1.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S512x2048 : Shape := ⟨2, ![512, 2048]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2048x512 : Shape := ⟨2, ![2048, 512]⟩
abbrev S512x512x1 : Shape := ⟨3, ![512, 512, 1]⟩
abbrev S512x1x512 : Shape := ⟨3, ![512, 1, 512]⟩
abbrev S512x512x512 : Shape := ⟨3, ![512, 512, 512]⟩

abbrev nBuf : Space → Nat
  | .hbm => 82
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512, .i32⟩
  | .hbm, ⟨2, _⟩ => ⟨S512x2048, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S1x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S2048x512, .f32⟩
  | .hbm, ⟨11, _⟩ => ⟨S512x512, .f32⟩
  | .hbm, ⟨12, _⟩ => ⟨S_, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S_, .f32⟩
  | .hbm, ⟨17, _⟩ => ⟨S_, .f32⟩
  | .hbm, ⟨18, _⟩ => ⟨S512x512, .f32⟩
  | .hbm, ⟨19, _⟩ => ⟨S512x512, .f32⟩
  | .hbm, ⟨20, _⟩ => ⟨S_, .f32⟩
  | .hbm, ⟨21, _⟩ => ⟨S512x512, .f32⟩
  | .hbm, ⟨22, _⟩ => ⟨S512x512, .i1⟩
  | .hbm, ⟨23, _⟩ => ⟨S_, .f32⟩
  | .hbm, ⟨24, _⟩ => ⟨S_, .f32⟩
  | .hbm, ⟨25, _⟩ => ⟨S512x512, .f32⟩
  | .hbm, ⟨26, _⟩ => ⟨S512x512, .f32⟩
  | .hbm, ⟨27, _⟩ => ⟨S512x512, .f32⟩
  | .hbm, ⟨28, _⟩ => ⟨S_, .f32⟩
  | .hbm, ⟨29, _⟩ => ⟨S_, .f32⟩
  | .hbm, ⟨30, _⟩ => ⟨S512x512, .f32⟩
  | .hbm, ⟨31, _⟩ => ⟨S512x512, .f32⟩
  | .hbm, ⟨32, _⟩ => ⟨S512x1, .i32⟩
  | .hbm, ⟨33, _⟩ => ⟨S1x512, .i32⟩
  | .hbm, ⟨34, _⟩ => ⟨S512x512, .i32⟩
  | .hbm, ⟨35, _⟩ => ⟨S512x512, .i32⟩
  | .hbm, ⟨36, _⟩ => ⟨S512x512, .i1⟩
  | .hbm, ⟨37, _⟩ => ⟨S512x512, .i32⟩
  | .hbm, ⟨38, _⟩ => ⟨S512x512, .i32⟩
  | .hbm, ⟨39, _⟩ => ⟨S_, .i32⟩
  | .hbm, ⟨40, _⟩ => ⟨S512x512, .i32⟩
  | .hbm, ⟨41, _⟩ => ⟨S512x512, .i32⟩
  | .hbm, ⟨42, _⟩ => ⟨S512x512, .i1⟩
  | .hbm, ⟨43, _⟩ => ⟨S512x512, .i1⟩
  | .hbm, ⟨44, _⟩ => ⟨S512x512, .i1⟩
  | .hbm, ⟨45, _⟩ => ⟨S512x512, .i1⟩
  | .hbm, ⟨46, _⟩ => ⟨S512x512x1, .f32⟩
  | .hbm, ⟨47, _⟩ => ⟨S512x1x512, .f32⟩
  | .hbm, ⟨48, _⟩ => ⟨S512x512x1, .i1⟩
  | .hbm, ⟨49, _⟩ => ⟨S512x1x512, .i1⟩
  | .hbm, ⟨50, _⟩ => ⟨S512x512x512, .i1⟩
  | .hbm, ⟨51, _⟩ => ⟨S512x512x512, .i1⟩
  | .hbm, ⟨52, _⟩ => ⟨S512x512x512, .i1⟩
  | .hbm, ⟨53, _⟩ => ⟨S512x512x512, .f32⟩
  | .hbm, ⟨54, _⟩ => ⟨S512x512x512, .f32⟩
  | .hbm, ⟨55, _⟩ => ⟨S512x512x512, .f32⟩
  | .hbm, ⟨56, _⟩ => ⟨S_, .f32⟩
  | .hbm, ⟨57, _⟩ => ⟨S512x512x512, .f32⟩
  | .hbm, ⟨58, _⟩ => ⟨S512x512x512, .i1⟩
  | .hbm, ⟨59, _⟩ => ⟨S512x512x512, .i1⟩
  | .hbm, ⟨60, _⟩ => ⟨S512x512x512, .f32⟩
  | .hbm, ⟨61, _⟩ => ⟨S512x512x512, .f32⟩
  | .hbm, ⟨62, _⟩ => ⟨S512x512x512, .f32⟩
  | .hbm, ⟨63, _⟩ => ⟨S_, .f32⟩
  | .hbm, ⟨64, _⟩ => ⟨S512x512x512, .f32⟩
  | .hbm, ⟨65, _⟩ => ⟨S512x512x512, .f32⟩
  | .hbm, ⟨66, _⟩ => ⟨S_, .f32⟩
  | .hbm, ⟨67, _⟩ => ⟨S512x512x512, .f32⟩
  | .hbm, ⟨68, _⟩ => ⟨S512x512x512, .f32⟩
  | .hbm, ⟨69, _⟩ => ⟨S512x512x512, .i32⟩
  | .hbm, ⟨70, _⟩ => ⟨S_, .i32⟩
  | .hbm, ⟨71, _⟩ => ⟨S_, .i32⟩
  | .hbm, ⟨72, _⟩ => ⟨S_, .f32⟩
  | .hbm, ⟨73, _⟩ => ⟨S_, .f32⟩
  | .hbm, ⟨74, _⟩ => ⟨S512x512x512, .f32⟩
  | .hbm, ⟨75, _⟩ => ⟨S512x512x512, .f32⟩
  | .hbm, ⟨76, _⟩ => ⟨S_, .f32⟩
  | .hbm, ⟨77, _⟩ => ⟨S_, .f32⟩
  | .hbm, ⟨78, _⟩ => ⟨S_, .i32⟩
  | .hbm, ⟨79, _⟩ => ⟨S_, .i32⟩
  | .hbm, ⟨80, _⟩ => ⟨S_, .f32⟩
  | .hbm, ⟨81, _⟩ => ⟨S_, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_call2_v0 : Ref sig .tc := ⟨.hbm, 29, rfl⟩
abbrev main_call2_v1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_8 : Ref sig .tc := ⟨.hbm, 70, rfl⟩
abbrev main_v52 : Ref sig .tc := ⟨.hbm, 71, rfl⟩
abbrev main_cst_9 : Ref sig .tc := ⟨.hbm, 72, rfl⟩
abbrev main_call3_v0 : Ref sig .tc := ⟨.hbm, 73, rfl⟩
abbrev main_call3_v1 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_c_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩

abbrev nD : Nat := 1
abbrev τ : Topo := Topo.v7x

variable {F : FTy → Type} [FloatOps F]

class Facts₀ : Prop where
  reducesTo_S512x2048_S512_d1 : S512x2048.ReducesTo [1] S512
  h_S_ : 0 < S_.numel
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  transposes_S512x2048_S2048x512_1_0 : S512x2048.Transposes [1, 0] S2048x512
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bcast_S512x512_S512x1x512_0_2 : S512x512.BroadcastsInDim S512x1x512 (![0, 2] : Fin 2 → Fin S512x1x512.rank)
  bcast_S512x512x1_S512x512x512_0_1_2 : S512x512x1.BroadcastsInDim S512x512x512 (![0, 1, 2] : Fin 3 → Fin S512x512x512.rank)
  bcast_S512x1x512_S512x512x512_0_1_2 : S512x1x512.BroadcastsInDim S512x512x512 (![0, 1, 2] : Fin 3 → Fin S512x512x512.rank)
  bcast_S_S512x512x512 : S_.BroadcastsInDim S512x512x512 (![] : Fin 0 → Fin S512x512x512.rank)
  natLt_1_32 : 1 < 32
  reducesTo_S512x512x512_S_d0_1_2 : S512x512x512.ReducesTo [0, 1, 2] S_
  dot_S512x2048_S2048x512_S512x512_1_0_0_1_n_n_wf : DotDims.WF S512x2048 S2048x512 S512x512 [1] [0] [0] [1] [] []

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

class Facts : Prop extends Facts₀ where

variable [Facts]
-- ==== Proof.DistRegionW.lean ====
/-
  The distance pass as one pipelined region: a grid of four points, each loading a block of 128 rows of the
  embeddings (window 0) and the whole embeddings array (window 1, fetched once: its block index never moves),
  computing the 128 × 512 block of pairwise distances and storing it whole into the output window 2.

  Stated for any float instance and at a parameter V: the buffer contents when the region is entered.
  The two input windows sit on the same array, so the array's full share is dealt between them: the left
  half to window 0, the right half to window 1.
-/
import proofs.«153964_j44006234915136_2_alg».proof.Proof.Gen.Kernel.Launch
import proofs.«153964_j44006234915136_2_alg».proof.Proof.Gen.Kernel.Skeleton
import proofs.«153964_j44006234915136_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Dist

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1: its block index never moves, so where it is not fetched the buffer still holds
    the block fetched at the first point, which is every point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S128x2048 := Rect.unit (s := S128x2048) ![0, 0] S128x2048.size inb_S128x2048_S128x2048_0_0
abbrev r0_1 : Rect S512x2048 := Rect.unit (s := S512x2048) ![0, 0] S512x2048.size inb_S512x2048_S512x2048_0_0
abbrev r0_2 : Rect S128x512 := Rect.unit (s := S128x512) ![0, 0] S128x512.size inb_S128x512_S128x512_0_0

/-! ## What the body leaves in the output window's buffer -/

/-- Window 2's staging buffer after the body, from the input windows' blocks: its one store, of the block of
    distances computed from the two loads. -/
def out0_2 (x0 : Vec F S128x2048 .f32) (x1 : Vec F S512x2048 .f32) : Vec F S128x512 .f32 :=
  View.canon [⟨r0_2, k0_pay1 (View.ld x0 r0_0) (View.ld x1 r0_1)⟩]

/-- The store tiles the buffer, so it covers it. -/
theorem cover0_2 (p0 : Vec F S128x512 .f32) (y : S128x512.Idx) :
    ∃ pc ∈ ([⟨r0_2, p0⟩] : List (View.Piece (Elt F) S128x512 .f32)), y ∈ pc.1.set :=
  View.cover_of_tiled [⟨r0_2, p0⟩] S128x512.size (by rfl) y

/-! ## The body's triple -/

set_option maxHeartbeats 1000000 in
/-- The kernel body on whole staging memrefs, the inputs' at read contents x0, x1 and the output's at anything, runs
    to the continuation holding the inputs' as they were and the output's at out0_2 of the inputs'. The body loads
    the output buffer before storing it; the loaded value is unused. -/
theorem sound_kernel0 (c : Dev nD) (E : Set ℕ) (i : grid0.Coords)
    (arg1 : Memref sig .tc .vmem S128x2048 .f32) (harg1 : arg1.IsWhole)
    (arg2 : Memref sig .tc .vmem S512x2048 .f32) (harg2 : arg2.IsWhole)
    (arg3 : Memref sig .tc .vmem S128x512 .f32) (harg3 : arg3.IsWhole)
    (x0 : Vec F S128x2048 .f32) (x1 : Vec F S512x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dist_kernel i arg1 harg1 arg2 harg2 arg3 harg3) K := by
  simp only [cc0__dist_kernel_eq_skeleton]; unfold cc0__dist_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the distance pipeline on core c: the arrays as the region finds them; after the body at
    point t each input's buffer at its block and the output's at out0_2 of the input blocks; the scoped rest and
    the generator register untouched; nothing owed; the embeddings array's full share dealt between its two
    windows. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q := fun w => match w with
    | ⟨0, _⟩ => fullShare.left
    | ⟨1, _⟩ => fullShare.right
    | ⟨2, _⟩ => fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Dist

end
-- ==== Proof.MineBaseW.lean ====
/-
  The mining pass as a pipeline region, part one: what each window's staging buffer holds when the body is
  called (an input window always holds its block of the array, fetched at that point or not, because an
  unfetched window's block index has not moved), and the one condition of the body: the three grid
  coordinates are all zero, which holds at the first of the 256 points only.
-/
import proofs.«153964_j44006234915136_2_alg».proof.Proof.Gen.Kernel.Launch
import proofs.«153964_j44006234915136_2_alg».proof.Proof.Gen.Kernel.Skeleton
import proofs.«153964_j44006234915136_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Mine

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array at the contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Regions

/-- The body's one condition, from the grid coordinates: all three are zero. -/
abbrev cond1_0 (i : grid1.Coords) : Prop :=
  (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1

/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- One staging buffer of each accumulator, through which its contents are stated. -/
abbrev VO1_5 : View sig .tc .vmem S1x1 .f32 := (Memref.whole cc1_stg5_0 : Memref sig .tc .vmem S1x1 .f32).view
abbrev VO1_6 : View sig .tc .vmem S1x1 .i32 := (Memref.whole cc1_stg6_0 : Memref sig .tc .vmem S1x1 .i32).view

/-- Each window's current staging memref at point `t`, and its wholeness. -/
abbrev ms1_0 (t : Fin cfg1.N) : Memref sig .tc .vmem S32x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1 .i32 := win1_6.stage (cfg1.slots t 6)
abbrev hs1_6 (t : Fin cfg1.N) : (ms1_6 t).IsWhole := hstage1_6 ((cfg1.slots t 6).cast nbuf1_6)

end Cert.Kernel.Mine

end
-- ==== Proof.MineRunAW.lean ====
/-
  The body of the mining pass run on any whole staging memrefs, at the first grid point (the accumulators are reset before they are added to):
  the five input buffers are read and handed back as found; what the stores leave in the two accumulators'
  buffers is found by the run, as lists of written pieces.
-/
import proofs.«153964_j44006234915136_2_alg».proof.Proof.MineBaseW

set_option maxRecDepth 16384

noncomputable section

namespace Cert.Kernel.Mine

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S32x128 .f32) (harg3 : arg3.IsWhole) (arg4 : Memref sig .tc .vmem S32x128 .f32) (harg4 : arg4.IsWhole) (arg5 : Memref sig .tc .vmem S32x1 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S1x1 .i32) (harg9 : arg9.IsWhole) (hc0 : cond1_0 i)
    (x0 : Vec F S32x128 .f32) (x1 : Vec F S32x128 .f32) (x2 : Vec F S32x1 .i32) (x3 : Vec F S1x128 .i32) (x4 : Vec F S1x128 .i32) :
    Σ' (L5 : List (View.Piece (Elt F) S1x1 .f32)), { L6 : List (View.Piece (Elt F) S1x1 .i32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6)) -∗ K ⟨⟩))
          ⊢ wp frame (wpE (defs₀ (F := F)) Variants.none c none) E (cc1__mine_kernel i arg3 harg3 arg4 harg4 arg5 harg5 arg6 harg6 arg7 harg7 arg8 harg8 arg9 harg9) K } := by
  refine ⟨?_, ?_, fun E K => ?run⟩
  case run =>
    simp only [cc1__mine_kernel_eq_skeleton]; unfold cc1__mine_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexact H5
    iexists _; iexact H6

end Cert.Kernel.Mine

end
-- ==== Proof.MineRunBW.lean ====
/-
  The body of the mining pass run on any whole staging memrefs, at a later grid point (the accumulators are added to as the point before left them):
  the five input buffers are read and handed back as found; what the stores leave in the two accumulators'
  buffers is found by the run, as lists of written pieces.
-/
import proofs.«153964_j44006234915136_2_alg».proof.Proof.MineRunAW

set_option maxRecDepth 16384

noncomputable section

namespace Cert.Kernel.Mine

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S32x128 .f32) (harg3 : arg3.IsWhole) (arg4 : Memref sig .tc .vmem S32x128 .f32) (harg4 : arg4.IsWhole) (arg5 : Memref sig .tc .vmem S32x1 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S1x1 .i32) (harg9 : arg9.IsWhole) (hc0 : ¬cond1_0 i)
    (x0 : Vec F S32x128 .f32) (x1 : Vec F S32x128 .f32) (x2 : Vec F S32x1 .i32) (x3 : Vec F S1x128 .i32) (x4 : Vec F S1x128 .i32) (xo5 : Vec F S1x1 .f32) (xo6 : Vec F S1x1 .i32) :
    Σ' (L5 : List (View.Piece (Elt F) S1x1 .f32)), { L6 : List (View.Piece (Elt F) S1x1 .i32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo5 ∗ owns (c : Thread nD τ) arg9 fullShare xo6
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6)) -∗ K ⟨⟩))
          ⊢ wp frame (wpE (defs₀ (F := F)) Variants.none c none) E (cc1__mine_kernel i arg3 harg3 arg4 harg4 arg5 harg5 arg6 harg6 arg7 harg7 arg8 harg8 arg9 harg9) K } := by
  refine ⟨?_, ?_, fun E K => ?run⟩
  case run =>
    simp only [cc1__mine_kernel_eq_skeleton]; unfold cc1__mine_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexact H5
    iexists _; iexact H6

end Cert.Kernel.Mine

end
-- ==== Proof.MineRegionW.lean ====
/-
  The mining pass as a pipeline region: what the two accumulators hold after every grid point, the region's
  proof data, and the obligation that the body, called at any point with the windows' buffers as the pipeline
  leaves them, returns them as the proof data say.

  The first point resets both accumulators and then adds its tile's sums; every later point adds its tile's
  sums to what the point before left (the accumulators' buffers are single and are written back only after
  the last point, so nothing touches them between two points).  Two input windows that read one array share
  it: the lower-numbered window holds the left half of the full share, the other the right half.
-/
import proofs.«153964_j44006234915136_2_alg».proof.Proof.MineRunBW

set_option maxRecDepth 16384

noncomputable section

namespace Cert.Kernel.Mine

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What each case leaves in the accumulators' buffers: the run's pieces read back -/

theorem cover1_A_5 (c : Dev nD) (i : grid1.Coords) (arg3 : Memref sig .tc .vmem S32x128 .f32) (harg3 : arg3.IsWhole) (arg4 : Memref sig .tc .vmem S32x128 .f32) (harg4 : arg4.IsWhole) (arg5 : Memref sig .tc .vmem S32x1 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S1x1 .i32) (harg9 : arg9.IsWhole) (hc0 : cond1_0 i)
    (x0 : Vec F S32x128 .f32) (x1 : Vec F S32x128 .f32) (x2 : Vec F S32x1 .i32) (x3 : Vec F S1x128 .i32) (x4 : Vec F S1x128 .i32) (y : S1x1.Idx) :
    ∃ pc ∈ (kernelRun1_A c i arg3 harg3 arg4 harg4 arg5 harg5 arg6 harg6 arg7 harg7 arg8 harg8 arg9 harg9 hc0 x0 x1 x2 x3 x4).1, y ∈ pc.1.set :=
  View.cover_of_tiledL (kernelRun1_A c i arg3 harg3 arg4 harg4 arg5 harg5 arg6 harg6 arg7 harg7 arg8 harg8 arg9 harg9 hc0 x0 x1 x2 x3 x4).1 S1x1.size (by sl_kernel_rfl) y

def out1_A_5 (c : Dev nD) (i : grid1.Coords) (arg3 : Memref sig .tc .vmem S32x128 .f32) (harg3 : arg3.IsWhole) (arg4 : Memref sig .tc .vmem S32x128 .f32) (harg4 : arg4.IsWhole) (arg5 : Memref sig .tc .vmem S32x1 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S1x1 .i32) (harg9 : arg9.IsWhole) (hc0 : cond1_0 i)
    (x0 : Vec F S32x128 .f32) (x1 : Vec F S32x128 .f32) (x2 : Vec F S32x1 .i32) (x3 : Vec F S1x128 .i32) (x4 : Vec F S1x128 .i32) : Vec F S1x1 .f32 :=
  VO1_5.read (Elt F) (VO1_5.writes (Elt F) VO1_5.junk (kernelRun1_A c i arg3 harg3 arg4 harg4 arg5 harg5 arg6 harg6 arg7 harg7 arg8 harg8 arg9 harg9 hc0 x0 x1 x2 x3 x4).1)

theorem cover1_A_6 (c : Dev nD) (i : grid1.Coords) (arg3 : Memref sig .tc .vmem S32x128 .f32) (harg3 : arg3.IsWhole) (arg4 : Memref sig .tc .vmem S32x128 .f32) (harg4 : arg4.IsWhole) (arg5 : Memref sig .tc .vmem S32x1 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S1x1 .i32) (harg9 : arg9.IsWhole) (hc0 : cond1_0 i)
    (x0 : Vec F S32x128 .f32) (x1 : Vec F S32x128 .f32) (x2 : Vec F S32x1 .i32) (x3 : Vec F S1x128 .i32) (x4 : Vec F S1x128 .i32) (y : S1x1.Idx) :
    ∃ pc ∈ (kernelRun1_A c i arg3 harg3 arg4 harg4 arg5 harg5 arg6 harg6 arg7 harg7 arg8 harg8 arg9 harg9 hc0 x0 x1 x2 x3 x4).2.1, y ∈ pc.1.set :=
  View.cover_of_tiledL (kernelRun1_A c i arg3 harg3 arg4 harg4 arg5 harg5 arg6 harg6 arg7 harg7 arg8 harg8 arg9 harg9 hc0 x0 x1 x2 x3 x4).2.1 S1x1.size (by sl_kernel_rfl) y

def out1_A_6 (c : Dev nD) (i : grid1.Coords) (arg3 : Memref sig .tc .vmem S32x128 .f32) (harg3 : arg3.IsWhole) (arg4 : Memref sig .tc .vmem S32x128 .f32) (harg4 : arg4.IsWhole) (arg5 : Memref sig .tc .vmem S32x1 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S1x1 .i32) (harg9 : arg9.IsWhole) (hc0 : cond1_0 i)
    (x0 : Vec F S32x128 .f32) (x1 : Vec F S32x128 .f32) (x2 : Vec F S32x1 .i32) (x3 : Vec F S1x128 .i32) (x4 : Vec F S1x128 .i32) : Vec F S1x1 .i32 :=
  VO1_6.read (Elt F) (VO1_6.writes (Elt F) VO1_6.junk (kernelRun1_A c i arg3 harg3 arg4 harg4 arg5 harg5 arg6 harg6 arg7 harg7 arg8 harg8 arg9 harg9 hc0 x0 x1 x2 x3 x4).2.1)

theorem cover1_B_5 (c : Dev nD) (i : grid1.Coords) (arg3 : Memref sig .tc .vmem S32x128 .f32) (harg3 : arg3.IsWhole) (arg4 : Memref sig .tc .vmem S32x128 .f32) (harg4 : arg4.IsWhole) (arg5 : Memref sig .tc .vmem S32x1 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S1x1 .i32) (harg9 : arg9.IsWhole) (hc0 : ¬cond1_0 i)
    (x0 : Vec F S32x128 .f32) (x1 : Vec F S32x128 .f32) (x2 : Vec F S32x1 .i32) (x3 : Vec F S1x128 .i32) (x4 : Vec F S1x128 .i32) (xo5 : Vec F S1x1 .f32) (xo6 : Vec F S1x1 .i32) (y : S1x1.Idx) :
    ∃ pc ∈ (kernelRun1_B c i arg3 harg3 arg4 harg4 arg5 harg5 arg6 harg6 arg7 harg7 arg8 harg8 arg9 harg9 hc0 x0 x1 x2 x3 x4 xo5 xo6).1, y ∈ pc.1.set :=
  View.cover_of_tiledL (kernelRun1_B c i arg3 harg3 arg4 harg4 arg5 harg5 arg6 harg6 arg7 harg7 arg8 harg8 arg9 harg9 hc0 x0 x1 x2 x3 x4 xo5 xo6).1 S1x1.size (by sl_kernel_rfl) y

def out1_B_5 (c : Dev nD) (i : grid1.Coords) (arg3 : Memref sig .tc .vmem S32x128 .f32) (harg3 : arg3.IsWhole) (arg4 : Memref sig .tc .vmem S32x128 .f32) (harg4 : arg4.IsWhole) (arg5 : Memref sig .tc .vmem S32x1 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S1x1 .i32) (harg9 : arg9.IsWhole) (hc0 : ¬cond1_0 i)
    (x0 : Vec F S32x128 .f32) (x1 : Vec F S32x128 .f32) (x2 : Vec F S32x1 .i32) (x3 : Vec F S1x128 .i32) (x4 : Vec F S1x128 .i32) (xo5 : Vec F S1x1 .f32) (xo6 : Vec F S1x1 .i32) : Vec F S1x1 .f32 :=
  VO1_5.read (Elt F) (VO1_5.writes (Elt F) VO1_5.junk (kernelRun1_B c i arg3 harg3 arg4 harg4 arg5 harg5 arg6 harg6 arg7 harg7 arg8 harg8 arg9 harg9 hc0 x0 x1 x2 x3 x4 xo5 xo6).1)

theorem cover1_B_6 (c : Dev nD) (i : grid1.Coords) (arg3 : Memref sig .tc .vmem S32x128 .f32) (harg3 : arg3.IsWhole) (arg4 : Memref sig .tc .vmem S32x128 .f32) (harg4 : arg4.IsWhole) (arg5 : Memref sig .tc .vmem S32x1 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S1x1 .i32) (harg9 : arg9.IsWhole) (hc0 : ¬cond1_0 i)
    (x0 : Vec F S32x128 .f32) (x1 : Vec F S32x128 .f32) (x2 : Vec F S32x1 .i32) (x3 : Vec F S1x128 .i32) (x4 : Vec F S1x128 .i32) (xo5 : Vec F S1x1 .f32) (xo6 : Vec F S1x1 .i32) (y : S1x1.Idx) :
    ∃ pc ∈ (kernelRun1_B c i arg3 harg3 arg4 harg4 arg5 harg5 arg6 harg6 arg7 harg7 arg8 harg8 arg9 harg9 hc0 x0 x1 x2 x3 x4 xo5 xo6).2.1, y ∈ pc.1.set :=
  View.cover_of_tiledL (kernelRun1_B c i arg3 harg3 arg4 harg4 arg5 harg5 arg6 harg6 arg7 harg7 arg8 harg8 arg9 harg9 hc0 x0 x1 x2 x3 x4 xo5 xo6).2.1 S1x1.size (by sl_kernel_rfl) y

def out1_B_6 (c : Dev nD) (i : grid1.Coords) (arg3 : Memref sig .tc .vmem S32x128 .f32) (harg3 : arg3.IsWhole) (arg4 : Memref sig .tc .vmem S32x128 .f32) (harg4 : arg4.IsWhole) (arg5 : Memref sig .tc .vmem S32x1 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S1x1 .i32) (harg9 : arg9.IsWhole) (hc0 : ¬cond1_0 i)
    (x0 : Vec F S32x128 .f32) (x1 : Vec F S32x128 .f32) (x2 : Vec F S32x1 .i32) (x3 : Vec F S1x128 .i32) (x4 : Vec F S1x128 .i32) (xo5 : Vec F S1x1 .f32) (xo6 : Vec F S1x1 .i32) : Vec F S1x1 .i32 :=
  VO1_6.read (Elt F) (VO1_6.writes (Elt F) VO1_6.junk (kernelRun1_B c i arg3 harg3 arg4 harg4 arg5 harg5 arg6 harg6 arg7 harg7 arg8 harg8 arg9 harg9 hc0 x0 x1 x2 x3 x4 xo5 xo6).2.1)

/-! ## What the accumulators hold after each point -/

/-- The pair of accumulators after the body at position `n`: the first point's case at `n = 0`, afterwards the
    later points' case over what position `n - 1` left. -/
def outsAt1 (c : Dev nD) : (n : ℕ) → n < cfg1.N → Vec F S1x1 .f32 × Vec F S1x1 .i32
  | 0, hn =>
    (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) ((hcond1_0 ⟨0, hn⟩).mpr rfl) (iblk1 V c 0 ⟨0, hn⟩) (iblk1 V c 1 ⟨0, hn⟩) (iblk1 V c 2 ⟨0, hn⟩) (iblk1 V c 3 ⟨0, hn⟩) (iblk1 V c 4 ⟨0, hn⟩),
     out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) ((hcond1_0 ⟨0, hn⟩).mpr rfl) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => Nat.succ_ne_zero n ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).1 (outsAt1 c n (Nat.lt_of_succ_lt hn)).2,
     out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => Nat.succ_ne_zero n ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).1 (outsAt1 c n (Nat.lt_of_succ_lt hn)).2)

/-- The running total and the running count. -/
def outsAt1_5 (c : Dev nD) (n : ℕ) (hn : n < cfg1.N) : Vec F S1x1 .f32 := (outsAt1 V c n hn).1
def outsAt1_6 (c : Dev nD) (n : ℕ) (hn : n < cfg1.N) : Vec F S1x1 .i32 := (outsAt1 V c n hn).2

/-- At the first point: the reset case. -/
theorem outsAt1_5_A (c : Dev nD) (t : Fin cfg1.N) (h0 : t.val = 0) :
    outsAt1_5 V c t.val t.isLt = out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t) (iblk1 V c 4 t) := by
  obtain ⟨n, hn⟩ := t
  cases n with
  | zero => exact rfl
  | succ n => exact absurd h0 (Nat.succ_ne_zero n)
theorem outsAt1_6_A (c : Dev nD) (t : Fin cfg1.N) (h0 : t.val = 0) :
    outsAt1_6 V c t.val t.isLt = out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t) (iblk1 V c 4 t) := by
  obtain ⟨n, hn⟩ := t
  cases n with
  | zero => exact rfl
  | succ n => exact absurd h0 (Nat.succ_ne_zero n)

/-- At a later point: the accumulating case over what the point before left. -/
theorem outsAt1_5_B (c : Dev nD) (t : Fin cfg1.N) (h0 : ¬t.val = 0) :
    outsAt1_5 V c t.val t.isLt = out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (iblk1 V c 4 t)
      (outsAt1_5 V c (t.val - 1) (Nat.lt_of_le_of_lt (Nat.sub_le _ _) t.isLt)) (outsAt1_6 V c (t.val - 1) (Nat.lt_of_le_of_lt (Nat.sub_le _ _) t.isLt)) := by
  obtain ⟨n, hn⟩ := t
  cases n with
  | zero => exact absurd rfl h0
  | succ n => exact rfl
theorem outsAt1_6_B (c : Dev nD) (t : Fin cfg1.N) (h0 : ¬t.val = 0) :
    outsAt1_6 V c t.val t.isLt = out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (iblk1 V c 4 t)
      (outsAt1_5 V c (t.val - 1) (Nat.lt_of_le_of_lt (Nat.sub_le _ _) t.isLt)) (outsAt1_6 V c (t.val - 1) (Nat.lt_of_le_of_lt (Nat.sub_le _ _) t.isLt)) := by
  obtain ⟨n, hn⟩ := t
  cases n with
  | zero => exact absurd rfl h0
  | succ n => exact rfl

/-! ## The region's proof data -/

/-- The arrays as the region finds them; after the body at point `t` each input's buffer at its block and the
    accumulators' at the running pair; the invariant the scoped rest and the generator register, untouched;
    nothing owed; an array that two windows read dealt between them in halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outsAt1_5 V c t.val t.isLt
    | ⟨6, _⟩ => outsAt1_6 V c t.val t.isLt
  Φ _ := Pipeline.ΦA spec1 c
  q := fun w => match w with
    | ⟨0, _⟩ => fullShare.left
    | ⟨1, _⟩ => fullShare.right
    | ⟨2, _⟩ => fullShare
    | ⟨3, _⟩ => fullShare.left
    | ⟨4, _⟩ => fullShare.right
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outsAt1_5 V c t.val t.isLt := by dsimp only [dat1]
theorem after1_6 (c : Dev nD) (t : Fin cfg1.N) : (dat1 V c).after 6 t = outsAt1_6 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- At a later point an accumulator's buffer holds what the body left at the point before: the buffer was not
    written back between (only the last point writes back), the window is live and uncut. -/
theorem before1_5_B (c : Dev nD) (t : Fin cfg1.N) (h0 : ¬t.val = 0) (d) :
    (dat1 V c).before 5 t d = outsAt1_5 V c (t.val - 1) (Nat.lt_of_le_of_lt (Nat.sub_le _ _) t.isLt) := by
  have hN : t.val < 256 := lt_of_lt_of_eq t.isLt (show cfg1.N = 256 from N_1)
  rw [Dat.before_out_kept _ 5 rfl t h0 (Bool.eq_false_iff.mpr fun h => by have := (flush1_5 _).mp h; dsimp only at this; omega)
    (fun _ => rfl) (fun _ _ => rfl)]
  dsimp only [dat1]
theorem before1_6_B (c : Dev nD) (t : Fin cfg1.N) (h0 : ¬t.val = 0) (d) :
    (dat1 V c).before 6 t d = outsAt1_6 V c (t.val - 1) (Nat.lt_of_le_of_lt (Nat.sub_le _ _) t.isLt) := by
  have hN : t.val < 256 := lt_of_lt_of_eq t.isLt (show cfg1.N = 256 from N_1)
  rw [Dat.before_out_kept _ 6 rfl t h0 (Bool.eq_false_iff.mpr fun h => by have := (flush1_6 _).mp h; dsimp only at this; omega)
    (fun _ => rfl) (fun _ _ => rfl)]
  dsimp only [dat1]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  by_cases h0 : t.val = 0
  · rw [outsAt1_5_A V c t h0, outsAt1_6_A V c t h0]
    unfold out1_A_5 out1_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) _ _ _ _ _ _ _ _ _ _ _ _ _ _ ((hcond1_0 t).mpr h0) (iblk1 V c 0 t) (iblk1 V c 1 t) (iblk1 V c 2 t) (iblk1 V c 3 t) (iblk1 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover1_A_5 c _ _ _ _ _ _ _ _ _ _ _ _ _ _ _ _ _ _ _ _ _)
    unfold owns; iexists _; isplitr
    swap; · iexact H6
    ipureintro; exact View.read_writes_of_cover _ _ _ _ _ (cover1_A_6 c _ _ _ _ _ _ _ _ _ _ _ _ _ _ _ _ _ _ _ _ _)
  · rw [outsAt1_5_B V c t h0, outsAt1_6_B V c t h0]
    simp only [before1_5_B V c t h0, before1_6_B V c t h0]
    unfold out1_B_5 out1_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_B c (grid1.coords t) _ _ _ _ _ _ _ _ _ _ _ _ _ _ (fun h => h0 ((hcond1_0 t).mp h)) (iblk1 V c 0 t) (iblk1 V c 1 t) (iblk1 V c 2 t) (iblk1 V c 3 t) (iblk1 V c 4 t) _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover1_B_5 c _ _ _ _ _ _ _ _ _ _ _ _ _ _ _ _ _ _ _ _ _ _ _)
    unfold owns; iexists _; isplitr
    swap; · iexact H6
    ipureintro; exact View.read_writes_of_cover _ _ _ _ _ (cover1_B_6 c _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Mine

end
-- ==== Proof.RecordsW.lean ====
/-
  The kernel program as a whole: two pipelined calls among the host's operations, and its run.

  Each call is a segment that is entered from the buffers' contents the items before it left and leaves the contents
  the next item starts from; between them the host reshapes the labels, and after them it takes the quotient. An
  array that two of a call's input windows read is held by each window at one half of the full share for the
  duration of the call. The run threads the contents through the four items and reads the result buffer and both
  arguments off the last ones; the arguments are never written.
-/
import proofs.«153964_j44006234915136_2_alg».proof.Proof.DistRegionW
import proofs.«153964_j44006234915136_2_alg».proof.Proof.MineRegionW
import proofs.«153964_j44006234915136_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Records

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Dist Cert.Kernel.Mine

/-! ## The arrays two windows share, dealt and put back

In each call one array is handed to two input windows. The proof data hold it at the two halves of the full share,
so at the region's entry the array's full share is split in two and at its exit, both windows ending with the
contents they started from, the halves are joined again. -/

section Arrays
variable (V : (c : Dev nD) → (b : Ref sig .tc) → Buf (Elt F) ((c : Thread nD τ).loc b))

/-- The buffers behind the distance call's windows: the embeddings (windows 0 and 1) and the distance matrix. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)) := by
  unfold Pipeline.arrBufs
  rw [show (Finset.univ.image (Pipeline.arrRef spec0) : Finset (Ref sig .tc)) = insert main_arg0 {main_v0} from by decide,
    bigSep_insert (by decide), bigSep_singleton]
  rfl

/-- The distance call's arrays at the proof data's shares, window by window. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2)) := by
  unfold Dat.arrays
  rw [bigSep_W0, (arr_whole0 0).set_eq_univ, (arr_whole0 2).set_eq_univ]
  rfl

/-- The buffers behind the mining call's windows. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v0) ↦{fullShare} W main_v0) ∗ (((c : Thread nD τ).loc main_v1) ↦{fullShare} W main_v1)
          ∗ (((c : Thread nD τ).loc main_v2) ↦{fullShare} W main_v2) ∗ (((c : Thread nD τ).loc main_v3_0) ↦{fullShare} W main_v3_0)
          ∗ (((c : Thread nD τ).loc main_v3_1) ↦{fullShare} W main_v3_1)) := by
  unfold Pipeline.arrBufs
  rw [show (Finset.univ.image (Pipeline.arrRef spec1) : Finset (Ref sig .tc)) = insert main_v0 (insert main_v1 (insert main_v2 (insert main_v3_0 {main_v3_1}))) from by decide,
    bigSep_insert (by decide), bigSep_insert (by decide), bigSep_insert (by decide), bigSep_insert (by decide), bigSep_singleton]
  rfl

/-- The mining call's arrays at the proof data's shares, window by window. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2)
          ∗ (((c : Thread nD τ).loc main_v2) ↦{fullShare.left} G 3) ∗ (((c : Thread nD τ).loc main_v2) ↦{fullShare.right} G 4)
          ∗ (((c : Thread nD τ).loc main_v3_0) ↦{fullShare} G 5) ∗ (((c : Thread nD τ).loc main_v3_1) ↦{fullShare} G 6)) := by
  unfold Dat.arrays
  rw [bigSep_W1, (arr_whole1 0).set_eq_univ, (arr_whole1 2).set_eq_univ, (arr_whole1 3).set_eq_univ,
    (arr_whole1 5).set_eq_univ, (arr_whole1 6).set_eq_univ]
  rfl

end Arrays

/-! ## A call's arrays out of the unscoped buffers, and back -/

section SplitJoin

/-- ENTRY of the distance call: the unscoped buffers at `W` are the embeddings at the two halves of the full share
    (one per window reading them), the distance matrix whole, and the rest. -/
theorem split0 (c : Dev nD) (W : Valuation τ sig (Elt F)) :
    (StableHlo.held (c : Thread nD τ) (Pipeline.ucRefs τ sig) W : sProp 𝕄)
      ⊢ iprop(((((c : Thread nD τ).loc main_arg0) ↦{fullShare.left} W main_arg0) ∗ (((c : Thread nD τ).loc main_arg0) ↦{fullShare.right} W main_arg0)
          ∗ (((c : Thread nD τ).loc main_v0) ↦{fullShare} W main_v0))
          ∗ Pipeline.unscopedRest (Ix := Unit) (Name := ℕ) (U := UR sig nD τ) (Lvl := ℕ) spec0 c (fun b => W b)) := by
  rw [← Pipeline.unscopedBufs_held c W, (show (unscopedBufs (Ix := Unit) (Name := ℕ) (U := UR sig nD τ) (Lvl := ℕ) c (fun b => W b) : sProp 𝕄)
        = iprop((Pipeline.arrBufs spec0 c (fun b => W b) : sProp 𝕄) ∗ Pipeline.unscopedRest spec0 c (fun b => W b))
      from Pipeline.unscopedBufs_split₀ cfgs (0 : Fin 2) winFacts₀0.arr_unscoped c (fun b => W b)), arrBufs0_eq]
  iintro ⟨⟨Ha, Hv⟩, Hr⟩
  ihave Ha' := (pointsTo_share (PosShare.mem_left_op_right fullShare)).1 $$ Ha
  icases Ha' with ⟨Hl, Hrt⟩
  isplitr [Hr]
  · isplitl [Hl]; · iexact Hl
    isplitl [Hrt]; · iexact Hrt
    iexact Hv
  iexact Hr

/-- EXIT of the distance call: the halves joined, the distance matrix at its new contents, the rest as it was. -/
theorem join0 (c : Dev nD) (W W' : Valuation τ sig (Elt F))
    (G0 G1 : Buf (Elt F) ((c : Thread nD τ).loc main_arg0)) (X : Buf (Elt F) ((c : Thread nD τ).loc main_v0))
    (hG0 : G0 = W main_arg0) (hG1 : G1 = W main_arg0) (hX : X = W' main_v0) (h0 : W' main_arg0 = W main_arg0)
    (hrest : ∀ b : Ref sig .tc, b ∉ Finset.univ.image (Pipeline.arrRef spec0) → W' b = W b) :
    iprop(((((c : Thread nD τ).loc main_arg0) ↦{fullShare.left} G0) ∗ (((c : Thread nD τ).loc main_arg0) ↦{fullShare.right} G1)
          ∗ (((c : Thread nD τ).loc main_v0) ↦{fullShare} X))
          ∗ Pipeline.unscopedRest (Ix := Unit) (Name := ℕ) (U := UR sig nD τ) (Lvl := ℕ) spec0 c (fun b => W b))
      ⊢ (StableHlo.held (c : Thread nD τ) (Pipeline.ucRefs τ sig) W' : sProp 𝕄) := by
  subst hG0 hG1 hX
  rw [← Pipeline.unscopedBufs_held c W', (show (unscopedBufs (Ix := Unit) (Name := ℕ) (U := UR sig nD τ) (Lvl := ℕ) c (fun b => W' b) : sProp 𝕄)
        = iprop((Pipeline.arrBufs spec0 c (fun b => W' b) : sProp 𝕄) ∗ Pipeline.unscopedRest spec0 c (fun b => W' b))
      from Pipeline.unscopedBufs_split₀ cfgs (0 : Fin 2) winFacts₀0.arr_unscoped c (fun b => W' b)), arrBufs0_eq,
    show (Pipeline.unscopedRest (Ix := Unit) (Name := ℕ) (U := UR sig nD τ) (Lvl := ℕ) spec0 c (fun b => W' b) : sProp 𝕄)
      = Pipeline.unscopedRest spec0 c (fun b => W b) from by
        unfold Pipeline.unscopedRest
        exact bigSep_congr fun b hb => by beta_reduce; rw [hrest b (Finset.mem_sdiff.mp hb).2], h0]
  iintro ⟨⟨Hl, Hrt, Hv⟩, Hr⟩
  isplitr [Hr]
  · isplitl [Hl Hrt]
    · iapply (pointsTo_share (PosShare.mem_left_op_right fullShare)).2
      isplitl [Hl] <;> iassumption
    iexact Hv
  iexact Hr

/-- ENTRY of the mining call: the distance matrix and the labels' row each at the two halves of the full share, the
    labels' column and the two accumulators whole, and the rest. -/
theorem split1 (c : Dev nD) (W : Valuation τ sig (Elt F)) :
    (StableHlo.held (c : Thread nD τ) (Pipeline.ucRefs τ sig) W : sProp 𝕄)
      ⊢ iprop(((((c : Thread nD τ).loc main_v0) ↦{fullShare.left} W main_v0) ∗ (((c : Thread nD τ).loc main_v0) ↦{fullShare.right} W main_v0)
          ∗ (((c : Thread nD τ).loc main_v1) ↦{fullShare} W main_v1)
          ∗ (((c : Thread nD τ).loc main_v2) ↦{fullShare.left} W main_v2) ∗ (((c : Thread nD τ).loc main_v2) ↦{fullShare.right} W main_v2)
          ∗ (((c : Thread nD τ).loc main_v3_0) ↦{fullShare} W main_v3_0) ∗ (((c : Thread nD τ).loc main_v3_1) ↦{fullShare} W main_v3_1))
          ∗ Pipeline.unscopedRest (Ix := Unit) (Name := ℕ) (U := UR sig nD τ) (Lvl := ℕ) spec1 c (fun b => W b)) := by
  rw [← Pipeline.unscopedBufs_held c W, (show (unscopedBufs (Ix := Unit) (Name := ℕ) (U := UR sig nD τ) (Lvl := ℕ) c (fun b => W b) : sProp 𝕄)
        = iprop((Pipeline.arrBufs spec1 c (fun b => W b) : sProp 𝕄) ∗ Pipeline.unscopedRest spec1 c (fun b => W b))
      from Pipeline.unscopedBufs_split₀ cfgs (1 : Fin 2) winFacts₀1.arr_unscoped c (fun b => W b)), arrBufs1_eq]
  iintro ⟨⟨H0, H1, H2, H5, H6⟩, Hr⟩
  ihave H0' := (pointsTo_share (PosShare.mem_left_op_right fullShare)).1 $$ H0
  icases H0' with ⟨H0l, H0r⟩
  ihave H2' := (pointsTo_share (PosShare.mem_left_op_right fullShare)).1 $$ H2
  icases H2' with ⟨H2l, H2r⟩
  isplitr [Hr]
  · isplitl [H0l]; · iexact H0l
    isplitl [H0r]; · iexact H0r
    isplitl [H1]; · iexact H1
    isplitl [H2l]; · iexact H2l
    isplitl [H2r]; · iexact H2r
    isplitl [H5]; · iexact H5
    iexact H6
  iexact Hr

/-- EXIT of the mining call: the halves joined, the accumulators at their new contents, the rest as it was. -/
theorem join1 (c : Dev nD) (W W' : Valuation τ sig (Elt F))
    (G0 G1 : Buf (Elt F) ((c : Thread nD τ).loc main_v0)) (G2 : Buf (Elt F) ((c : Thread nD τ).loc main_v1))
    (G3 G4 : Buf (Elt F) ((c : Thread nD τ).loc main_v2)) (X5 : Buf (Elt F) ((c : Thread nD τ).loc main_v3_0)) (X6 : Buf (Elt F) ((c : Thread nD τ).loc main_v3_1))
    (hG0 : G0 = W main_v0) (hG1 : G1 = W main_v0) (hG2 : G2 = W main_v1) (hG3 : G3 = W main_v2) (hG4 : G4 = W main_v2)
    (hX5 : X5 = W' main_v3_0) (hX6 : X6 = W' main_v3_1)
    (h0 : W' main_v0 = W main_v0) (h1 : W' main_v1 = W main_v1) (h2 : W' main_v2 = W main_v2)
    (hrest : ∀ b : Ref sig .tc, b ∉ Finset.univ.image (Pipeline.arrRef spec1) → W' b = W b) :
    iprop(((((c : Thread nD τ).loc main_v0) ↦{fullShare.left} G0) ∗ (((c : Thread nD τ).loc main_v0) ↦{fullShare.right} G1)
          ∗ (((c : Thread nD τ).loc main_v1) ↦{fullShare} G2)
          ∗ (((c : Thread nD τ).loc main_v2) ↦{fullShare.left} G3) ∗ (((c : Thread nD τ).loc main_v2) ↦{fullShare.right} G4)
          ∗ (((c : Thread nD τ).loc main_v3_0) ↦{fullShare} X5) ∗ (((c : Thread nD τ).loc main_v3_1) ↦{fullShare} X6))
          ∗ Pipeline.unscopedRest (Ix := Unit) (Name := ℕ) (U := UR sig nD τ) (Lvl := ℕ) spec1 c (fun b => W b))
      ⊢ (StableHlo.held (c : Thread nD τ) (Pipeline.ucRefs τ sig) W' : sProp 𝕄) := by
  subst hG0 hG1 hG2 hG3 hG4 hX5 hX6
  rw [← Pipeline.unscopedBufs_held c W', (show (unscopedBufs (Ix := Unit) (Name := ℕ) (U := UR sig nD τ) (Lvl := ℕ) c (fun b => W' b) : sProp 𝕄)
        = iprop((Pipeline.arrBufs spec1 c (fun b => W' b) : sProp 𝕄) ∗ Pipeline.unscopedRest spec1 c (fun b => W' b))
      from Pipeline.unscopedBufs_split₀ cfgs (1 : Fin 2) winFacts₀1.arr_unscoped c (fun b => W' b)), arrBufs1_eq,
    show (Pipeline.unscopedRest (Ix := Unit) (Name := ℕ) (U := UR sig nD τ) (Lvl := ℕ) spec1 c (fun b => W' b) : sProp 𝕄)
      = Pipeline.unscopedRest spec1 c (fun b => W b) from by
        unfold Pipeline.unscopedRest
        exact bigSep_congr fun b hb => by beta_reduce; rw [hrest b (Finset.mem_sdiff.mp hb).2], h0, h1, h2]
  iintro ⟨⟨H0l, H0r, H1, H2l, H2r, H5, H6⟩, Hr⟩
  isplitr [Hr]
  · isplitl [H0l H0r]
    · iapply (pointsTo_share (PosShare.mem_left_op_right fullShare)).2
      isplitl [H0l] <;> iassumption
    isplitl [H1]; · iexact H1
    isplitl [H2l H2r]
    · iapply (pointsTo_share (PosShare.mem_left_op_right fullShare)).2
      isplitl [H2l] <;> iassumption
    isplitl [H5]; · iexact H5
    iexact H6
  iexact Hr

end SplitJoin

/-! ## The buffers' contents between the items of @main

The launch contents; then the distance matrix at what the first call's write-backs leave; then the two reshapes of the
labels; then the two accumulators at what the second call leaves; then the host's last six operations. -/

section Run
variable (m : (ℓ : Loc nD τ sig) → Buf (Elt F) ℓ)

/-- The contents the distance call is entered at: the launch's. -/
abbrev E0 : (c : Dev nD) → (b : Ref sig .tc) → Buf (Elt F) ((c : Thread nD τ).loc b) := fun c b => Gen.V0 m c b
/-- What the distance call leaves in the distance matrix. -/
def A1 (c : Dev nD) : Buf (Elt F) ((c : Thread nD τ).loc main_v0) := (dat0 (E0 m) c).arrAt 2 cfg0.N
/-- The buffers after the distance call. -/
def W1 (c : Dev nD) : Valuation τ sig (Elt F) := Function.update (Gen.V0 m c) main_v0 (A1 m c)
/-- The buffers after the labels' two reshapes: what the mining call is entered at. -/
abbrev W2 (c : Dev nD) : Valuation τ sig (Elt F) := StableHlo.after hostOps1 (W1 m c)
abbrev E1 : (c : Dev nD) → (b : Ref sig .tc) → Buf (Elt F) ((c : Thread nD τ).loc b) := fun c b => W2 m c b
/-- What the mining call leaves in the two accumulators. -/
def A5 (c : Dev nD) : Buf (Elt F) ((c : Thread nD τ).loc main_v3_0) := (dat1 (E1 m) c).arrAt 5 cfg1.N
def A6 (c : Dev nD) : Buf (Elt F) ((c : Thread nD τ).loc main_v3_1) := (dat1 (E1 m) c).arrAt 6 cfg1.N
/-- The buffers after the mining call, and after the host's last operations. -/
def W3 (c : Dev nD) : Valuation τ sig (Elt F) := Function.update (Function.update (W2 m c) main_v3_0 (A5 m c)) main_v3_1 (A6 m c)
abbrev W4 (c : Dev nD) : Valuation τ sig (Elt F) := StableHlo.after hostOps2 (W3 m c)

/-- What the two calls leave, as the generated host side asks for it. -/
def outs : Gen.Outs (F := F) := fun J r c =>
  match J with
  | 1 => W1 m c r
  | 3 => W3 m c r
  | _ => Gen.V0 m c r

theorem V1_eq (c : Dev nD) : Gen.V1 m (outs m) c = W1 m c := by
  show Function.update (Gen.V0 m c) main_v0 (W1 m c main_v0) = W1 m c
  unfold W1; rw [Function.update_self]
theorem V2_eq (c : Dev nD) : Gen.V2 m (outs m) c = W2 m c := by
  show StableHlo.after hostOps1 (Gen.V1 m (outs m) c) = _; rw [V1_eq]
theorem V3_eq (c : Dev nD) : Gen.V3 m (outs m) c = W3 m c := by
  show Function.update (Function.update (Gen.V2 m (outs m) c) main_v3_0 (W3 m c main_v3_0)) main_v3_1 (W3 m c main_v3_1) = W3 m c
  rw [V2_eq]; unfold W3
  rw [Function.update_self, Function.update_of_ne (by decide), Function.update_self]
theorem V4_eq (c : Dev nD) : Gen.V4 m (outs m) c = W4 m c := by
  show StableHlo.after hostOps2 (Gen.V3 m (outs m) c) = _; rw [V3_eq]

/-- Every pipeline's proof data, each at its region's entry contents. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c

abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)

end Run

/-! ## The two calls as segments of @main -/

section Segs
variable (m : (ℓ : Loc nD τ sig) → Buf (Elt F) ℓ)

theorem W1_main_v0 (c : Dev nD) : (dat0 (E0 m) c).arrAt 2 cfg0.N = W1 m c main_v0 := by
  unfold W1 A1; rw [Function.update_self]
theorem W1_of_ne (c : Dev nD) (b : Ref sig .tc) (hb : b ≠ main_v0) : W1 m c b = Gen.V0 m c b := by
  unfold W1; rw [Function.update_of_ne (StableHlo.devRef_ne_of_ne hb)]
theorem W3_main_v3_0 (c : Dev nD) : (dat1 (E1 m) c).arrAt 5 cfg1.N = W3 m c main_v3_0 := by
  unfold W3 A5; rw [Function.update_of_ne (StableHlo.devRef_ne_of_ne (by decide)), Function.update_self]
theorem W3_main_v3_1 (c : Dev nD) : (dat1 (E1 m) c).arrAt 6 cfg1.N = W3 m c main_v3_1 := by
  unfold W3 A6; rw [Function.update_self]
theorem W3_of_ne (c : Dev nD) (b : Ref sig .tc) (h5 : b ≠ main_v3_0) (h6 : b ≠ main_v3_1) : W3 m c b = W2 m c b := by
  unfold W3; rw [Function.update_of_ne (StableHlo.devRef_ne_of_ne h6), Function.update_of_ne (StableHlo.devRef_ne_of_ne h5)]

set_option backward.isDefEq.respectTransparency.types false in
/-- The distance call: entered from every unscoped buffer at the launch contents, left with the distance matrix at what
    its write-backs leave. The embeddings' full share is dealt to the two windows that read them and joined again at the
    exit (both end holding what they found); the generator register goes through the class invariant; nothing is owed. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none, show (pdats m 0 c) = dat0 (E0 m) c from rfl, arrays0_eq]
    iintro ⟨⟨Hub, Hp, HO⟩, -, -⟩
    ihave H := (split0 c (Gen.V0 m c)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [show (pdats m 0 c) = dat0 (E0 m) c from rfl, arrays0_eq]
    iintro ⟨Ha, HO, HY, Hrest⟩
    imodintro
    isplitl [Ha Hrest]
    · iapply (join0 c (Gen.V0 m c) (W1 m c) _ _ _
        (((dat0 (E0 m) c).arrAt_in 0 rfl _).trans (A_eq0 (E0 m) c 0))
        (((dat0 (E0 m) c).arrAt_in 1 rfl _).trans (A_eq0 (E0 m) c 1))
        (W1_main_v0 m c) (W1_of_ne m c main_arg0 (by decide))
        (fun b hb => W1_of_ne m c b fun e => hb (e ▸ Finset.mem_image.mpr ⟨2, Finset.mem_univ _, rfl⟩)))
      isplitl [Ha] <;> iassumption
    isplitl [HY]; · iexact HY
    unfold Pipeline.Dat.owesAt Pipeline.owesWithin
    icases HO with ⟨%W, -, HO⟩; iexists W; iexact HO

set_option backward.isDefEq.respectTransparency.types false in
/-- The mining call: entered from every unscoped buffer after the labels' reshapes, left with the two accumulators at
    what the last point writes back. The distance matrix and the labels' row are each dealt to the two windows that
    read them and joined again at the exit. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none, show (pdats m 1 c) = dat1 (E1 m) c from rfl, arrays1_eq]
    iintro ⟨⟨Hub, Hp, HO⟩, -, -⟩
    ihave H := (split1 c (W2 m c)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [show (pdats m 1 c) = dat1 (E1 m) c from rfl, arrays1_eq]
    iintro ⟨Ha, HO, HY, Hrest⟩
    imodintro
    isplitl [Ha Hrest]
    · iapply (join1 c (W2 m c) (W3 m c) _ _ _ _ _ _ _
        (((dat1 (E1 m) c).arrAt_in 0 rfl _).trans rfl)
        (((dat1 (E1 m) c).arrAt_in 1 rfl _).trans rfl)
        (((dat1 (E1 m) c).arrAt_in 2 rfl _).trans rfl)
        (((dat1 (E1 m) c).arrAt_in 3 rfl _).trans rfl)
        (((dat1 (E1 m) c).arrAt_in 4 rfl _).trans rfl)
        (W3_main_v3_0 m c) (W3_main_v3_1 m c)
        (W3_of_ne m c main_v0 (by decide) (by decide)) (W3_of_ne m c main_v1 (by decide) (by decide)) (W3_of_ne m c main_v2 (by decide) (by decide))
        (fun b hb => W3_of_ne m c b (fun e => hb (e ▸ Finset.mem_image.mpr ⟨5, Finset.mem_univ _, rfl⟩))
          (fun e => hb (e ▸ Finset.mem_image.mpr ⟨6, Finset.mem_univ _, rfl⟩))))
      isplitl [Ha] <;> iassumption
    isplitl [HY]; · iexact HY
    unfold Pipeline.Dat.owesAt Pipeline.owesWithin
    icases HO with ⟨%W, -, HO⟩; iexists W; iexact HO

end Segs

/-! ## @main as its four items, and the run -/

section TheRun
variable (m : (ℓ : Loc nD τ sig) → Buf (Elt F) ℓ) (ρ : Dev nD → PrngReg)

/-- A stretch of host operations as a segment over the unscoped buffers from the contents `W`, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- @main: the distance call, the labels' reshapes, the mining call, the quotient. -/
abbrev segs : List (Pipeline.Seg (pcfgs (F := F)) Gen.adm (pdats m) () defs₀ 𝒱₀ L lv) :=
  [ .region (reg0 m),
    .host (hseg hostOps1 hostOps1_sub Gen.hostOps1_fresh (W1 m)),
    .region (reg1 m),
    .host (hseg hostOps2 hostOps2_sub Gen.hostOps2_fresh (W3 m)) ]

theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No item writes an argument: the last contents have both as launched. -/
theorem W4_main_arg0 (c : Dev nD) : W4 m c main_arg0 = m ((c : Thread nD τ).loc main_arg0) :=
  (congrFun (V4_eq m c) _).symm.trans (Gen.V4_main_arg0 m (outs m) c)
theorem W4_main_arg1 (c : Dev nD) : W4 m c main_arg1 = m ((c : Thread nD τ).loc main_arg1) :=
  (congrFun (V4_eq m c) _).symm.trans (Gen.V4_main_arg1 m (outs m) c)

set_option backward.isDefEq.respectTransparency.types false in
/-- From any memory with zero counters every weakly fair execution of @main terminates, nothing faulting, and every
    final memory holds the result at the last contents' and both arguments as launched. -/
theorem run_all : θ_run defs (onTc (τ := τ) (main (F := F))) ⟨m, fun _ => 0, ρ⟩ (fun r => ∀ c : Dev nD,
      r.2.mem ((c.tc : Thread nD τ).loc main_v8) = W4 m c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (W4 m c))
    (hch := ⟨fun _ => .rfl, fun _ => .rfl, fun _ => .rfl, fun _ => .rfl, fun c =>
      (show iprop(StableHlo.held (c : Thread nD τ) (Pipeline.ucRefs τ sig) (W4 m c) ∗ R c)
          ⊢ iprop(StableHlo.held (c : Thread nD τ) (Pipeline.ucRefs τ sig) (W4 m c) ∗ ∃ W, owes (c : Thread nD τ) (0 : CellTallies nD τ sig Unit) W) from by
        iintro ⟨Hh, -, HO⟩
        isplitl [Hh]; · iexact Hh
        iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨Hh, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v8 (by decide)),
       (h c _ (mem_uc main_arg0 (by decide))).trans (W4_main_arg0 m c),
       (h c _ (mem_uc main_arg1 (by decide))).trans (W4_main_arg1 m c)⟩)

end TheRun

end Cert.Kernel.Records

end
-- ==== Proof.DistRegion.lean ====
/-
  The distance pass as one pipelined region: a grid of four points, each loading a block of 128 rows of the
  embeddings (window 0) and the whole embeddings array (window 1, fetched once: its block index never moves),
  computing the 128 × 512 block of pairwise distances and storing it whole into the output window 2.

  Stated for any float instance and at a parameter V: the buffer contents when the region is entered.
  The two input windows sit on the same array, so the array's full share is dealt between them: the left
  half to window 0, the right half to window 1.
-/
import proofs.«153964_j44006234915136_2_alg».proof.Proof.Gen.KernelIdeal.Launch
import proofs.«153964_j44006234915136_2_alg».proof.Proof.Gen.KernelIdeal.Skeleton
import proofs.«153964_j44006234915136_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Dist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1: its block index never moves, so where it is not fetched the buffer still holds
    the block fetched at the first point, which is every point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S128x2048 := Rect.unit (s := S128x2048) ![0, 0] S128x2048.size inb_S128x2048_S128x2048_0_0
abbrev r0_1 : Rect S512x2048 := Rect.unit (s := S512x2048) ![0, 0] S512x2048.size inb_S512x2048_S512x2048_0_0
abbrev r0_2 : Rect S128x512 := Rect.unit (s := S128x512) ![0, 0] S128x512.size inb_S128x512_S128x512_0_0

/-! ## What the body leaves in the output window's buffer -/

/-- Window 2's staging buffer after the body, from the input windows' blocks: its one store, of the block of
    distances computed from the two loads. -/
def out0_2 (x0 : Vec F S128x2048 .f32) (x1 : Vec F S512x2048 .f32) : Vec F S128x512 .f32 :=
  View.canon [⟨r0_2, k0_pay1 (View.ld x0 r0_0) (View.ld x1 r0_1)⟩]

/-- The store tiles the buffer, so it covers it. -/
theorem cover0_2 (p0 : Vec F S128x512 .f32) (y : S128x512.Idx) :
    ∃ pc ∈ ([⟨r0_2, p0⟩] : List (View.Piece (Elt F) S128x512 .f32)), y ∈ pc.1.set :=
  View.cover_of_tiled [⟨r0_2, p0⟩] S128x512.size (by rfl) y

/-! ## The body's triple -/

set_option maxHeartbeats 1000000 in
/-- The kernel body on whole staging memrefs, the inputs' at read contents x0, x1 and the output's at anything, runs
    to the continuation holding the inputs' as they were and the output's at out0_2 of the inputs'. The body loads
    the output buffer before storing it; the loaded value is unused. -/
theorem sound_kernel0 (c : Dev nD) (E : Set ℕ) (i : grid0.Coords)
    (arg1 : Memref sig .tc .vmem S128x2048 .f32) (harg1 : arg1.IsWhole)
    (arg2 : Memref sig .tc .vmem S512x2048 .f32) (harg2 : arg2.IsWhole)
    (arg3 : Memref sig .tc .vmem S128x512 .f32) (harg3 : arg3.IsWhole)
    (x0 : Vec F S128x2048 .f32) (x1 : Vec F S512x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dist_kernel i arg1 harg1 arg2 harg2 arg3 harg3) K := by
  simp only [cc0__dist_kernel_eq_skeleton]; unfold cc0__dist_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the distance pipeline on core c: the arrays as the region finds them; after the body at
    point t each input's buffer at its block and the output's at out0_2 of the input blocks; the scoped rest and
    the generator register untouched; nothing owed; the embeddings array's full share dealt between its two
    windows. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q := fun w => match w with
    | ⟨0, _⟩ => fullShare.left
    | ⟨1, _⟩ => fullShare.right
    | ⟨2, _⟩ => fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Dist

end
-- ==== Proof.MineBase.lean ====
/-
  The mining pass as a pipeline region, part one: what each window's staging buffer holds when the body is
  called (an input window always holds its block of the array, fetched at that point or not, because an
  unfetched window's block index has not moved), and the one condition of the body: the three grid
  coordinates are all zero, which holds at the first of the 256 points only.
-/
import proofs.«153964_j44006234915136_2_alg».proof.Proof.Gen.KernelIdeal.Launch
import proofs.«153964_j44006234915136_2_alg».proof.Proof.Gen.KernelIdeal.Skeleton
import proofs.«153964_j44006234915136_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Mine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array at the contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Regions

/-- The body's one condition, from the grid coordinates: all three are zero. -/
abbrev cond1_0 (i : grid1.Coords) : Prop :=
  (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1

/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- One staging buffer of each accumulator, through which its contents are stated. -/
abbrev VO1_5 : View sig .tc .vmem S1x1 .f32 := (Memref.whole cc1_stg5_0 : Memref sig .tc .vmem S1x1 .f32).view
abbrev VO1_6 : View sig .tc .vmem S1x1 .i32 := (Memref.whole cc1_stg6_0 : Memref sig .tc .vmem S1x1 .i32).view

/-- Each window's current staging memref at point `t`, and its wholeness. -/
abbrev ms1_0 (t : Fin cfg1.N) : Memref sig .tc .vmem S32x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1 .i32 := win1_6.stage (cfg1.slots t 6)
abbrev hs1_6 (t : Fin cfg1.N) : (ms1_6 t).IsWhole := hstage1_6 ((cfg1.slots t 6).cast nbuf1_6)

end Cert.KernelIdeal.Mine

end
-- ==== Proof.MineRunA.lean ====
/-
  The body of the mining pass run on any whole staging memrefs, at the first grid point (the accumulators are reset before they are added to):
  the five input buffers are read and handed back as found; what the stores leave in the two accumulators'
  buffers is found by the run, as lists of written pieces.
-/
import proofs.«153964_j44006234915136_2_alg».proof.Proof.MineBase

set_option maxRecDepth 16384

noncomputable section

namespace Cert.KernelIdeal.Mine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S32x128 .f32) (harg3 : arg3.IsWhole) (arg4 : Memref sig .tc .vmem S32x128 .f32) (harg4 : arg4.IsWhole) (arg5 : Memref sig .tc .vmem S32x1 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S1x1 .i32) (harg9 : arg9.IsWhole) (hc0 : cond1_0 i)
    (x0 : Vec F S32x128 .f32) (x1 : Vec F S32x128 .f32) (x2 : Vec F S32x1 .i32) (x3 : Vec F S1x128 .i32) (x4 : Vec F S1x128 .i32) :
    Σ' (L5 : List (View.Piece (Elt F) S1x1 .f32)), { L6 : List (View.Piece (Elt F) S1x1 .i32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6)) -∗ K ⟨⟩))
          ⊢ wp frame (wpE (defs₀ (F := F)) Variants.none c none) E (cc1__mine_kernel i arg3 harg3 arg4 harg4 arg5 harg5 arg6 harg6 arg7 harg7 arg8 harg8 arg9 harg9) K } := by
  refine ⟨?_, ?_, fun E K => ?run⟩
  case run =>
    simp only [cc1__mine_kernel_eq_skeleton]; unfold cc1__mine_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexact H5
    iexists _; iexact H6

end Cert.KernelIdeal.Mine

end
-- ==== Proof.MineRunB.lean ====
/-
  The body of the mining pass run on any whole staging memrefs, at a later grid point (the accumulators are added to as the point before left them):
  the five input buffers are read and handed back as found; what the stores leave in the two accumulators'
  buffers is found by the run, as lists of written pieces.
-/
import proofs.«153964_j44006234915136_2_alg».proof.Proof.MineRunA

set_option maxRecDepth 16384

noncomputable section

namespace Cert.KernelIdeal.Mine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S32x128 .f32) (harg3 : arg3.IsWhole) (arg4 : Memref sig .tc .vmem S32x128 .f32) (harg4 : arg4.IsWhole) (arg5 : Memref sig .tc .vmem S32x1 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S1x1 .i32) (harg9 : arg9.IsWhole) (hc0 : ¬cond1_0 i)
    (x0 : Vec F S32x128 .f32) (x1 : Vec F S32x128 .f32) (x2 : Vec F S32x1 .i32) (x3 : Vec F S1x128 .i32) (x4 : Vec F S1x128 .i32) (xo5 : Vec F S1x1 .f32) (xo6 : Vec F S1x1 .i32) :
    Σ' (L5 : List (View.Piece (Elt F) S1x1 .f32)), { L6 : List (View.Piece (Elt F) S1x1 .i32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo5 ∗ owns (c : Thread nD τ) arg9 fullShare xo6
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6)) -∗ K ⟨⟩))
          ⊢ wp frame (wpE (defs₀ (F := F)) Variants.none c none) E (cc1__mine_kernel i arg3 harg3 arg4 harg4 arg5 harg5 arg6 harg6 arg7 harg7 arg8 harg8 arg9 harg9) K } := by
  refine ⟨?_, ?_, fun E K => ?run⟩
  case run =>
    simp only [cc1__mine_kernel_eq_skeleton]; unfold cc1__mine_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexact H5
    iexists _; iexact H6

end Cert.KernelIdeal.Mine

end
-- ==== Proof.MineRegion.lean ====
/-
  The mining pass as a pipeline region: what the two accumulators hold after every grid point, the region's
  proof data, and the obligation that the body, called at any point with the windows' buffers as the pipeline
  leaves them, returns them as the proof data say.

  The first point resets both accumulators and then adds its tile's sums; every later point adds its tile's
  sums to what the point before left (the accumulators' buffers are single and are written back only after
  the last point, so nothing touches them between two points).  Two input windows that read one array share
  it: the lower-numbered window holds the left half of the full share, the other the right half.
-/
import proofs.«153964_j44006234915136_2_alg».proof.Proof.MineRunB

set_option maxRecDepth 16384

noncomputable section

namespace Cert.KernelIdeal.Mine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What each case leaves in the accumulators' buffers: the run's pieces read back -/

theorem cover1_A_5 (c : Dev nD) (i : grid1.Coords) (arg3 : Memref sig .tc .vmem S32x128 .f32) (harg3 : arg3.IsWhole) (arg4 : Memref sig .tc .vmem S32x128 .f32) (harg4 : arg4.IsWhole) (arg5 : Memref sig .tc .vmem S32x1 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S1x1 .i32) (harg9 : arg9.IsWhole) (hc0 : cond1_0 i)
    (x0 : Vec F S32x128 .f32) (x1 : Vec F S32x128 .f32) (x2 : Vec F S32x1 .i32) (x3 : Vec F S1x128 .i32) (x4 : Vec F S1x128 .i32) (y : S1x1.Idx) :
    ∃ pc ∈ (kernelRun1_A c i arg3 harg3 arg4 harg4 arg5 harg5 arg6 harg6 arg7 harg7 arg8 harg8 arg9 harg9 hc0 x0 x1 x2 x3 x4).1, y ∈ pc.1.set :=
  View.cover_of_tiledL (kernelRun1_A c i arg3 harg3 arg4 harg4 arg5 harg5 arg6 harg6 arg7 harg7 arg8 harg8 arg9 harg9 hc0 x0 x1 x2 x3 x4).1 S1x1.size (by sl_kernel_rfl) y

def out1_A_5 (c : Dev nD) (i : grid1.Coords) (arg3 : Memref sig .tc .vmem S32x128 .f32) (harg3 : arg3.IsWhole) (arg4 : Memref sig .tc .vmem S32x128 .f32) (harg4 : arg4.IsWhole) (arg5 : Memref sig .tc .vmem S32x1 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S1x1 .i32) (harg9 : arg9.IsWhole) (hc0 : cond1_0 i)
    (x0 : Vec F S32x128 .f32) (x1 : Vec F S32x128 .f32) (x2 : Vec F S32x1 .i32) (x3 : Vec F S1x128 .i32) (x4 : Vec F S1x128 .i32) : Vec F S1x1 .f32 :=
  VO1_5.read (Elt F) (VO1_5.writes (Elt F) VO1_5.junk (kernelRun1_A c i arg3 harg3 arg4 harg4 arg5 harg5 arg6 harg6 arg7 harg7 arg8 harg8 arg9 harg9 hc0 x0 x1 x2 x3 x4).1)

theorem cover1_A_6 (c : Dev nD) (i : grid1.Coords) (arg3 : Memref sig .tc .vmem S32x128 .f32) (harg3 : arg3.IsWhole) (arg4 : Memref sig .tc .vmem S32x128 .f32) (harg4 : arg4.IsWhole) (arg5 : Memref sig .tc .vmem S32x1 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S1x1 .i32) (harg9 : arg9.IsWhole) (hc0 : cond1_0 i)
    (x0 : Vec F S32x128 .f32) (x1 : Vec F S32x128 .f32) (x2 : Vec F S32x1 .i32) (x3 : Vec F S1x128 .i32) (x4 : Vec F S1x128 .i32) (y : S1x1.Idx) :
    ∃ pc ∈ (kernelRun1_A c i arg3 harg3 arg4 harg4 arg5 harg5 arg6 harg6 arg7 harg7 arg8 harg8 arg9 harg9 hc0 x0 x1 x2 x3 x4).2.1, y ∈ pc.1.set :=
  View.cover_of_tiledL (kernelRun1_A c i arg3 harg3 arg4 harg4 arg5 harg5 arg6 harg6 arg7 harg7 arg8 harg8 arg9 harg9 hc0 x0 x1 x2 x3 x4).2.1 S1x1.size (by sl_kernel_rfl) y

def out1_A_6 (c : Dev nD) (i : grid1.Coords) (arg3 : Memref sig .tc .vmem S32x128 .f32) (harg3 : arg3.IsWhole) (arg4 : Memref sig .tc .vmem S32x128 .f32) (harg4 : arg4.IsWhole) (arg5 : Memref sig .tc .vmem S32x1 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S1x1 .i32) (harg9 : arg9.IsWhole) (hc0 : cond1_0 i)
    (x0 : Vec F S32x128 .f32) (x1 : Vec F S32x128 .f32) (x2 : Vec F S32x1 .i32) (x3 : Vec F S1x128 .i32) (x4 : Vec F S1x128 .i32) : Vec F S1x1 .i32 :=
  VO1_6.read (Elt F) (VO1_6.writes (Elt F) VO1_6.junk (kernelRun1_A c i arg3 harg3 arg4 harg4 arg5 harg5 arg6 harg6 arg7 harg7 arg8 harg8 arg9 harg9 hc0 x0 x1 x2 x3 x4).2.1)

theorem cover1_B_5 (c : Dev nD) (i : grid1.Coords) (arg3 : Memref sig .tc .vmem S32x128 .f32) (harg3 : arg3.IsWhole) (arg4 : Memref sig .tc .vmem S32x128 .f32) (harg4 : arg4.IsWhole) (arg5 : Memref sig .tc .vmem S32x1 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S1x1 .i32) (harg9 : arg9.IsWhole) (hc0 : ¬cond1_0 i)
    (x0 : Vec F S32x128 .f32) (x1 : Vec F S32x128 .f32) (x2 : Vec F S32x1 .i32) (x3 : Vec F S1x128 .i32) (x4 : Vec F S1x128 .i32) (xo5 : Vec F S1x1 .f32) (xo6 : Vec F S1x1 .i32) (y : S1x1.Idx) :
    ∃ pc ∈ (kernelRun1_B c i arg3 harg3 arg4 harg4 arg5 harg5 arg6 harg6 arg7 harg7 arg8 harg8 arg9 harg9 hc0 x0 x1 x2 x3 x4 xo5 xo6).1, y ∈ pc.1.set :=
  View.cover_of_tiledL (kernelRun1_B c i arg3 harg3 arg4 harg4 arg5 harg5 arg6 harg6 arg7 harg7 arg8 harg8 arg9 harg9 hc0 x0 x1 x2 x3 x4 xo5 xo6).1 S1x1.size (by sl_kernel_rfl) y

def out1_B_5 (c : Dev nD) (i : grid1.Coords) (arg3 : Memref sig .tc .vmem S32x128 .f32) (harg3 : arg3.IsWhole) (arg4 : Memref sig .tc .vmem S32x128 .f32) (harg4 : arg4.IsWhole) (arg5 : Memref sig .tc .vmem S32x1 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S1x1 .i32) (harg9 : arg9.IsWhole) (hc0 : ¬cond1_0 i)
    (x0 : Vec F S32x128 .f32) (x1 : Vec F S32x128 .f32) (x2 : Vec F S32x1 .i32) (x3 : Vec F S1x128 .i32) (x4 : Vec F S1x128 .i32) (xo5 : Vec F S1x1 .f32) (xo6 : Vec F S1x1 .i32) : Vec F S1x1 .f32 :=
  VO1_5.read (Elt F) (VO1_5.writes (Elt F) VO1_5.junk (kernelRun1_B c i arg3 harg3 arg4 harg4 arg5 harg5 arg6 harg6 arg7 harg7 arg8 harg8 arg9 harg9 hc0 x0 x1 x2 x3 x4 xo5 xo6).1)

theorem cover1_B_6 (c : Dev nD) (i : grid1.Coords) (arg3 : Memref sig .tc .vmem S32x128 .f32) (harg3 : arg3.IsWhole) (arg4 : Memref sig .tc .vmem S32x128 .f32) (harg4 : arg4.IsWhole) (arg5 : Memref sig .tc .vmem S32x1 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S1x1 .i32) (harg9 : arg9.IsWhole) (hc0 : ¬cond1_0 i)
    (x0 : Vec F S32x128 .f32) (x1 : Vec F S32x128 .f32) (x2 : Vec F S32x1 .i32) (x3 : Vec F S1x128 .i32) (x4 : Vec F S1x128 .i32) (xo5 : Vec F S1x1 .f32) (xo6 : Vec F S1x1 .i32) (y : S1x1.Idx) :
    ∃ pc ∈ (kernelRun1_B c i arg3 harg3 arg4 harg4 arg5 harg5 arg6 harg6 arg7 harg7 arg8 harg8 arg9 harg9 hc0 x0 x1 x2 x3 x4 xo5 xo6).2.1, y ∈ pc.1.set :=
  View.cover_of_tiledL (kernelRun1_B c i arg3 harg3 arg4 harg4 arg5 harg5 arg6 harg6 arg7 harg7 arg8 harg8 arg9 harg9 hc0 x0 x1 x2 x3 x4 xo5 xo6).2.1 S1x1.size (by sl_kernel_rfl) y

def out1_B_6 (c : Dev nD) (i : grid1.Coords) (arg3 : Memref sig .tc .vmem S32x128 .f32) (harg3 : arg3.IsWhole) (arg4 : Memref sig .tc .vmem S32x128 .f32) (harg4 : arg4.IsWhole) (arg5 : Memref sig .tc .vmem S32x1 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S1x1 .i32) (harg9 : arg9.IsWhole) (hc0 : ¬cond1_0 i)
    (x0 : Vec F S32x128 .f32) (x1 : Vec F S32x128 .f32) (x2 : Vec F S32x1 .i32) (x3 : Vec F S1x128 .i32) (x4 : Vec F S1x128 .i32) (xo5 : Vec F S1x1 .f32) (xo6 : Vec F S1x1 .i32) : Vec F S1x1 .i32 :=
  VO1_6.read (Elt F) (VO1_6.writes (Elt F) VO1_6.junk (kernelRun1_B c i arg3 harg3 arg4 harg4 arg5 harg5 arg6 harg6 arg7 harg7 arg8 harg8 arg9 harg9 hc0 x0 x1 x2 x3 x4 xo5 xo6).2.1)

/-! ## What the accumulators hold after each point -/

/-- The pair of accumulators after the body at position `n`: the first point's case at `n = 0`, afterwards the
    later points' case over what position `n - 1` left. -/
def outsAt1 (c : Dev nD) : (n : ℕ) → n < cfg1.N → Vec F S1x1 .f32 × Vec F S1x1 .i32
  | 0, hn =>
    (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) ((hcond1_0 ⟨0, hn⟩).mpr rfl) (iblk1 V c 0 ⟨0, hn⟩) (iblk1 V c 1 ⟨0, hn⟩) (iblk1 V c 2 ⟨0, hn⟩) (iblk1 V c 3 ⟨0, hn⟩) (iblk1 V c 4 ⟨0, hn⟩),
     out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) ((hcond1_0 ⟨0, hn⟩).mpr rfl) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => Nat.succ_ne_zero n ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).1 (outsAt1 c n (Nat.lt_of_succ_lt hn)).2,
     out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => Nat.succ_ne_zero n ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).1 (outsAt1 c n (Nat.lt_of_succ_lt hn)).2)

/-- The running total and the running count. -/
def outsAt1_5 (c : Dev nD) (n : ℕ) (hn : n < cfg1.N) : Vec F S1x1 .f32 := (outsAt1 V c n hn).1
def outsAt1_6 (c : Dev nD) (n : ℕ) (hn : n < cfg1.N) : Vec F S1x1 .i32 := (outsAt1 V c n hn).2

/-- At the first point: the reset case. -/
theorem outsAt1_5_A (c : Dev nD) (t : Fin cfg1.N) (h0 : t.val = 0) :
    outsAt1_5 V c t.val t.isLt = out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t) (iblk1 V c 4 t) := by
  obtain ⟨n, hn⟩ := t
  cases n with
  | zero => exact rfl
  | succ n => exact absurd h0 (Nat.succ_ne_zero n)
theorem outsAt1_6_A (c : Dev nD) (t : Fin cfg1.N) (h0 : t.val = 0) :
    outsAt1_6 V c t.val t.isLt = out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t) (iblk1 V c 4 t) := by
  obtain ⟨n, hn⟩ := t
  cases n with
  | zero => exact rfl
  | succ n => exact absurd h0 (Nat.succ_ne_zero n)

/-- At a later point: the accumulating case over what the point before left. -/
theorem outsAt1_5_B (c : Dev nD) (t : Fin cfg1.N) (h0 : ¬t.val = 0) :
    outsAt1_5 V c t.val t.isLt = out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (iblk1 V c 4 t)
      (outsAt1_5 V c (t.val - 1) (Nat.lt_of_le_of_lt (Nat.sub_le _ _) t.isLt)) (outsAt1_6 V c (t.val - 1) (Nat.lt_of_le_of_lt (Nat.sub_le _ _) t.isLt)) := by
  obtain ⟨n, hn⟩ := t
  cases n with
  | zero => exact absurd rfl h0
  | succ n => exact rfl
theorem outsAt1_6_B (c : Dev nD) (t : Fin cfg1.N) (h0 : ¬t.val = 0) :
    outsAt1_6 V c t.val t.isLt = out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (iblk1 V c 4 t)
      (outsAt1_5 V c (t.val - 1) (Nat.lt_of_le_of_lt (Nat.sub_le _ _) t.isLt)) (outsAt1_6 V c (t.val - 1) (Nat.lt_of_le_of_lt (Nat.sub_le _ _) t.isLt)) := by
  obtain ⟨n, hn⟩ := t
  cases n with
  | zero => exact absurd rfl h0
  | succ n => exact rfl

/-! ## The region's proof data -/

/-- The arrays as the region finds them; after the body at point `t` each input's buffer at its block and the
    accumulators' at the running pair; the invariant the scoped rest and the generator register, untouched;
    nothing owed; an array that two windows read dealt between them in halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outsAt1_5 V c t.val t.isLt
    | ⟨6, _⟩ => outsAt1_6 V c t.val t.isLt
  Φ _ := Pipeline.ΦA spec1 c
  q := fun w => match w with
    | ⟨0, _⟩ => fullShare.left
    | ⟨1, _⟩ => fullShare.right
    | ⟨2, _⟩ => fullShare
    | ⟨3, _⟩ => fullShare.left
    | ⟨4, _⟩ => fullShare.right
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outsAt1_5 V c t.val t.isLt := by dsimp only [dat1]
theorem after1_6 (c : Dev nD) (t : Fin cfg1.N) : (dat1 V c).after 6 t = outsAt1_6 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- At a later point an accumulator's buffer holds what the body left at the point before: the buffer was not
    written back between (only the last point writes back), the window is live and uncut. -/
theorem before1_5_B (c : Dev nD) (t : Fin cfg1.N) (h0 : ¬t.val = 0) (d) :
    (dat1 V c).before 5 t d = outsAt1_5 V c (t.val - 1) (Nat.lt_of_le_of_lt (Nat.sub_le _ _) t.isLt) := by
  have hN : t.val < 256 := lt_of_lt_of_eq t.isLt (show cfg1.N = 256 from N_1)
  rw [Dat.before_out_kept _ 5 rfl t h0 (Bool.eq_false_iff.mpr fun h => by have := (flush1_5 _).mp h; dsimp only at this; omega)
    (fun _ => rfl) (fun _ _ => rfl)]
  dsimp only [dat1]
theorem before1_6_B (c : Dev nD) (t : Fin cfg1.N) (h0 : ¬t.val = 0) (d) :
    (dat1 V c).before 6 t d = outsAt1_6 V c (t.val - 1) (Nat.lt_of_le_of_lt (Nat.sub_le _ _) t.isLt) := by
  have hN : t.val < 256 := lt_of_lt_of_eq t.isLt (show cfg1.N = 256 from N_1)
  rw [Dat.before_out_kept _ 6 rfl t h0 (Bool.eq_false_iff.mpr fun h => by have := (flush1_6 _).mp h; dsimp only at this; omega)
    (fun _ => rfl) (fun _ _ => rfl)]
  dsimp only [dat1]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  by_cases h0 : t.val = 0
  · rw [outsAt1_5_A V c t h0, outsAt1_6_A V c t h0]
    unfold out1_A_5 out1_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) _ _ _ _ _ _ _ _ _ _ _ _ _ _ ((hcond1_0 t).mpr h0) (iblk1 V c 0 t) (iblk1 V c 1 t) (iblk1 V c 2 t) (iblk1 V c 3 t) (iblk1 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover1_A_5 c _ _ _ _ _ _ _ _ _ _ _ _ _ _ _ _ _ _ _ _ _)
    unfold owns; iexists _; isplitr
    swap; · iexact H6
    ipureintro; exact View.read_writes_of_cover _ _ _ _ _ (cover1_A_6 c _ _ _ _ _ _ _ _ _ _ _ _ _ _ _ _ _ _ _ _ _)
  · rw [outsAt1_5_B V c t h0, outsAt1_6_B V c t h0]
    simp only [before1_5_B V c t h0, before1_6_B V c t h0]
    unfold out1_B_5 out1_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_B c (grid1.coords t) _ _ _ _ _ _ _ _ _ _ _ _ _ _ (fun h => h0 ((hcond1_0 t).mp h)) (iblk1 V c 0 t) (iblk1 V c 1 t) (iblk1 V c 2 t) (iblk1 V c 3 t) (iblk1 V c 4 t) _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover1_B_5 c _ _ _ _ _ _ _ _ _ _ _ _ _ _ _ _ _ _ _ _ _ _ _)
    unfold owns; iexists _; isplitr
    swap; · iexact H6
    ipureintro; exact View.read_writes_of_cover _ _ _ _ _ (cover1_B_6 c _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Mine

end
-- ==== Proof.Records.lean ====
/-
  The kernel program as a whole: two pipelined calls among the host's operations, and its run.

  Each call is a segment that is entered from the buffers' contents the items before it left and leaves the contents
  the next item starts from; between them the host reshapes the labels, and after them it takes the quotient. An
  array that two of a call's input windows read is held by each window at one half of the full share for the
  duration of the call. The run threads the contents through the four items and reads the result buffer and both
  arguments off the last ones; the arguments are never written.
-/
import proofs.«153964_j44006234915136_2_alg».proof.Proof.DistRegion
import proofs.«153964_j44006234915136_2_alg».proof.Proof.MineRegion
import proofs.«153964_j44006234915136_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Records

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Dist Cert.KernelIdeal.Mine

/-! ## The arrays two windows share, dealt and put back

In each call one array is handed to two input windows. The proof data hold it at the two halves of the full share,
so at the region's entry the array's full share is split in two and at its exit, both windows ending with the
contents they started from, the halves are joined again. -/

section Arrays
variable (V : (c : Dev nD) → (b : Ref sig .tc) → Buf (Elt F) ((c : Thread nD τ).loc b))

/-- The buffers behind the distance call's windows: the embeddings (windows 0 and 1) and the distance matrix. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)) := by
  unfold Pipeline.arrBufs
  rw [show (Finset.univ.image (Pipeline.arrRef spec0) : Finset (Ref sig .tc)) = insert main_arg0 {main_v0} from by decide,
    bigSep_insert (by decide), bigSep_singleton]
  rfl

/-- The distance call's arrays at the proof data's shares, window by window. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2)) := by
  unfold Dat.arrays
  rw [bigSep_W0, (arr_whole0 0).set_eq_univ, (arr_whole0 2).set_eq_univ]
  rfl

/-- The buffers behind the mining call's windows. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v0) ↦{fullShare} W main_v0) ∗ (((c : Thread nD τ).loc main_v1) ↦{fullShare} W main_v1)
          ∗ (((c : Thread nD τ).loc main_v2) ↦{fullShare} W main_v2) ∗ (((c : Thread nD τ).loc main_v3_0) ↦{fullShare} W main_v3_0)
          ∗ (((c : Thread nD τ).loc main_v3_1) ↦{fullShare} W main_v3_1)) := by
  unfold Pipeline.arrBufs
  rw [show (Finset.univ.image (Pipeline.arrRef spec1) : Finset (Ref sig .tc)) = insert main_v0 (insert main_v1 (insert main_v2 (insert main_v3_0 {main_v3_1}))) from by decide,
    bigSep_insert (by decide), bigSep_insert (by decide), bigSep_insert (by decide), bigSep_insert (by decide), bigSep_singleton]
  rfl

/-- The mining call's arrays at the proof data's shares, window by window. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2)
          ∗ (((c : Thread nD τ).loc main_v2) ↦{fullShare.left} G 3) ∗ (((c : Thread nD τ).loc main_v2) ↦{fullShare.right} G 4)
          ∗ (((c : Thread nD τ).loc main_v3_0) ↦{fullShare} G 5) ∗ (((c : Thread nD τ).loc main_v3_1) ↦{fullShare} G 6)) := by
  unfold Dat.arrays
  rw [bigSep_W1, (arr_whole1 0).set_eq_univ, (arr_whole1 2).set_eq_univ, (arr_whole1 3).set_eq_univ,
    (arr_whole1 5).set_eq_univ, (arr_whole1 6).set_eq_univ]
  rfl

end Arrays

/-! ## A call's arrays out of the unscoped buffers, and back -/

section SplitJoin

/-- ENTRY of the distance call: the unscoped buffers at `W` are the embeddings at the two halves of the full share
    (one per window reading them), the distance matrix whole, and the rest. -/
theorem split0 (c : Dev nD) (W : Valuation τ sig (Elt F)) :
    (StableHlo.held (c : Thread nD τ) (Pipeline.ucRefs τ sig) W : sProp 𝕄)
      ⊢ iprop(((((c : Thread nD τ).loc main_arg0) ↦{fullShare.left} W main_arg0) ∗ (((c : Thread nD τ).loc main_arg0) ↦{fullShare.right} W main_arg0)
          ∗ (((c : Thread nD τ).loc main_v0) ↦{fullShare} W main_v0))
          ∗ Pipeline.unscopedRest (Ix := Unit) (Name := ℕ) (U := UR sig nD τ) (Lvl := ℕ) spec0 c (fun b => W b)) := by
  rw [← Pipeline.unscopedBufs_held c W, (show (unscopedBufs (Ix := Unit) (Name := ℕ) (U := UR sig nD τ) (Lvl := ℕ) c (fun b => W b) : sProp 𝕄)
        = iprop((Pipeline.arrBufs spec0 c (fun b => W b) : sProp 𝕄) ∗ Pipeline.unscopedRest spec0 c (fun b => W b))
      from Pipeline.unscopedBufs_split₀ cfgs (0 : Fin 2) winFacts₀0.arr_unscoped c (fun b => W b)), arrBufs0_eq]
  iintro ⟨⟨Ha, Hv⟩, Hr⟩
  ihave Ha' := (pointsTo_share (PosShare.mem_left_op_right fullShare)).1 $$ Ha
  icases Ha' with ⟨Hl, Hrt⟩
  isplitr [Hr]
  · isplitl [Hl]; · iexact Hl
    isplitl [Hrt]; · iexact Hrt
    iexact Hv
  iexact Hr

/-- EXIT of the distance call: the halves joined, the distance matrix at its new contents, the rest as it was. -/
theorem join0 (c : Dev nD) (W W' : Valuation τ sig (Elt F))
    (G0 G1 : Buf (Elt F) ((c : Thread nD τ).loc main_arg0)) (X : Buf (Elt F) ((c : Thread nD τ).loc main_v0))
    (hG0 : G0 = W main_arg0) (hG1 : G1 = W main_arg0) (hX : X = W' main_v0) (h0 : W' main_arg0 = W main_arg0)
    (hrest : ∀ b : Ref sig .tc, b ∉ Finset.univ.image (Pipeline.arrRef spec0) → W' b = W b) :
    iprop(((((c : Thread nD τ).loc main_arg0) ↦{fullShare.left} G0) ∗ (((c : Thread nD τ).loc main_arg0) ↦{fullShare.right} G1)
          ∗ (((c : Thread nD τ).loc main_v0) ↦{fullShare} X))
          ∗ Pipeline.unscopedRest (Ix := Unit) (Name := ℕ) (U := UR sig nD τ) (Lvl := ℕ) spec0 c (fun b => W b))
      ⊢ (StableHlo.held (c : Thread nD τ) (Pipeline.ucRefs τ sig) W' : sProp 𝕄) := by
  subst hG0 hG1 hX
  rw [← Pipeline.unscopedBufs_held c W', (show (unscopedBufs (Ix := Unit) (Name := ℕ) (U := UR sig nD τ) (Lvl := ℕ) c (fun b => W' b) : sProp 𝕄)
        = iprop((Pipeline.arrBufs spec0 c (fun b => W' b) : sProp 𝕄) ∗ Pipeline.unscopedRest spec0 c (fun b => W' b))
      from Pipeline.unscopedBufs_split₀ cfgs (0 : Fin 2) winFacts₀0.arr_unscoped c (fun b => W' b)), arrBufs0_eq,
    show (Pipeline.unscopedRest (Ix := Unit) (Name := ℕ) (U := UR sig nD τ) (Lvl := ℕ) spec0 c (fun b => W' b) : sProp 𝕄)
      = Pipeline.unscopedRest spec0 c (fun b => W b) from by
        unfold Pipeline.unscopedRest
        exact bigSep_congr fun b hb => by beta_reduce; rw [hrest b (Finset.mem_sdiff.mp hb).2], h0]
  iintro ⟨⟨Hl, Hrt, Hv⟩, Hr⟩
  isplitr [Hr]
  · isplitl [Hl Hrt]
    · iapply (pointsTo_share (PosShare.mem_left_op_right fullShare)).2
      isplitl [Hl] <;> iassumption
    iexact Hv
  iexact Hr

/-- ENTRY of the mining call: the distance matrix and the labels' row each at the two halves of the full share, the
    labels' column and the two accumulators whole, and the rest. -/
theorem split1 (c : Dev nD) (W : Valuation τ sig (Elt F)) :
    (StableHlo.held (c : Thread nD τ) (Pipeline.ucRefs τ sig) W : sProp 𝕄)
      ⊢ iprop(((((c : Thread nD τ).loc main_v0) ↦{fullShare.left} W main_v0) ∗ (((c : Thread nD τ).loc main_v0) ↦{fullShare.right} W main_v0)
          ∗ (((c : Thread nD τ).loc main_v1) ↦{fullShare} W main_v1)
          ∗ (((c : Thread nD τ).loc main_v2) ↦{fullShare.left} W main_v2) ∗ (((c : Thread nD τ).loc main_v2) ↦{fullShare.right} W main_v2)
          ∗ (((c : Thread nD τ).loc main_v3_0) ↦{fullShare} W main_v3_0) ∗ (((c : Thread nD τ).loc main_v3_1) ↦{fullShare} W main_v3_1))
          ∗ Pipeline.unscopedRest (Ix := Unit) (Name := ℕ) (U := UR sig nD τ) (Lvl := ℕ) spec1 c (fun b => W b)) := by
  rw [← Pipeline.unscopedBufs_held c W, (show (unscopedBufs (Ix := Unit) (Name := ℕ) (U := UR sig nD τ) (Lvl := ℕ) c (fun b => W b) : sProp 𝕄)
        = iprop((Pipeline.arrBufs spec1 c (fun b => W b) : sProp 𝕄) ∗ Pipeline.unscopedRest spec1 c (fun b => W b))
      from Pipeline.unscopedBufs_split₀ cfgs (1 : Fin 2) winFacts₀1.arr_unscoped c (fun b => W b)), arrBufs1_eq]
  iintro ⟨⟨H0, H1, H2, H5, H6⟩, Hr⟩
  ihave H0' := (pointsTo_share (PosShare.mem_left_op_right fullShare)).1 $$ H0
  icases H0' with ⟨H0l, H0r⟩
  ihave H2' := (pointsTo_share (PosShare.mem_left_op_right fullShare)).1 $$ H2
  icases H2' with ⟨H2l, H2r⟩
  isplitr [Hr]
  · isplitl [H0l]; · iexact H0l
    isplitl [H0r]; · iexact H0r
    isplitl [H1]; · iexact H1
    isplitl [H2l]; · iexact H2l
    isplitl [H2r]; · iexact H2r
    isplitl [H5]; · iexact H5
    iexact H6
  iexact Hr

/-- EXIT of the mining call: the halves joined, the accumulators at their new contents, the rest as it was. -/
theorem join1 (c : Dev nD) (W W' : Valuation τ sig (Elt F))
    (G0 G1 : Buf (Elt F) ((c : Thread nD τ).loc main_v0)) (G2 : Buf (Elt F) ((c : Thread nD τ).loc main_v1))
    (G3 G4 : Buf (Elt F) ((c : Thread nD τ).loc main_v2)) (X5 : Buf (Elt F) ((c : Thread nD τ).loc main_v3_0)) (X6 : Buf (Elt F) ((c : Thread nD τ).loc main_v3_1))
    (hG0 : G0 = W main_v0) (hG1 : G1 = W main_v0) (hG2 : G2 = W main_v1) (hG3 : G3 = W main_v2) (hG4 : G4 = W main_v2)
    (hX5 : X5 = W' main_v3_0) (hX6 : X6 = W' main_v3_1)
    (h0 : W' main_v0 = W main_v0) (h1 : W' main_v1 = W main_v1) (h2 : W' main_v2 = W main_v2)
    (hrest : ∀ b : Ref sig .tc, b ∉ Finset.univ.image (Pipeline.arrRef spec1) → W' b = W b) :
    iprop(((((c : Thread nD τ).loc main_v0) ↦{fullShare.left} G0) ∗ (((c : Thread nD τ).loc main_v0) ↦{fullShare.right} G1)
          ∗ (((c : Thread nD τ).loc main_v1) ↦{fullShare} G2)
          ∗ (((c : Thread nD τ).loc main_v2) ↦{fullShare.left} G3) ∗ (((c : Thread nD τ).loc main_v2) ↦{fullShare.right} G4)
          ∗ (((c : Thread nD τ).loc main_v3_0) ↦{fullShare} X5) ∗ (((c : Thread nD τ).loc main_v3_1) ↦{fullShare} X6))
          ∗ Pipeline.unscopedRest (Ix := Unit) (Name := ℕ) (U := UR sig nD τ) (Lvl := ℕ) spec1 c (fun b => W b))
      ⊢ (StableHlo.held (c : Thread nD τ) (Pipeline.ucRefs τ sig) W' : sProp 𝕄) := by
  subst hG0 hG1 hG2 hG3 hG4 hX5 hX6
  rw [← Pipeline.unscopedBufs_held c W', (show (unscopedBufs (Ix := Unit) (Name := ℕ) (U := UR sig nD τ) (Lvl := ℕ) c (fun b => W' b) : sProp 𝕄)
        = iprop((Pipeline.arrBufs spec1 c (fun b => W' b) : sProp 𝕄) ∗ Pipeline.unscopedRest spec1 c (fun b => W' b))
      from Pipeline.unscopedBufs_split₀ cfgs (1 : Fin 2) winFacts₀1.arr_unscoped c (fun b => W' b)), arrBufs1_eq,
    show (Pipeline.unscopedRest (Ix := Unit) (Name := ℕ) (U := UR sig nD τ) (Lvl := ℕ) spec1 c (fun b => W' b) : sProp 𝕄)
      = Pipeline.unscopedRest spec1 c (fun b => W b) from by
        unfold Pipeline.unscopedRest
        exact bigSep_congr fun b hb => by beta_reduce; rw [hrest b (Finset.mem_sdiff.mp hb).2], h0, h1, h2]
  iintro ⟨⟨H0l, H0r, H1, H2l, H2r, H5, H6⟩, Hr⟩
  isplitr [Hr]
  · isplitl [H0l H0r]
    · iapply (pointsTo_share (PosShare.mem_left_op_right fullShare)).2
      isplitl [H0l] <;> iassumption
    isplitl [H1]; · iexact H1
    isplitl [H2l H2r]
    · iapply (pointsTo_share (PosShare.mem_left_op_right fullShare)).2
      isplitl [H2l] <;> iassumption
    isplitl [H5]; · iexact H5
    iexact H6
  iexact Hr

end SplitJoin

/-! ## The buffers' contents between the items of @main

The launch contents; then the distance matrix at what the first call's write-backs leave; then the two reshapes of the
labels; then the two accumulators at what the second call leaves; then the host's last six operations. -/

section Run
variable (m : (ℓ : Loc nD τ sig) → Buf (Elt F) ℓ)

/-- The contents the distance call is entered at: the launch's. -/
abbrev E0 : (c : Dev nD) → (b : Ref sig .tc) → Buf (Elt F) ((c : Thread nD τ).loc b) := fun c b => Gen.V0 m c b
/-- What the distance call leaves in the distance matrix. -/
def A1 (c : Dev nD) : Buf (Elt F) ((c : Thread nD τ).loc main_v0) := (dat0 (E0 m) c).arrAt 2 cfg0.N
/-- The buffers after the distance call. -/
def W1 (c : Dev nD) : Valuation τ sig (Elt F) := Function.update (Gen.V0 m c) main_v0 (A1 m c)
/-- The buffers after the labels' two reshapes: what the mining call is entered at. -/
abbrev W2 (c : Dev nD) : Valuation τ sig (Elt F) := StableHlo.after hostOps1 (W1 m c)
abbrev E1 : (c : Dev nD) → (b : Ref sig .tc) → Buf (Elt F) ((c : Thread nD τ).loc b) := fun c b => W2 m c b
/-- What the mining call leaves in the two accumulators. -/
def A5 (c : Dev nD) : Buf (Elt F) ((c : Thread nD τ).loc main_v3_0) := (dat1 (E1 m) c).arrAt 5 cfg1.N
def A6 (c : Dev nD) : Buf (Elt F) ((c : Thread nD τ).loc main_v3_1) := (dat1 (E1 m) c).arrAt 6 cfg1.N
/-- The buffers after the mining call, and after the host's last operations. -/
def W3 (c : Dev nD) : Valuation τ sig (Elt F) := Function.update (Function.update (W2 m c) main_v3_0 (A5 m c)) main_v3_1 (A6 m c)
abbrev W4 (c : Dev nD) : Valuation τ sig (Elt F) := StableHlo.after hostOps2 (W3 m c)

/-- What the two calls leave, as the generated host side asks for it. -/
def outs : Gen.Outs (F := F) := fun J r c =>
  match J with
  | 1 => W1 m c r
  | 3 => W3 m c r
  | _ => Gen.V0 m c r

theorem V1_eq (c : Dev nD) : Gen.V1 m (outs m) c = W1 m c := by
  show Function.update (Gen.V0 m c) main_v0 (W1 m c main_v0) = W1 m c
  unfold W1; rw [Function.update_self]
theorem V2_eq (c : Dev nD) : Gen.V2 m (outs m) c = W2 m c := by
  show StableHlo.after hostOps1 (Gen.V1 m (outs m) c) = _; rw [V1_eq]
theorem V3_eq (c : Dev nD) : Gen.V3 m (outs m) c = W3 m c := by
  show Function.update (Function.update (Gen.V2 m (outs m) c) main_v3_0 (W3 m c main_v3_0)) main_v3_1 (W3 m c main_v3_1) = W3 m c
  rw [V2_eq]; unfold W3
  rw [Function.update_self, Function.update_of_ne (by decide), Function.update_self]
theorem V4_eq (c : Dev nD) : Gen.V4 m (outs m) c = W4 m c := by
  show StableHlo.after hostOps2 (Gen.V3 m (outs m) c) = _; rw [V3_eq]

/-- Every pipeline's proof data, each at its region's entry contents. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c

abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)

end Run

/-! ## The two calls as segments of @main -/

section Segs
variable (m : (ℓ : Loc nD τ sig) → Buf (Elt F) ℓ)

theorem W1_main_v0 (c : Dev nD) : (dat0 (E0 m) c).arrAt 2 cfg0.N = W1 m c main_v0 := by
  unfold W1 A1; rw [Function.update_self]
theorem W1_of_ne (c : Dev nD) (b : Ref sig .tc) (hb : b ≠ main_v0) : W1 m c b = Gen.V0 m c b := by
  unfold W1; rw [Function.update_of_ne (StableHlo.devRef_ne_of_ne hb)]
theorem W3_main_v3_0 (c : Dev nD) : (dat1 (E1 m) c).arrAt 5 cfg1.N = W3 m c main_v3_0 := by
  unfold W3 A5; rw [Function.update_of_ne (StableHlo.devRef_ne_of_ne (by decide)), Function.update_self]
theorem W3_main_v3_1 (c : Dev nD) : (dat1 (E1 m) c).arrAt 6 cfg1.N = W3 m c main_v3_1 := by
  unfold W3 A6; rw [Function.update_self]
theorem W3_of_ne (c : Dev nD) (b : Ref sig .tc) (h5 : b ≠ main_v3_0) (h6 : b ≠ main_v3_1) : W3 m c b = W2 m c b := by
  unfold W3; rw [Function.update_of_ne (StableHlo.devRef_ne_of_ne h6), Function.update_of_ne (StableHlo.devRef_ne_of_ne h5)]

set_option backward.isDefEq.respectTransparency.types false in
/-- The distance call: entered from every unscoped buffer at the launch contents, left with the distance matrix at what
    its write-backs leave. The embeddings' full share is dealt to the two windows that read them and joined again at the
    exit (both end holding what they found); the generator register goes through the class invariant; nothing is owed. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none, show (pdats m 0 c) = dat0 (E0 m) c from rfl, arrays0_eq]
    iintro ⟨⟨Hub, Hp, HO⟩, -, -⟩
    ihave H := (split0 c (Gen.V0 m c)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [show (pdats m 0 c) = dat0 (E0 m) c from rfl, arrays0_eq]
    iintro ⟨Ha, HO, HY, Hrest⟩
    imodintro
    isplitl [Ha Hrest]
    · iapply (join0 c (Gen.V0 m c) (W1 m c) _ _ _
        (((dat0 (E0 m) c).arrAt_in 0 rfl _).trans (A_eq0 (E0 m) c 0))
        (((dat0 (E0 m) c).arrAt_in 1 rfl _).trans (A_eq0 (E0 m) c 1))
        (W1_main_v0 m c) (W1_of_ne m c main_arg0 (by decide))
        (fun b hb => W1_of_ne m c b fun e => hb (e ▸ Finset.mem_image.mpr ⟨2, Finset.mem_univ _, rfl⟩)))
      isplitl [Ha] <;> iassumption
    isplitl [HY]; · iexact HY
    unfold Pipeline.Dat.owesAt Pipeline.owesWithin
    icases HO with ⟨%W, -, HO⟩; iexists W; iexact HO

set_option backward.isDefEq.respectTransparency.types false in
/-- The mining call: entered from every unscoped buffer after the labels' reshapes, left with the two accumulators at
    what the last point writes back. The distance matrix and the labels' row are each dealt to the two windows that
    read them and joined again at the exit. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none, show (pdats m 1 c) = dat1 (E1 m) c from rfl, arrays1_eq]
    iintro ⟨⟨Hub, Hp, HO⟩, -, -⟩
    ihave H := (split1 c (W2 m c)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [show (pdats m 1 c) = dat1 (E1 m) c from rfl, arrays1_eq]
    iintro ⟨Ha, HO, HY, Hrest⟩
    imodintro
    isplitl [Ha Hrest]
    · iapply (join1 c (W2 m c) (W3 m c) _ _ _ _ _ _ _
        (((dat1 (E1 m) c).arrAt_in 0 rfl _).trans rfl)
        (((dat1 (E1 m) c).arrAt_in 1 rfl _).trans rfl)
        (((dat1 (E1 m) c).arrAt_in 2 rfl _).trans rfl)
        (((dat1 (E1 m) c).arrAt_in 3 rfl _).trans rfl)
        (((dat1 (E1 m) c).arrAt_in 4 rfl _).trans rfl)
        (W3_main_v3_0 m c) (W3_main_v3_1 m c)
        (W3_of_ne m c main_v0 (by decide) (by decide)) (W3_of_ne m c main_v1 (by decide) (by decide)) (W3_of_ne m c main_v2 (by decide) (by decide))
        (fun b hb => W3_of_ne m c b (fun e => hb (e ▸ Finset.mem_image.mpr ⟨5, Finset.mem_univ _, rfl⟩))
          (fun e => hb (e ▸ Finset.mem_image.mpr ⟨6, Finset.mem_univ _, rfl⟩))))
      isplitl [Ha] <;> iassumption
    isplitl [HY]; · iexact HY
    unfold Pipeline.Dat.owesAt Pipeline.owesWithin
    icases HO with ⟨%W, -, HO⟩; iexists W; iexact HO

end Segs

/-! ## @main as its four items, and the run -/

section TheRun
variable (m : (ℓ : Loc nD τ sig) → Buf (Elt F) ℓ) (ρ : Dev nD → PrngReg)

/-- A stretch of host operations as a segment over the unscoped buffers from the contents `W`, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- @main: the distance call, the labels' reshapes, the mining call, the quotient. -/
abbrev segs : List (Pipeline.Seg (pcfgs (F := F)) Gen.adm (pdats m) () defs₀ 𝒱₀ L lv) :=
  [ .region (reg0 m),
    .host (hseg hostOps1 hostOps1_sub Gen.hostOps1_fresh (W1 m)),
    .region (reg1 m),
    .host (hseg hostOps2 hostOps2_sub Gen.hostOps2_fresh (W3 m)) ]

theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No item writes an argument: the last contents have both as launched. -/
theorem W4_main_arg0 (c : Dev nD) : W4 m c main_arg0 = m ((c : Thread nD τ).loc main_arg0) :=
  (congrFun (V4_eq m c) _).symm.trans (Gen.V4_main_arg0 m (outs m) c)
theorem W4_main_arg1 (c : Dev nD) : W4 m c main_arg1 = m ((c : Thread nD τ).loc main_arg1) :=
  (congrFun (V4_eq m c) _).symm.trans (Gen.V4_main_arg1 m (outs m) c)

set_option backward.isDefEq.respectTransparency.types false in
/-- From any memory with zero counters every weakly fair execution of @main terminates, nothing faulting, and every
    final memory holds the result at the last contents' and both arguments as launched. -/
theorem run_all : θ_run defs (onTc (τ := τ) (main (F := F))) ⟨m, fun _ => 0, ρ⟩ (fun r => ∀ c : Dev nD,
      r.2.mem ((c.tc : Thread nD τ).loc main_v8) = W4 m c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (W4 m c))
    (hch := ⟨fun _ => .rfl, fun _ => .rfl, fun _ => .rfl, fun _ => .rfl, fun c =>
      (show iprop(StableHlo.held (c : Thread nD τ) (Pipeline.ucRefs τ sig) (W4 m c) ∗ R c)
          ⊢ iprop(StableHlo.held (c : Thread nD τ) (Pipeline.ucRefs τ sig) (W4 m c) ∗ ∃ W, owes (c : Thread nD τ) (0 : CellTallies nD τ sig Unit) W) from by
        iintro ⟨Hh, -, HO⟩
        isplitl [Hh]; · iexact Hh
        iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨Hh, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v8 (by decide)),
       (h c _ (mem_uc main_arg0 (by decide))).trans (W4_main_arg0 m c),
       (h c _ (mem_uc main_arg1 (by decide))).trans (W4_main_arg1 m c)⟩)

end TheRun

end Cert.KernelIdeal.Records

end
-- ==== Proof.TripletSpec.lean ====
/-
  The triplet-mining loss as one function of the embeddings `x : [512, 2048]` (extended reals) and the
  identity labels `tg : [512]` (32-bit words).

  * `dist p q` is the Euclidean distance of rows `p` and `q` by the expansion
    `|x_p|² + |x_q|² - 2 ⟨x_p, x_q⟩`, clamped at zero, the square root taken only where the clamped
    value is positive (zero elsewhere).
  * A triple `(p, q, r)` is SELECTED when `q` is a positive of the anchor `p` (same label, `q ≠ p`),
    `r` a negative (another label), and the margin is violated: `dist p r - dist p q < 1/2`.
  * `total` is the sum over the selected triples of the hinge `max (dist p q - dist p r + 1/2) 0`,
    `count` their number as a 32-bit word (the sum of ones, modulo 2³²), and the loss is
    `total / max count 1`.
-/
import Idealize.ShloMosaic.PureOps.Ideal
import Idealize.ShloMosaic.Lib.ValueIdx
import Mathlib.Data.BitVec

noncomputable section

namespace Cert.Triplet

open Idealize.ShloMosaic Idealize.ShloMosaic.ValueIdx

/-- The embeddings' and the labels' shapes. -/
abbrev SX : Shape := ⟨2, ![512, 2048]⟩
abbrev ST : Shape := ⟨1, ![512]⟩

variable (x : SX.Idx → EReal) (tg : ST.Idx → BitVec 32)

/-- The literals of both programs: 2, 1/2 and 1 as their binary32 patterns denote them. -/
def two : EReal := Ideal.ofBits .f32 0x40000000#32
def half : EReal := Ideal.ofBits .f32 0x3F000000#32
def one : EReal := Ideal.ofBits .f32 0x3F800000#32

/-- `|x_p|²`. -/
def sqn (p : Fin 512) : EReal := ∑ k : Fin 2048, x (ix2 p k) * x (ix2 p k)
/-- `⟨x_p, x_q⟩`. -/
def gram (p q : Fin 512) : EReal := ∑ k : Fin 2048, x (ix2 p k) * x (ix2 q k)
/-- The squared distance by the expansion, clamped at zero. -/
def d2 (p q : Fin 512) : EReal := max ((sqn x p + sqn x q) - two * gram x p q) 0
/-- The distance: the root where the clamped square is positive, zero elsewhere. -/
def dist (p q : Fin 512) : EReal := if 0 < d2 x p q then Ideal.sqrt (d2 x p q) else 0

/-- `q` is a positive of `p`: same label, another row. -/
def pos (p q : Fin 512) : Bool := tg (ix1 p) == tg (ix1 q) && p != q
/-- `r` is a negative of `p`: another label. -/
def neg (p r : Fin 512) : Bool := tg (ix1 p) != tg (ix1 r)
/-- The triple is selected: a positive, a negative, the margin violated. -/
def viol (p q r : Fin 512) : Bool :=
  pos tg p q && neg tg p r && decide (dist x p r - dist x p q < half)
/-- The hinge of a triple. -/
def per (p q r : Fin 512) : EReal := max ((dist x p q - dist x p r) + half) 0

/-- The sum of the hinges of the selected triples. -/
def total : EReal := ∑ p : Fin 512, ∑ q : Fin 512, ∑ r : Fin 512, if viol x tg p q r then per x p q r else 0
/-- The number of selected triples, as a 32-bit word. -/
def count : BitVec 32 := ∑ p : Fin 512, ∑ q : Fin 512, ∑ r : Fin 512, if viol x tg p q r then 1#32 else 0#32
/-- The loss: the mean hinge over the selected triples (over one when there is none). -/
def result : EReal := Ideal.div (total x tg) ((((IntOp.maxsi (count x tg) 1#32).toInt : ℝ)) : EReal)

/-! ## The same loss, tile by tile

The mining pass walks the 16 × 4 × 4 grid of tiles of 32 anchors × 128 positives × 128 negatives in
row-major order; tile `t` holds the anchors `32 (t / 16) + a`, the positives `128 (t / 4 % 4) + b` and the
negatives `128 (t % 4) + k`. Inside a tile the mask is the product of three indicators (0 or 1 as extended
reals) and the hinge is written `max (0 - (d_an - d_ap) + 1/2) 0`; a tile's count is its sum of indicator
products, converted to a word. -/

/-- An indicator as an extended real. -/
def ind (b : Bool) : EReal := if b then 1 else 0

/-- The anchor, positive and negative rows of tile `t`. -/
def rowI (t : Fin 256) (a : Fin 32) : Fin 512 := ⟨32 * (t.val / 16) + a.val, by omega⟩
def colJ (t : Fin 256) (b : Fin 128) : Fin 512 := ⟨128 * (t.val / 4 % 4) + b.val, by omega⟩
def colK (t : Fin 256) (k : Fin 128) : Fin 512 := ⟨128 * (t.val % 4) + k.val, by omega⟩

section Tiles
variable (D : Fin 512 → Fin 512 → EReal)

/-- The product of the three indicators of a triple, over any distance matrix `D`. -/
def maskK (p q r : Fin 512) : EReal :=
  (ind (pos tg p q) * ind (neg tg p r)) * ind (decide (D p r - D p q < half))
/-- The masked hinge as the tile pass writes it. -/
def hingeK (p q r : Fin 512) : EReal :=
  maskK tg D p q r * max ((0 - (D p r - D p q)) + half) 0
/-- Tile `t`'s sum of masked hinges and its sum of masks. -/
def tileTotal (t : Fin 256) : EReal :=
  ∑ a : Fin 32, ∑ b : Fin 128, ∑ k : Fin 128, hingeK tg D (rowI t a) (colJ t b) (colK t k)
def tileMask (t : Fin 256) : EReal :=
  ∑ a : Fin 32, ∑ b : Fin 128, ∑ k : Fin 128, maskK tg D (rowI t a) (colJ t b) (colK t k)
/-- The accumulated total over the tiles, and the accumulated count: each tile's mask sum converted to a
    32-bit word (toward zero, clamped), the words added modulo 2³². -/
def totalK : EReal := ∑ t : Fin 256, tileTotal tg D t
def countK : BitVec 32 := ∑ t : Fin 256, Ideal.fptosi 32 (tileMask tg D t)
/-- The loss from the accumulated pair. -/
def resultK : EReal := Ideal.div (totalK tg D) ((((IntOp.maxsi (countK tg D) 1#32).toInt : ℝ)) : EReal)
end Tiles

/-- The two programs' guarded root `select nz (sqrt (select nz d 1)) 0` with `nz = (d > 0)` is the distance's. -/
theorem guarded_sqrt (d : EReal) :
    (if Ideal.cmp .ogt d 0 = 1 then Ideal.sqrt (if Ideal.cmp .ogt d 0 = 1 then d else one) else 0)
      = if 0 < d then Ideal.sqrt d else 0 := by
  by_cases h : 0 < d <;> simp [Ideal.cmp, h]

end Cert.Triplet

end
-- ==== Proof.TileAlgebra.lean ====
/-
  The tile algebra of the triplet-mining loss: over real embeddings, the loss accumulated tile by tile
  (sixteen by four by four tiles of 32 anchors, 128 positives and 128 negatives) is the untiled loss.

  * Over real embeddings every distance is a real number, so the hinge written from the negated difference,
    the maximum of 0 - (d_an - d_ap) + 1/2 and 0, is the hinge of d_ap - d_an + 1/2 (false at infinities).
  * A product of indicators is the indicator of the conjunction, and an indicator times a value selects it.
  * The triples (p, q, r) of rows are in bijection with (tile, anchor, positive, negative) coordinates,
    p = 32 (t / 16) + a, q = 128 (t / 4 % 4) + b, r = 128 (t % 4) + k; sums over a commutative monoid regroup.
  * A tile's sum of indicators is a natural number below 2³¹, which the conversion to a word returns exactly;
    the words of the tiles add up to the sum of ones over the selected triples.
-/
import proofs.«153964_j44006234915136_2_alg».proof.Proof.TripletSpec

noncomputable section

namespace Cert.Triplet

open Idealize.ShloMosaic Idealize.ShloMosaic.ValueIdx

/-! ## Real embeddings have real distances -/

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The pattern 0x40000000 denotes 2. -/
theorem two_eq : two = ((2 : ℝ) : EReal) := by
  unfold two; simp [Ideal.ofBits, Ideal.ieee, -EReal.coe_mul]; norm_num

theorem sqn_coe (r : SX.Idx → ℝ) (p : Fin 512) :
    sqn (fun i => (r i : EReal)) p = ((∑ k : Fin 2048, r (ix2 p k) * r (ix2 p k) : ℝ) : EReal) := by
  unfold sqn; rw [coe_sum]; simp only [EReal.coe_mul]

theorem gram_coe (r : SX.Idx → ℝ) (p q : Fin 512) :
    gram (fun i => (r i : EReal)) p q = ((∑ k : Fin 2048, r (ix2 p k) * r (ix2 q k) : ℝ) : EReal) := by
  unfold gram; rw [coe_sum]; simp only [EReal.coe_mul]

theorem d2_coe (r : SX.Idx → ℝ) (p q : Fin 512) :
    ∃ d : ℝ, d2 (fun i => (r i : EReal)) p q = (d : EReal) := by
  refine ⟨max (((∑ k : Fin 2048, r (ix2 p k) * r (ix2 p k)) + (∑ k : Fin 2048, r (ix2 q k) * r (ix2 q k)))
      - 2 * (∑ k : Fin 2048, r (ix2 p k) * r (ix2 q k))) 0, ?_⟩
  unfold d2
  rw [sqn_coe, sqn_coe, gram_coe, two_eq, EReal.coe_strictMono.monotone.map_max, EReal.coe_sub,
    EReal.coe_add, EReal.coe_mul, EReal.coe_zero]

/-- Over real embeddings every distance is a real number. -/
theorem dist_real (x : SX.Idx → EReal) (hx : ∀ i, ∃ r : ℝ, x i = (r : EReal)) (p q : Fin 512) :
    ∃ d : ℝ, dist x p q = (d : EReal) := by
  obtain ⟨r, rfl⟩ : ∃ r : SX.Idx → ℝ, x = fun i => (r i : EReal) :=
    ⟨fun i => (hx i).choose, funext fun i => (hx i).choose_spec⟩
  obtain ⟨d, hd⟩ := d2_coe r p q
  unfold dist
  rw [hd]
  by_cases h : (0 : EReal) < (d : EReal)
  · rw [if_pos h, Ideal.sqrt_coe]
    have h' : ¬ d < 0 := not_lt.mpr (le_of_lt (by exact_mod_cast h))
    rw [if_neg h']
    exact ⟨_, rfl⟩
  · rw [if_neg h]; exact ⟨0, by simp⟩

/-! ## The masked hinge of a triple -/

theorem ind_mul (a b : Bool) : ind a * ind b = ind (a && b) := by
  cases a <;> cases b <;> simp [ind]

theorem ind_mul_eq (b : Bool) (y : EReal) : ind b * y = if b then y else 0 := by
  cases b <;> simp [ind]

/-- Over the distances themselves the product of the three indicators is the selection's indicator. -/
theorem maskK_dist (x : SX.Idx → EReal) (tg : ST.Idx → BitVec 32) (p q r : Fin 512) :
    maskK tg (dist x) p q r = ind (viol x tg p q r) := by
  unfold maskK viol; rw [ind_mul, ind_mul]

/-- For real a and b, 0 - (a - b) = b - a. -/
theorem zero_sub_sub_coe (a b : ℝ) :
    (0 : EReal) - ((a : EReal) - (b : EReal)) = (b : EReal) - (a : EReal) := by
  rw [← EReal.coe_sub, ← EReal.coe_zero, ← EReal.coe_sub, ← EReal.coe_sub]
  exact congrArg _ (by ring)

/-- Over real embeddings the masked hinge is the selected triple's hinge. -/
theorem hingeK_dist (x : SX.Idx → EReal) (tg : ST.Idx → BitVec 32)
    (hx : ∀ i, ∃ r : ℝ, x i = (r : EReal)) (p q r : Fin 512) :
    hingeK tg (dist x) p q r = if viol x tg p q r then per x p q r else 0 := by
  obtain ⟨a, ha⟩ := dist_real x hx p r
  obtain ⟨b, hb⟩ := dist_real x hx p q
  unfold hingeK per
  rw [maskK_dist, ind_mul_eq, ha, hb, zero_sub_sub_coe]

/-! ## Triples of rows and tile coordinates -/

/-- Tile, anchor, positive and negative coordinates against triples of rows. -/
def tileEquiv : Fin 256 × Fin 32 × Fin 128 × Fin 128 ≃ Fin 512 × Fin 512 × Fin 512 where
  toFun y := (rowI y.1 y.2.1, colJ y.1 y.2.2.1, colK y.1 y.2.2.2)
  invFun z := (⟨16 * (z.1.val / 32) + 4 * (z.2.1.val / 128) + z.2.2.val / 128, by omega⟩,
    ⟨z.1.val % 32, by omega⟩, ⟨z.2.1.val % 128, by omega⟩, ⟨z.2.2.val % 128, by omega⟩)
  left_inv := by
    rintro ⟨t, a, b, k⟩
    simp only [rowI, colJ, colK, Prod.mk.injEq, Fin.ext_iff]
    refine ⟨?_, ?_, ?_, ?_⟩ <;> omega
  right_inv := by
    rintro ⟨p, q, r⟩
    simp only [rowI, colJ, colK, Prod.mk.injEq, Fin.ext_iff]
    refine ⟨?_, ?_, ?_⟩ <;> omega

/-- A sum over the tiles and their coordinates is the sum over the triples of rows. -/
theorem sum_tiles {M : Type*} [AddCommMonoid M] (f : Fin 512 → Fin 512 → Fin 512 → M) :
    ∑ t : Fin 256, ∑ a : Fin 32, ∑ b : Fin 128, ∑ k : Fin 128, f (rowI t a) (colJ t b) (colK t k)
      = ∑ p : Fin 512, ∑ q : Fin 512, ∑ r : Fin 512, f p q r := by
  have h1 : ∑ t : Fin 256, ∑ a : Fin 32, ∑ b : Fin 128, ∑ k : Fin 128,
        f (rowI t a) (colJ t b) (colK t k)
      = ∑ y : Fin 256 × Fin 32 × Fin 128 × Fin 128,
        (fun z : Fin 512 × Fin 512 × Fin 512 => f z.1 z.2.1 z.2.2) (tileEquiv y) := by
    simp only [Fintype.sum_prod_type]; rfl
  rw [h1, Equiv.sum_comp tileEquiv (fun z : Fin 512 × Fin 512 × Fin 512 => f z.1 z.2.1 z.2.2)]
  simp only [Fintype.sum_prod_type]

/-- The total accumulated over the tiles is the untiled total. -/
theorem totalK_eq (x : SX.Idx → EReal) (tg : ST.Idx → BitVec 32)
    (hx : ∀ i, ∃ r : ℝ, x i = (r : EReal)) : totalK tg (dist x) = total x tg := by
  unfold totalK tileTotal total
  simp only [hingeK_dist x tg hx]
  exact sum_tiles (fun p q r => if viol x tg p q r then per x p q r else 0)

/-! ## The count -/

/-- An indicator is a natural number. -/
theorem ind_eq_natCast (b : Bool) : ind b = (((if b then 1 else 0 : ℕ) : ℝ) : EReal) := by
  cases b <;> simp [ind]

/-- A finite sum of natural numbers, taken in the extended reals, is their sum. -/
theorem sum_natCast {ι : Type*} (s : Finset ι) (n : ι → ℕ) :
    ∑ i ∈ s, (((n i : ℕ) : ℝ) : EReal) = (((∑ i ∈ s, n i : ℕ) : ℝ) : EReal) := by
  rw [Nat.cast_sum, coe_sum]

/-- A tile's sum of masks is the number of its selected triples. -/
theorem tileMask_dist (x : SX.Idx → EReal) (tg : ST.Idx → BitVec 32) (t : Fin 256) :
    tileMask tg (dist x) t = (((∑ a : Fin 32, ∑ b : Fin 128, ∑ k : Fin 128,
      (if viol x tg (rowI t a) (colJ t b) (colK t k) then 1 else 0 : ℕ) : ℕ) : ℝ) : EReal) := by
  unfold tileMask
  simp only [maskK_dist, ind_eq_natCast, sum_natCast]

/-- A tile selects at most 32 · 128 · 128 triples. -/
theorem tile_count_lt (v : Fin 32 → Fin 128 → Fin 128 → Bool) :
    (∑ a : Fin 32, ∑ b : Fin 128, ∑ k : Fin 128, (if v a b k then 1 else 0 : ℕ)) < 2147483648 := by
  have h : (∑ a : Fin 32, ∑ b : Fin 128, ∑ k : Fin 128, (if v a b k then 1 else 0 : ℕ))
      ≤ ∑ _a : Fin 32, ∑ _b : Fin 128, ∑ _k : Fin 128, 1 :=
    Finset.sum_le_sum fun a _ => Finset.sum_le_sum fun b _ => Finset.sum_le_sum fun k _ => by
      split <;> omega
  have h2 : (∑ _a : Fin 32, ∑ _b : Fin 128, ∑ _k : Fin 128, (1 : ℕ)) = 524288 := by simp
  omega

/-- The conversion to a signed 32-bit word returns a natural number below 2³¹ exactly. -/
theorem fptosi_natCast (n : ℕ) (hn : n < 2147483648) :
    Ideal.fptosi 32 (((n : ℝ)) : EReal) = BitVec.ofNat 32 n := by
  unfold Ideal.fptosi
  rw [Ideal.toIntClamped_coe, if_pos (Nat.cast_nonneg n), Int.floor_natCast]
  have e : ((2 ^ (32 - 1) : ℕ) : ℤ) = 2147483648 := by norm_num
  rw [e, min_eq_right (by omega), max_eq_right (by omega)]
  exact BitVec.ofInt_natCast 32 n

/-- The word of a sum of natural numbers is the sum of their words. -/
theorem ofNat_sum {ι : Type*} (s : Finset ι) (c : ι → ℕ) :
    BitVec.ofNat 32 (∑ i ∈ s, c i) = ∑ i ∈ s, BitVec.ofNat 32 (c i) := by
  classical
  induction s using Finset.induction_on with
  | empty => rfl
  | insert a s ha ih => rw [Finset.sum_insert ha, Finset.sum_insert ha, BitVec.ofNat_add, ih]

/-- The count accumulated over the tiles is the untiled count (at any embeddings). -/
theorem countK_eq' (x : SX.Idx → EReal) (tg : ST.Idx → BitVec 32) : countK tg (dist x) = count x tg := by
  unfold countK count
  have h : ∀ t : Fin 256, Ideal.fptosi 32 (tileMask tg (dist x) t)
      = ∑ a : Fin 32, ∑ b : Fin 128, ∑ k : Fin 128,
          if viol x tg (rowI t a) (colJ t b) (colK t k) then 1#32 else 0#32 := by
    intro t
    rw [tileMask_dist, fptosi_natCast _ (tile_count_lt _), ofNat_sum]
    refine Finset.sum_congr rfl fun a _ => ?_
    rw [ofNat_sum]; refine Finset.sum_congr rfl fun b _ => ?_
    rw [ofNat_sum]; refine Finset.sum_congr rfl fun k _ => ?_
    split <;> rfl
  simp only [h]
  exact sum_tiles (fun p q r => if viol x tg p q r then 1#32 else 0#32)

theorem countK_eq (x : SX.Idx → EReal) (tg : ST.Idx → BitVec 32)
    (_hx : ∀ i, ∃ r : ℝ, x i = (r : EReal)) : countK tg (dist x) = count x tg :=
  countK_eq' x tg

/-! ## The loss -/

/-- Over real embeddings the loss from the pair accumulated tile by tile is the untiled loss. -/
theorem resultK_eq (x : SX.Idx → EReal) (tg : ST.Idx → BitVec 32)
    (hx : ∀ i, ∃ r : ℝ, x i = (r : EReal)) : resultK tg (dist x) = result x tg := by
  unfold resultK result
  rw [totalK_eq x tg hx, countK_eq x tg hx]

end Cert.Triplet

end
-- ==== Proof.LibMatmulT.lean ====
/-
  A matrix product whose right operand is stored transposed, read at an index, at the ideal values.
  For dimension numbers that contract axis 1 of BOTH operands, keep axis 0 of each and have no batch
  axis, a `tpu.matmul` into the zero accumulator is, at the output index (p, q), the sum over k of
  x(p, k) · w(q, k).
-/
import Idealize.ShloMosaic.PureOps.Ideal.Laws
import Idealize.ShloMosaic.Lib.ValueIdx

noncomputable section

open scoped BigOperators

namespace Cert.LibMatmulT

open Idealize.ShloMosaic Idealize.ShloMosaic.ValueIdx

/-- The product of a matrix with the transpose of another, index by index. -/
def MMT {A K B : Nat} (x : (⟨2, ![A, K]⟩ : Shape).Idx → EReal) (w : (⟨2, ![B, K]⟩ : Shape).Idx → EReal) :
    (⟨2, ![A, B]⟩ : Shape).Idx → EReal :=
  fun i => ∑ k : Fin K, x (ix2 (i 0) k) * w (ix2 (i 1) k)

theorem MMT_apply {A K B : Nat} (x : (⟨2, ![A, K]⟩ : Shape).Idx → EReal) (w : (⟨2, ![B, K]⟩ : Shape).Idx → EReal)
    (p : Fin A) (q : Fin B) : MMT x w (ix2 p q) = ∑ k : Fin K, x (ix2 p k) * w (ix2 q k) := rfl

section Transposed
variable {A K B : Nat} (d : DotDims ⟨2, ![A, K]⟩ ⟨2, ![B, K]⟩ ⟨2, ![A, B]⟩)
  (hlb : d.lhsBatch = []) (hln : d.lhsNonContracting = [0]) (hlc : d.lhsContracting = [1])
  (hrb : d.rhsBatch = []) (hrn : d.rhsNonContracting = [0]) (hrc : d.rhsContracting = [1])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (j₁, k). -/
theorem rhsIdx_eq (j : (⟨2, ![A, B]⟩ : Shape).Idx) (k : d.contr.Idx) :
    d.rhsIdx j k = ix2 (j 1) ((contrEquiv1 d K (contr_rank d hlc) (contr_size d hlc)) k) := by
  funext a; apply Fin.ext
  match a with
  | ⟨0, _⟩ =>
    show (d.rhsIdx j k 0).val = (j 1).val
    have h0b : (0 : Fin (⟨2, ![B, K]⟩ : Shape).rank) ∉ d.rhsBatch := by rw [hrb]; exact List.not_mem_nil
    have h0n : (0 : Fin (⟨2, ![B, K]⟩ : Shape).rank) ∈ d.rhsNonContracting := by rw [hrn]; exact List.mem_singleton.mpr rfl
    unfold DotDims.rhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])
  | ⟨1, _⟩ =>
    show (d.rhsIdx j k 1).val = _
    rw [d.rhsIdx_val_of_single hrc j k]
    simp [contrEquiv1]

include hrb hrn hrc hlb hln hlc in
/-- The contraction's sum is the product with the transpose at the index. -/
theorem transposed_sum (x : (⟨2, ![A, K]⟩ : Shape).Idx → EReal) (w : (⟨2, ![B, K]⟩ : Shape).Idx → EReal)
    (j : (⟨2, ![A, B]⟩ : Shape).Idx) :
    ∑ k : d.contr.Idx, x (d.lhsIdx j k) * w (d.rhsIdx j k) = MMT x w j := by
  unfold MMT
  rw [← Equiv.sum_comp (contrEquiv1 d K (contr_rank d hlc) (contr_size d hlc)) (fun k' => x (ix2 (j 0) k') * w (ix2 (j 1) k'))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the product with the transpose. -/
theorem matmul_zero_eq {φ₁ φ₂ : FTy} (prec : Option ContractPrecision) (x : FVec Ideal ⟨2, ![A, K]⟩ φ₁) (w : FVec Ideal ⟨2, ![B, K]⟩ φ₂) :
    FloatOps.matmul d prec x w (constant ⟨2, ![A, B]⟩ .f32 0x00000000#32) = MMT x w := by
  funext j
  rw [Ideal.matmul_constant_zero_apply]
  exact transposed_sum d hlb hln hlc hrb hrn hrc x w j

end Transposed

end Cert.LibMatmulT

end
-- ==== Proof.LibRowOps.lean ====
/-
  Three keepdims-style layout steps of a row-wise computation, read as functions of the index, at the ideal
  values: a length-b array laid out as one row and repeated down a rows; an a × 1 column repeated across b
  columns; and the sum of every row of an a × b array.
-/
import Idealize.ShloMosaic.PureOps.Ideal.Laws
import Idealize.ShloMosaic.Lib.Pipeline.Value
import Idealize.ShloMosaic.Lib.ValueLayout

noncomputable section

open scoped BigOperators

namespace Cert.LibRowOps

open Idealize.ShloMosaic Idealize.ShloMosaic.ValueIdx

variable {α : Type}

/-- A length-b array reshaped to one row and broadcast down a rows holds, at (p, c), its entry c. -/
theorem row_bcast {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) :
    broadcastTo ⟨2, ![a, b]⟩ (shapeCast ⟨2, ![1, b]⟩ v h1) h2 = fun i => v (ix1 (i 1)) := by
  funext i
  exact (congrArg (broadcastTo ⟨2, ![a, b]⟩ (shapeCast ⟨2, ![1, b]⟩ v h1) h2) (eq_ix2 i)).trans
    ((broadcastTo_1b_ab_apply _ h2 (i 0) (i 1)).trans (shapeCast_a_1a_apply v h1 0 (i 1)))

/-- An a × 1 column broadcast across b columns holds, at (p, c), the column's entry p. -/
theorem col_bcast_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same, as a function of the index. -/
theorem col_bcast {a b : ℕ} (v : (⟨2, ![a, 1]⟩ : Shape).Idx → α) (h : (⟨2, ![a, 1]⟩ : Shape).Broadcasts ⟨2, ![a, b]⟩) :
    broadcastTo ⟨2, ![a, b]⟩ v h = fun i => v (ix2 (i 0) (0 : Fin 1)) := by
  funext i
  exact (congrArg (broadcastTo ⟨2, ![a, b]⟩ v h) (eq_ix2 i)).trans (col_bcast_apply v h (i 0) (i 1))

/-- The index that a row sum reads: row r, column k. -/
theorem lift_row {a b : ℕ} (h : (⟨2, ![a, b]⟩ : Shape).Reduces [1] ⟨1, ![a]⟩) (j : (⟨1, ![a]⟩ : Shape).Idx) (k : Fin b) :
    h.lift j k = ix2 (j 0) k := by
  funext c
  apply Fin.ext
  show h.liftVal j k.val c = (ix2 (j 0) k c).val
  match c with
  | ⟨0, _⟩ => simp [Shape.Reduces.liftVal]
  | ⟨1, _⟩ => simp [Shape.Reduces.liftVal]

/-- The sum over axis 1 of an a × b array from the zero accumulator is, at r, the sum of row r (the two side
    conditions typed as a printed program's proofs of them are). -/
theorem rowsum {a b : ℕ} (v : FVec Ideal ⟨2, ![a, b]⟩ .f32) (h : (⟨2, ![a, b]⟩ : Shape).Reduces [1] ⟨1, ![a]⟩)
    (hφ : FTy.f32 = FTy.f32 ∨ FTy.f32 = FTy.bf16) (hacc : (0x00000000#32 : BitVec 32) = 0x00000000#32) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

/-- The same, for an accumulator proof stated against the sum's neutral word. -/
theorem rowsum_neutral {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

end Cert.LibRowOps

end
-- ==== Proof.LibColumnCasts.lean ====
/-
  Three shape casts around a unit axis, each read at an index written by coordinates, for any extents and any
  element type. A shape cast keeps the row-major position; a unit axis contributes nothing to it.

    cast_dropSecond   [a, 1, b, c] → [a, b, c]   reads (p, q, r)  at (p, 0, q, r)
    cast_column       [a]          → [a, 1]      reads (p, u)     at p            (a sum kept as a column)
    cast_uncolumn     [a, 1]       → [a]         reads p          at (p, 0)       (a column read as a vector)
-/
import Idealize.ShloMosaic.Lib.Pipeline.Value
import Idealize.ShloMosaic.Lib.ValueIdx

namespace Cert.LibColumnCasts

open Idealize.ShloMosaic Idealize.ShloMosaic.ValueIdx

variable {α : Type}

/-- A cast that drops a unit axis in second place, `[a,1,b,c]` to `[a,b,c]`, reads `(p,q,r)` at `(p,0,q,r)`. -/
theorem cast_dropSecond {a b c : ℕ} (x : (⟨4, ![a, 1, b, c]⟩ : Shape).Idx → α)
    (h : (⟨4, ![a, 1, b, c]⟩ : Shape).ShapeCasts ⟨3, ![a, b, c]⟩) (p : Fin a) (q : Fin b) (r : Fin c) :
    shapeCast ⟨3, ![a, b, c]⟩ x h (ix3 p q r) = x (ix4 p (0 : Fin 1) q r) :=
  shapeCast_apply x h _ _ (by
    rw [Shape.rowMajor_val_four, Shape.rowMajor_val_three]
    show ((p.val * 1 + 0) * b + q.val) * c + r.val = (p.val * b + q.val) * c + r.val
    rw [Nat.mul_one, Nat.add_zero])

/-- A vector written as one column, `[a]` to `[a,1]`, reads `(p,u)` at `p`, whatever the unit coordinate `u`. -/
theorem cast_column {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A one-column array read as a vector, `[a,1]` to `[a]`, reads `p` at `(p,0)`. -/
theorem cast_uncolumn {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

end Cert.LibColumnCasts
-- ==== Proof.DistValue.lean ====
/-
  What the distance pass leaves in its output array, at the ideal values: the matrix of Euclidean distances
  between the rows of the embeddings array as the pass finds it.

  At a grid point the body holds a block of 128 rows and the whole array; the value it stores is, at (a, q),
  the guarded root of the clamped expansion |x_a|² + |x_q|² − 2 ⟨x_a, x_q⟩: the two lane sums are the squared
  norms, the matrix product contracts the columns of both operands. Block t of the first window is rows
  128 t … 128 t + 127 of the array, the second window's block is the whole array, and the output's block t is
  rows 128 t … of the distance matrix; the four blocks cover it, row p being written at point p / 128.
-/
import proofs.«153964_j44006234915136_2_alg».proof.Proof.DistRegion
import proofs.«153964_j44006234915136_2_alg».proof.Proof.TripletSpec
import proofs.«153964_j44006234915136_2_alg».proof.Proof.LibMatmulT
import proofs.«153964_j44006234915136_2_alg».proof.Proof.LibRowOps
import proofs.«153964_j44006234915136_2_alg».proof.Proof.LibColumnCasts
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.DistValue

open Cert.KernelIdeal Cert.KernelIdeal.Gen Cert.KernelIdeal.Dist
open Idealize.ShloMosaic Idealize.ShloMosaic.TcCoe Idealize.ShloMosaic.ValueIdx Idealize.SL.Sem
open Idealize.ShloMosaic.Pipeline (Dat)
open Cert.Triplet

/-! ## The payload at an index -/

/-- The vector root at an index. -/
theorem sqrt_at {s : Shape} (v : FVec Ideal s .f32) (i : s.Idx) : sqrt v i = Ideal.sqrt (v i) := rfl

/-- The squared norms of the rows of an array, kept as a column and repeated across the columns. -/
theorem sqn_col {A B K : ℕ} (v : FVec Ideal ⟨2, ![A, K]⟩ .f32) (hr : (⟨2, ![A, K]⟩ : Shape).Reduces [1] ⟨1, ![A]⟩)
    (hφ : FTy.f32 = FTy.f32 ∨ FTy.f32 = FTy.bf16) (hacc : (0x00000000#32 : BitVec 32) = 0x00000000#32)
    (hc : (⟨1, ![A]⟩ : Shape).ShapeCasts ⟨2, ![A, 1]⟩) (hb : (⟨2, ![A, 1]⟩ : Shape).Broadcasts ⟨2, ![A, B]⟩)
    (a : Fin A) (q : Fin B) :
    broadcastTo ⟨2, ![A, B]⟩ (shapeCast ⟨2, ![A, 1]⟩ (multiReduction .add [1] ⟨1, ![A]⟩ (mulf v v) 0x00000000#32 hr hφ hacc) hc) hb (ix2 a q)
      = ∑ k : Fin K, v (ix2 a k) * v (ix2 a k) := by
  rw [LibRowOps.col_bcast_apply, LibColumnCasts.cast_column, LibRowOps.rowsum]
  rfl

/-- The squared norms of the rows of an array, laid out as a row and repeated down the rows. -/
theorem sqn_row {A B K : ℕ} (v : FVec Ideal ⟨2, ![B, K]⟩ .f32) (hr : (⟨2, ![B, K]⟩ : Shape).Reduces [1] ⟨1, ![B]⟩)
    (hφ : FTy.f32 = FTy.f32 ∨ FTy.f32 = FTy.bf16) (hacc : (0x00000000#32 : BitVec 32) = 0x00000000#32)
    (hc : (⟨1, ![B]⟩ : Shape).ShapeCasts ⟨2, ![1, B]⟩) (hb : (⟨2, ![1, B]⟩ : Shape).Broadcasts ⟨2, ![A, B]⟩)
    (a : Fin A) (q : Fin B) :
    broadcastTo ⟨2, ![A, B]⟩ (shapeCast ⟨2, ![1, B]⟩ (multiReduction .add [1] ⟨1, ![B]⟩ (mulf v v) 0x00000000#32 hr hφ hacc) hc) hb (ix2 a q)
      = ∑ k : Fin K, v (ix2 q k) * v (ix2 q k) := by
  rw [LibRowOps.row_bcast, LibRowOps.rowsum]
  rfl

/-- The matrix product of the block with the transpose of the whole array, into the zero accumulator: the inner
    products of the rows (rounding to the narrower format changes no ideal value). -/
theorem gram_at (v0 : Vec Ideal S128x2048 .f32) (v1 : Vec Ideal S512x2048 .f32) (a : Fin 128) (q : Fin 512) :
    matmul dot_S128x2048_S512x2048_S128x512_1_1_0_0_n_n none (truncf .bf16 v0 bitsLt_bf16_f32 : FVec Ideal S128x2048 .bf16)
        (truncf .bf16 v1 bitsLt_bf16_f32 : FVec Ideal S512x2048 .bf16) (constant (F := Ideal) S128x512 .f32 0x00000000#32) (ix2 a q)
      = ∑ k : Fin 2048, v0 (ix2 a k) * v1 (ix2 q k) :=
  (congrFun (LibMatmulT.matmul_zero_eq dot_S128x2048_S512x2048_S128x512_1_1_0_0_n_n rfl rfl rfl rfl rfl rfl none _ _) (ix2 a q)).trans rfl

/-- The stored block at (a, q), from a block of 128 rows v0 and the whole array v1: the clamped expansion
    |v0_a|² + |v1_q|² − 2 ⟨v0_a, v1_q⟩ and its guarded root. -/
theorem pay_at (v0 : Vec Ideal S128x2048 .f32) (v1 : Vec Ideal S512x2048 .f32) (a : Fin 128) (q : Fin 512) :
    k0_pay1 v0 v1 (ix2 a q)
      = (if 0 < max (((∑ k : Fin 2048, v0 (ix2 a k) * v0 (ix2 a k)) + (∑ k : Fin 2048, v1 (ix2 q k) * v1 (ix2 q k)))
              - two * (∑ k : Fin 2048, v0 (ix2 a k) * v1 (ix2 q k))) 0
          then Ideal.sqrt (max (((∑ k : Fin 2048, v0 (ix2 a k) * v0 (ix2 a k)) + (∑ k : Fin 2048, v1 (ix2 q k) * v1 (ix2 q k)))
              - two * (∑ k : Fin 2048, v0 (ix2 a k) * v1 (ix2 q k))) 0) else 0) := by
  unfold k0_pay1
  simp only [select_apply, sqrt_at, cmpf_apply, broadcast_apply, maximumf_apply, subf_apply, mulf_apply, addf_apply]
  rw [sqn_col, sqn_row, gram_at]
  simp only [Ideal.cmpf_def, Ideal.ofBits_def, Ideal.ofBits_zero_f32, Scalar.select]
  exact guarded_sqrt _

/-- When the block v0 is rows 128 r … 128 r + 127 of an array X and v1 is all of X, the stored block holds the
    distances of those rows to every row. -/
theorem pay_block (X : SX.Idx → EReal) (x0 : Vec Ideal S128x2048 .f32) (x1 : Vec Ideal S512x2048 .f32) (r : ℕ) (hr : r ≤ 3)
    (h0 : ∀ (a : Fin 128) (k : Fin 2048), x0 (ix2 a k) = X (ix2 (⟨r * 128 + a.val, by omega⟩ : Fin 512) k))
    (h1 : ∀ (q : Fin 512) (k : Fin 2048), x1 (ix2 q k) = X (ix2 q k))
    (j : S128x512.Idx) :
    k0_pay1 x0 x1 j = dist X (⟨r * 128 + (j 0).val, by have h : (j 0).val < 128 := (j 0).isLt; omega⟩ : Fin 512) (⟨(j 1).val, (j 1).isLt⟩ : Fin 512) := by
  obtain ⟨a, q, rfl⟩ : ∃ (a : Fin 128) (q : Fin 512), j = ix2 a q := ⟨j 0, j 1, eq_ix2 j⟩
  rw [pay_at]
  simp only [h0, h1]
  rfl

/-! ## From the blocks to the array -/

section Layout
variable (V : (c : Dev nD) → (b : Ref sig .tc) → Buf (Elt Ideal) ((c : Thread nD τ).loc b))

theorem hz : (![0, 0] : Fin 2 → Nat) = fun _ => 0 := funext fun a => by fin_cases a <;> rfl

/-- The distance matrix of the embeddings, as the contents of the output array. -/
def distArr (X : SX.Idx → EReal) : S512x512.Idx → EReal := fun i => dist X (i 0) (i 1)

/-- The index maps over the grid: window 0's row block moves with the output's, its column block and both of
    window 1's stay at zero, and so does the output's column block; there are four row blocks. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 3 :=
  (by decide +kernel : ∀ t : Fin grid0.N, _)

/-- Every row block is some point's. -/
theorem idx_onto : ∀ (q0 : Fin 4), ∃ t : Fin cfg0.N, win0_2.index t = ![q0.val, 0] :=
  (by decide +kernel : ∀ (q0 : Fin 4), ∃ t : Fin grid0.N, win0_2.index t = ![q0.val, 0])

/-- What point t writes back is block t of the distance matrix of the embeddings as the region finds them. -/
theorem flushed_eq (c : Dev nD) (t : Fin cfg0.N) :
    (dat0 V c).flushed 2 t = ((cfg0.win 2).blk t).view.read (Elt Ideal) (distArr (V c main_arg0)) := by
  show (cfg0.win 2).cut (grid0.coords t) ((dat0 V c).after 2 t) = _
  rw [after0_2]
  unfold out0_2
  rw [View.canon_unit_zero hz]
  simp only [View.ld_unit_zero (S := S128x2048) hz, View.ld_unit_zero (S := S512x2048) hz]
  obtain ⟨e0, e1, e2, e3, e4, e5⟩ := idx_facts t
  funext j
  show k0_pay1 (iblk0 V c 0 t) (iblk0 V c 1 t) j = distArr (V c main_arg0) (((cfg0.win 2).blk t).view.emb j)
  refine (pay_block (V c main_arg0) _ _ (win0_2.index t (0 : Fin 2)) e5 ?_ ?_ j).trans ?_
  · intro a k
    show V c main_arg0 (((cfg0.win 0).blk t).view.emb (ix2 a k)) = V c main_arg0 (ix2 _ k)
    refine congrArg _ (funext fun ax => Fin.ext ?_)
    match ax with
    | ⟨0, _⟩ => show win0_0.index t (0 : Fin 2) * 128 + 1 * a.val = win0_2.index t (0 : Fin 2) * 128 + a.val; omega
    | ⟨1, _⟩ => show win0_0.index t (1 : Fin 2) * 2048 + 1 * k.val = k.val; omega
  · intro q k
    show V c main_arg0 (((cfg0.win 1).blk t).view.emb (ix2 q k)) = V c main_arg0 (ix2 q k)
    refine congrArg _ (funext fun ax => Fin.ext ?_)
    match ax with
    | ⟨0, _⟩ => show win0_1.index t (0 : Fin 2) * 512 + 1 * q.val = q.val; omega
    | ⟨1, _⟩ => show win0_1.index t (1 : Fin 2) * 2048 + 1 * k.val = k.val; omega
  · unfold distArr
    refine congrArg₂ (dist (V c main_arg0)) (Fin.ext ?_) (Fin.ext ?_)
    · show win0_2.index t (0 : Fin 2) * 128 + (j 0).val = win0_2.index t (0 : Fin 2) * 128 + 1 * (j 0).val; omega
    · show (j 1).val = win0_2.index t (1 : Fin 2) * 512 + 1 * (j 1).val; omega

/-- An index of the array is in point t's block iff each coordinate is in the block's range on its axis. -/
theorem mem_blk (t : Fin cfg0.N) (i : S512x512.Idx) :
    i ∈ ((cfg0.win 2).blk t).view.set ↔ ∀ a : Fin 2, win0_2.index t a * S128x512.size a ≤ (i a).val ∧ (i a).val < win0_2.index t a * S128x512.size a + S128x512.size a := by
  show i ∈ ((View.whole main_v0).slice (win0_2.rect t)).set ↔ _
  rw [View.set_slice_whole, Rect.mem_set_unit]
  exact Iff.rfl

/-- Every index of the array is in some point's block: row p is written at point p / 128. -/
theorem cover (i : S512x512.Idx) : ∃ t : Fin cfg0.N, (cfg0.win 2).flush t = true ∧ i ∈ ((cfg0.win 2).blk t).view.set := by
  have hi0 : (i 0).val < 512 := (i 0).isLt
  have hi1 : (i 1).val < 512 := (i 1).isLt
  obtain ⟨t, ht⟩ := idx_onto ⟨(i 0).val / 128, by omega⟩
  have q0 : win0_2.index t (0 : Fin 2) = (i 0).val / 128 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 512 ≤ (i 1).val ∧ (i 1).val < win0_2.index t (1 : Fin 2) * 512 + 512; omega

end Layout

/-- After the region the output array holds the distance matrix of the embeddings as the region found them. -/
theorem dist_final (V : (c : Dev nD) → (b : Ref sig .tc) → Buf (Elt Ideal) ((c : Thread nD τ).loc b)) (c : Dev nD) (p q : Fin 512) :
    (Cert.KernelIdeal.Dist.dat0 (F := Ideal) V c).arrAt 2 cfg0.N (ValueIdx.ix2 p q) = Cert.Triplet.dist (V c main_arg0) p q :=
  (congrFun ((dat0 V c).arrAt_eq_of_cover 2 (distArr (V c main_arg0)) (fun t _ => flushed_eq V c t) cover) (ix2 p q)).trans rfl

end Cert.KernelIdeal.DistValue

end
-- ==== Proof.MinePieces.lean ====
/-
  What each case of the mining pass leaves in its two accumulators, for any float instance.  Each case
  leaves in an accumulator's buffer one covering store: the running total plus the tile's sum of masked
  hinges, and the running count plus the tile's mask sum converted to a word; at the first point the
  running values are the zeros the reset has just stored.  So the pair of accumulators after a point is
  the body's two payloads over the point's blocks and the pair after the point before.
-/
import proofs.«153964_j44006234915136_2_alg».proof.Proof.MineRegion
import Idealize.ShloMosaic.Lib.Pipeline.Value

set_option maxRecDepth 16384

noncomputable section

namespace Cert.KernelIdeal.MineValue

open Cert.KernelIdeal Cert.KernelIdeal.Gen Cert.KernelIdeal.Mine
open Idealize.ShloMosaic Idealize.ShloMosaic.TcCoe Idealize.SL.Sem Idealize.ShloMosaic.Tactic
open Idealize.ShloMosaic.Pipeline (Dat)

variable {F : FTy → Type} [FloatOps F]

theorem hz : (![0, 0] : Fin 2 → Nat) = fun _ => 0 := funext fun a => by fin_cases a <;> rfl

/-! ## The found pieces are the payloads of the input blocks -/

theorem piece_A_5 (c : Dev nD) (i : grid1.Coords) (arg3 : Memref sig .tc .vmem S32x128 .f32) (harg3 : arg3.IsWhole) (arg4 : Memref sig .tc .vmem S32x128 .f32) (harg4 : arg4.IsWhole) (arg5 : Memref sig .tc .vmem S32x1 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S1x1 .i32) (harg9 : arg9.IsWhole) (hc0 : cond1_0 i) (x0 : Vec F S32x128 .f32) (x1 : Vec F S32x128 .f32) (x2 : Vec F S32x1 .i32) (x3 : Vec F S1x128 .i32) (x4 : Vec F S1x128 .i32) :
    out1_A_5 c i arg3 harg3 arg4 harg4 arg5 harg5 arg6 harg6 arg7 harg7 arg8 harg8 arg9 harg9 hc0 x0 x1 x2 x3 x4 = k1_pay11 (k1_pay5 i x2 x3) (k1_pay6 x2 x4) (k1_pay7 x0) (k1_pay8 x1) (k1_pay2 (F := F)) := by
  unfold out1_A_5
  rw [View.read_writes_eq_canon _ _ _ (cover1_A_5 c i arg3 harg3 arg4 harg4 arg5 harg5 arg6 harg6 arg7 harg7 arg8 harg8 arg9 harg9 hc0 x0 x1 x2 x3 x4)]
  unfold kernelRun1_A
  dsimp only
  sl_unfold_words
  rw [View.canon_cons_unit_zero (S := S1x1) hz, View.readCov_unit_zero (S := S1x1) _ hz]
  simp only [View.readAt_eq_ld, harg3.read_unread, harg4.read_unread, harg5.read_unread, harg6.read_unread, harg7.read_unread, harg8.read_unread, harg9.read_unread,
    View.ld_unit_zero (S := S32x128) hz, View.ld_unit_zero (S := S32x1) hz, View.ld_unit_zero (S := S1x128) hz, View.ld_unit_zero (S := S1x1) hz]

theorem piece_B_5 (c : Dev nD) (i : grid1.Coords) (arg3 : Memref sig .tc .vmem S32x128 .f32) (harg3 : arg3.IsWhole) (arg4 : Memref sig .tc .vmem S32x128 .f32) (harg4 : arg4.IsWhole) (arg5 : Memref sig .tc .vmem S32x1 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S1x1 .i32) (harg9 : arg9.IsWhole) (hc0 : ¬cond1_0 i) (x0 : Vec F S32x128 .f32) (x1 : Vec F S32x128 .f32) (x2 : Vec F S32x1 .i32) (x3 : Vec F S1x128 .i32) (x4 : Vec F S1x128 .i32) (xo5 : Vec F S1x1 .f32) (xo6 : Vec F S1x1 .i32) :
    out1_B_5 c i arg3 harg3 arg4 harg4 arg5 harg5 arg6 harg6 arg7 harg7 arg8 harg8 arg9 harg9 hc0 x0 x1 x2 x3 x4 xo5 xo6 = k1_pay11 (k1_pay5 i x2 x3) (k1_pay6 x2 x4) (k1_pay7 x0) (k1_pay8 x1) xo5 := by
  unfold out1_B_5
  rw [View.read_writes_eq_canon _ _ _ (cover1_B_5 c i arg3 harg3 arg4 harg4 arg5 harg5 arg6 harg6 arg7 harg7 arg8 harg8 arg9 harg9 hc0 x0 x1 x2 x3 x4 xo5 xo6)]
  unfold kernelRun1_B
  dsimp only
  sl_unfold_words
  rw [View.canon_unit_zero hz]
  simp only [View.readAt_eq_ld, harg3.read_unread, harg4.read_unread, harg5.read_unread, harg6.read_unread, harg7.read_unread, harg8.read_unread, harg9.read_unread,
    View.ld_unit_zero (S := S32x128) hz, View.ld_unit_zero (S := S32x1) hz, View.ld_unit_zero (S := S1x128) hz, View.ld_unit_zero (S := S1x1) hz]

theorem piece_A_6 (c : Dev nD) (i : grid1.Coords) (arg3 : Memref sig .tc .vmem S32x128 .f32) (harg3 : arg3.IsWhole) (arg4 : Memref sig .tc .vmem S32x128 .f32) (harg4 : arg4.IsWhole) (arg5 : Memref sig .tc .vmem S32x1 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S1x1 .i32) (harg9 : arg9.IsWhole) (hc0 : cond1_0 i) (x0 : Vec F S32x128 .f32) (x1 : Vec F S32x128 .f32) (x2 : Vec F S32x1 .i32) (x3 : Vec F S1x128 .i32) (x4 : Vec F S1x128 .i32) :
    out1_A_6 c i arg3 harg3 arg4 harg4 arg5 harg5 arg6 harg6 arg7 harg7 arg8 harg8 arg9 harg9 hc0 x0 x1 x2 x3 x4 = k1_pay1 (k1_pay12 (F := F) k1_pay3) (k1_pay13 (k1_pay5 i x2 x3) (k1_pay6 x2 x4) (k1_pay7 x0) (k1_pay8 x1)) := by
  unfold out1_A_6
  rw [View.read_writes_eq_canon _ _ _ (cover1_A_6 c i arg3 harg3 arg4 harg4 arg5 harg5 arg6 harg6 arg7 harg7 arg8 harg8 arg9 harg9 hc0 x0 x1 x2 x3 x4)]
  unfold kernelRun1_A
  dsimp only
  sl_unfold_words
  rw [View.canon_cons_unit_zero (S := S1x1) hz, View.readCov_unit_zero (S := S1x1) _ hz]
  simp only [View.readAt_eq_ld, harg3.read_unread, harg4.read_unread, harg5.read_unread, harg6.read_unread, harg7.read_unread, harg8.read_unread, harg9.read_unread,
    View.ld_unit_zero (S := S32x128) hz, View.ld_unit_zero (S := S32x1) hz, View.ld_unit_zero (S := S1x128) hz, View.ld_unit_zero (S := S1x1) hz]

theorem piece_B_6 (c : Dev nD) (i : grid1.Coords) (arg3 : Memref sig .tc .vmem S32x128 .f32) (harg3 : arg3.IsWhole) (arg4 : Memref sig .tc .vmem S32x128 .f32) (harg4 : arg4.IsWhole) (arg5 : Memref sig .tc .vmem S32x1 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x1 .f32) (harg8 : arg8.IsWhole) (arg9 : Memref sig .tc .vmem S1x1 .i32) (harg9 : arg9.IsWhole) (hc0 : ¬cond1_0 i) (x0 : Vec F S32x128 .f32) (x1 : Vec F S32x128 .f32) (x2 : Vec F S32x1 .i32) (x3 : Vec F S1x128 .i32) (x4 : Vec F S1x128 .i32) (xo5 : Vec F S1x1 .f32) (xo6 : Vec F S1x1 .i32) :
    out1_B_6 c i arg3 harg3 arg4 harg4 arg5 harg5 arg6 harg6 arg7 harg7 arg8 harg8 arg9 harg9 hc0 x0 x1 x2 x3 x4 xo5 xo6 = k1_pay1 (k1_pay12 xo6) (k1_pay13 (k1_pay5 i x2 x3) (k1_pay6 x2 x4) (k1_pay7 x0) (k1_pay8 x1)) := by
  unfold out1_B_6
  rw [View.read_writes_eq_canon _ _ _ (cover1_B_6 c i arg3 harg3 arg4 harg4 arg5 harg5 arg6 harg6 arg7 harg7 arg8 harg8 arg9 harg9 hc0 x0 x1 x2 x3 x4 xo5 xo6)]
  unfold kernelRun1_B
  dsimp only
  sl_unfold_words
  rw [View.canon_unit_zero hz]
  simp only [View.readAt_eq_ld, harg3.read_unread, harg4.read_unread, harg5.read_unread, harg6.read_unread, harg7.read_unread, harg8.read_unread, harg9.read_unread,
    View.ld_unit_zero (S := S32x128) hz, View.ld_unit_zero (S := S32x1) hz, View.ld_unit_zero (S := S1x128) hz, View.ld_unit_zero (S := S1x1) hz]

/-- The count read back before it is added to: a cast between equal shapes. -/
theorem pay12_eq (v : Vec F S1x1 .i32) : k1_pay12 v = v := by
  unfold k1_pay12; exact shapeCast_self _ _

section Points
variable (V : (c : Dev nD) → (b : Ref sig .tc) → Buf (Elt F) ((c : Thread nD τ).loc b))

/-! ## The accumulators point by point -/

/-- The two masks and the two distance operands of point `t`, from its blocks. -/
abbrev p5At (c : Dev nD) (t : Fin cfg1.N) : IVec S32x128 1 := k1_pay5 (grid1.coords t) (iblk1 V c 2 t) (iblk1 V c 3 t)
abbrev p6At (c : Dev nD) (t : Fin cfg1.N) : IVec S32x128 1 := k1_pay6 (iblk1 V c 2 t) (iblk1 V c 4 t)
abbrev p7At (c : Dev nD) (t : Fin cfg1.N) : FVec F S32x128x1 .f32 := k1_pay7 (iblk1 V c 0 t)
abbrev p8At (c : Dev nD) (t : Fin cfg1.N) : FVec F S32x128x128 .f32 := k1_pay8 (iblk1 V c 1 t)

/-- After the first point: the payloads over the reset zeros. -/
theorem outs5_zero (c : Dev nD) (hn : 0 < cfg1.N) :
    outsAt1_5 V c 0 hn = k1_pay11 (p5At V c ⟨0, hn⟩) (p6At V c ⟨0, hn⟩) (p7At V c ⟨0, hn⟩) (p8At V c ⟨0, hn⟩) (k1_pay2 (F := F)) :=
  (outsAt1_5_A V c ⟨0, hn⟩ rfl).trans
    (piece_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) ((hcond1_0 ⟨0, hn⟩).mpr rfl) (iblk1 V c 0 ⟨0, hn⟩) (iblk1 V c 1 ⟨0, hn⟩) (iblk1 V c 2 ⟨0, hn⟩) (iblk1 V c 3 ⟨0, hn⟩) (iblk1 V c 4 ⟨0, hn⟩))
theorem outs6_zero (c : Dev nD) (hn : 0 < cfg1.N) :
    outsAt1_6 V c 0 hn = k1_pay1 (k1_pay12 (F := F) k1_pay3) (k1_pay13 (p5At V c ⟨0, hn⟩) (p6At V c ⟨0, hn⟩) (p7At V c ⟨0, hn⟩) (p8At V c ⟨0, hn⟩)) :=
  (outsAt1_6_A V c ⟨0, hn⟩ rfl).trans
    (piece_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) ((hcond1_0 ⟨0, hn⟩).mpr rfl) (iblk1 V c 0 ⟨0, hn⟩) (iblk1 V c 1 ⟨0, hn⟩) (iblk1 V c 2 ⟨0, hn⟩) (iblk1 V c 3 ⟨0, hn⟩) (iblk1 V c 4 ⟨0, hn⟩))

/-- After a later point: the payloads over what the point before left. -/
theorem outs5_succ (c : Dev nD) (n : ℕ) (hn : n + 1 < cfg1.N) :
    outsAt1_5 V c (n + 1) hn = k1_pay11 (p5At V c ⟨n + 1, hn⟩) (p6At V c ⟨n + 1, hn⟩) (p7At V c ⟨n + 1, hn⟩) (p8At V c ⟨n + 1, hn⟩) (outsAt1_5 V c n (Nat.lt_of_succ_lt hn)) :=
  (outsAt1_5_B V c ⟨n + 1, hn⟩ (Nat.succ_ne_zero n)).trans
    (piece_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => Nat.succ_ne_zero n ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
      (outsAt1_5 V c n (Nat.lt_of_succ_lt hn)) (outsAt1_6 V c n (Nat.lt_of_succ_lt hn)))
theorem outs6_succ (c : Dev nD) (n : ℕ) (hn : n + 1 < cfg1.N) :
    outsAt1_6 V c (n + 1) hn = k1_pay1 (k1_pay12 (outsAt1_6 V c n (Nat.lt_of_succ_lt hn))) (k1_pay13 (p5At V c ⟨n + 1, hn⟩) (p6At V c ⟨n + 1, hn⟩) (p7At V c ⟨n + 1, hn⟩) (p8At V c ⟨n + 1, hn⟩)) :=
  (outsAt1_6_B V c ⟨n + 1, hn⟩ (Nat.succ_ne_zero n)).trans
    (piece_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => Nat.succ_ne_zero n ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
      (outsAt1_5 V c n (Nat.lt_of_succ_lt hn)) (outsAt1_6 V c n (Nat.lt_of_succ_lt hn)))

end Points

end Cert.KernelIdeal.MineValue

end
-- ==== Proof.MineFinal.lean ====
/-
  What the mining pass leaves in its two accumulator arrays. Each accumulator is a single 1 × 1 block whose
  index never moves; it is written back once, after the last of the 256 grid points, so the array ends
  holding what the body leaves in the accumulator's buffer at point 255.
-/
import proofs.«153964_j44006234915136_2_alg».proof.Proof.MineRegion
import Idealize.ShloMosaic.Lib.Pipeline.Value

set_option maxRecDepth 16384

noncomputable section

namespace Cert.KernelIdeal.MineFinal

open Cert.KernelIdeal Cert.KernelIdeal.Gen Cert.KernelIdeal.Mine
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The last grid point is a grid point. -/
theorem last_lt : 255 < cfg1.N := by rw [show cfg1.N = 256 from N_1]; decide

/-- A 1 × 1 array has one index. -/
theorem idx_eq (i i' : S1x1.Idx) : i = i' := by
  funext a
  apply Fin.ext
  match a with
  | ⟨0, _⟩ =>
    have h : (i 0).val < 1 := (i 0).isLt
    have h' : (i' 0).val < 1 := (i' 0).isLt
    show (i 0).val = (i' 0).val
    omega
  | ⟨1, _⟩ =>
    have h : (i 1).val < 1 := (i 1).isLt
    have h' : (i' 1).val < 1 := (i' 1).isLt
    show (i 1).val = (i' 1).val
    omega

/-- A point that writes an accumulator back is the last one. -/
theorem flush5_last (t : Fin cfg1.N) (hf : (cfg1.win 5).flush t = true) : t.val = 255 := by
  have h := (flush1_5 t).mp hf
  have hlt : t.val < 256 := Nat.lt_of_lt_of_eq t.isLt (show cfg1.N = 256 from N_1)
  omega
theorem flush6_last (t : Fin cfg1.N) (hf : (cfg1.win 6).flush t = true) : t.val = 255 := by
  have h := (flush1_6 t).mp hf
  have hlt : t.val < 256 := Nat.lt_of_lt_of_eq t.isLt (show cfg1.N = 256 from N_1)
  omega

/-- The accumulators' block indices are zero at every point. -/
theorem idx_facts : ∀ t : Fin cfg1.N, win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

section Regions
variable (V : (c : Dev nD) → (b : Ref sig .tc) → Buf (Elt F) ((c : Thread nD τ).loc b))

/-- What a point's body leaves depends on the point's number only. -/
theorem outs5_congr (c : Dev nD) (n : ℕ) (hn : n < cfg1.N) (e : n = 255) : outsAt1_5 V c n hn = outsAt1_5 V c 255 last_lt := by
  subst e; rfl
theorem outs6_congr (c : Dev nD) (n : ℕ) (hn : n < cfg1.N) (e : n = 255) : outsAt1_6 V c n hn = outsAt1_6 V c 255 last_lt := by
  subst e; rfl

/-- What a flushing point writes back is the block of the last point's accumulator contents. -/
theorem flushed5_eq (c : Dev nD) (t : Fin cfg1.N) (hf : (cfg1.win 5).flush t = true) :
    (dat1 V c).flushed 5 t = ((cfg1.win 5).blk t).view.read (Elt F) (outsAt1_5 V c 255 last_lt) := by
  show (cfg1.win 5).cut (grid1.coords t) ((dat1 V c).after 5 t) = _
  rw [after1_5, outs5_congr V c t.val t.isLt (flush5_last t hf)]
  funext j
  show outsAt1_5 V c 255 last_lt j = outsAt1_5 V c 255 last_lt (((cfg1.win 5).blk t).view.emb j)
  exact congrArg _ (idx_eq _ _)
theorem flushed6_eq (c : Dev nD) (t : Fin cfg1.N) (hf : (cfg1.win 6).flush t = true) :
    (dat1 V c).flushed 6 t = ((cfg1.win 6).blk t).view.read (Elt F) (outsAt1_6 V c 255 last_lt) := by
  show (cfg1.win 6).cut (grid1.coords t) ((dat1 V c).after 6 t) = _
  rw [after1_6, outs6_congr V c t.val t.isLt (flush6_last t hf)]
  funext j
  show outsAt1_6 V c 255 last_lt j = outsAt1_6 V c 255 last_lt (((cfg1.win 6).blk t).view.emb j)
  exact congrArg _ (idx_eq _ _)

end Regions

/-- An index of the array is in a point's block iff each coordinate is in the block's range on its axis. -/
theorem mem_blk5 (t : Fin cfg1.N) (i : S1x1.Idx) :
    i ∈ ((cfg1.win 5).blk t).view.set ↔ ∀ a : Fin 2, win1_5.index t a * S1x1.size a ≤ (i a).val ∧ (i a).val < win1_5.index t a * S1x1.size a + S1x1.size a := by
  show i ∈ ((View.whole main_v3_0).slice (win1_5.rect t)).set ↔ _
  rw [View.set_slice_whole, Rect.mem_set_unit]
  exact Iff.rfl
theorem mem_blk6 (t : Fin cfg1.N) (i : S1x1.Idx) :
    i ∈ ((cfg1.win 6).blk t).view.set ↔ ∀ a : Fin 2, win1_6.index t a * S1x1.size a ≤ (i a).val ∧ (i a).val < win1_6.index t a * S1x1.size a + S1x1.size a := by
  show i ∈ ((View.whole main_v3_1).slice (win1_6.rect t)).set ↔ _
  rw [View.set_slice_whole, Rect.mem_set_unit]
  exact Iff.rfl

/-- The array's one index is in the last point's block, which is written back. -/
theorem cover5 (i : S1x1.Idx) : ∃ t : Fin cfg1.N, (cfg1.win 5).flush t = true ∧ i ∈ ((cfg1.win 5).blk t).view.set := by
  have hi0 : (i 0).val < 1 := (i 0).isLt
  have hi1 : (i 1).val < 1 := (i 1).isLt
  obtain ⟨e0, e1, -, -⟩ := idx_facts ⟨255, last_lt⟩
  refine ⟨⟨255, last_lt⟩, (flush1_5 _).mpr rfl, ?_⟩
  rw [mem_blk5]
  intro a
  match a with
  | ⟨0, _⟩ => show win1_5.index ⟨255, last_lt⟩ (0 : Fin 2) * 1 ≤ (i 0).val ∧ (i 0).val < win1_5.index ⟨255, last_lt⟩ (0 : Fin 2) * 1 + 1; omega
  | ⟨1, _⟩ => show win1_5.index ⟨255, last_lt⟩ (1 : Fin 2) * 1 ≤ (i 1).val ∧ (i 1).val < win1_5.index ⟨255, last_lt⟩ (1 : Fin 2) * 1 + 1; omega
theorem cover6 (i : S1x1.Idx) : ∃ t : Fin cfg1.N, (cfg1.win 6).flush t = true ∧ i ∈ ((cfg1.win 6).blk t).view.set := by
  have hi0 : (i 0).val < 1 := (i 0).isLt
  have hi1 : (i 1).val < 1 := (i 1).isLt
  obtain ⟨-, -, e0, e1⟩ := idx_facts ⟨255, last_lt⟩
  refine ⟨⟨255, last_lt⟩, (flush1_6 _).mpr rfl, ?_⟩
  rw [mem_blk6]
  intro a
  match a with
  | ⟨0, _⟩ => show win1_6.index ⟨255, last_lt⟩ (0 : Fin 2) * 1 ≤ (i 0).val ∧ (i 0).val < win1_6.index ⟨255, last_lt⟩ (0 : Fin 2) * 1 + 1; omega
  | ⟨1, _⟩ => show win1_6.index ⟨255, last_lt⟩ (1 : Fin 2) * 1 ≤ (i 1).val ∧ (i 1).val < win1_6.index ⟨255, last_lt⟩ (1 : Fin 2) * 1 + 1; omega

/-- After the region the total's array holds what the body leaves in its buffer at the last point, -/
theorem arr5_final (V : (c : Dev nD) → (b : Ref sig .tc) → Buf (Elt F) ((c : Thread nD τ).loc b)) (c : Dev nD) (j : S1x1.Idx) :
    (dat1 (F := F) V c).arrAt 5 cfg1.N j
      = outsAt1_5 V c 255 (by rw [show cfg1.N = 256 from N_1]; decide) j :=
  congrFun ((dat1 V c).arrAt_eq_of_cover 5 (outsAt1_5 V c 255 last_lt) (fun t hf => flushed5_eq V c t hf) cover5) j

/-- and the count's array likewise. -/
theorem arr6_final (V : (c : Dev nD) → (b : Ref sig .tc) → Buf (Elt F) ((c : Thread nD τ).loc b)) (c : Dev nD) (j : S1x1.Idx) :
    (dat1 (F := F) V c).arrAt 6 cfg1.N j
      = outsAt1_6 V c 255 (by rw [show cfg1.N = 256 from N_1]; decide) j :=
  congrFun ((dat1 V c).arrAt_eq_of_cover 6 (outsAt1_6 V c 255 last_lt) (fun t hf => flushed6_eq V c t hf) cover6) j

end Cert.KernelIdeal.MineFinal

end
-- ==== Proof.LibBlockReads.lean ====
/-
  Two layout steps read at an index written by coordinates, for any extents.

  * A matrix `[a, b]` cast to `[a, 1, b]` (a unit axis put BETWEEN its two axes) reads, at `(i, u, j)`, the matrix at
    `(i, j)`: both have row-major position `i * b + j`.
  * A load through a unit-stride rectangle of a matrix, at the rectangle's own index `(y₀, y₁)`, reads the matrix at
    `(off₀ + y₀, off₁ + y₁)`.
-/
import Idealize.ShloMosaic.Lib.ValueIdx
import Idealize.ShloMosaic.Lib.Pipeline.Value

noncomputable section

namespace Cert.LibBlockReads

open Idealize.ShloMosaic Idealize.ShloMosaic.ValueIdx

/-- An `[a, b]` array cast to `[a, 1, b]` reads, at `(i, u, j)`, the operand at `(i, j)`, whatever the unit coordinate. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A load through a unit-stride rectangle of an `[n0, n1]` array reads, at the rectangle's index `y`, the array at the
    offsets plus `y`: the caller names the two coordinates and shows each is its offset plus `y`'s. -/
theorem ld_unit_ix2 {Val : EltTy → Type} {e : EltTy} {n0 n1 : ℕ} (X : (⟨2, ![n0, n1]⟩ : Shape).Idx → Val e)
    (off size : Fin 2 → ℕ) (inb : ∀ a, off a + size a ≤ (⟨2, ![n0, n1]⟩ : Shape).size a)
    (y : (Rect.unit (s := ⟨2, ![n0, n1]⟩) off size inb).shape.Idx) (i : Fin n0) (j : Fin n1)
    (hi : i.val = off 0 + (y 0).val) (hj : j.val = off 1 + (y 1).val) :
    View.ld X (Rect.unit off size inb) y = X (ix2 i j) :=
  congrArg X (funext fun a => Fin.ext (by
    match a with
    | ⟨0, _⟩ => show off 0 + 1 * (y 0).val = i.val; omega
    | ⟨1, _⟩ => show off 1 + 1 * (y 1).val = j.val; omega))

end Cert.LibBlockReads

end
-- ==== Proof.MinePayload.lean ====
/-
  The mining pass's arithmetic at one tile, read at the ideal values: the mask bits are the indicators of
  "positive of the anchor" and "negative of the anchor", the masked hinge and the mask are read entry by
  entry, and the three nested sums over a tile's 32 × 128 × 128 entries are the tile's sum.
-/
import proofs.«153964_j44006234915136_2_alg».proof.Proof.Gen.KernelIdeal.Skeleton
import proofs.«153964_j44006234915136_2_alg».proof.Proof.TripletSpec
import proofs.«153964_j44006234915136_2_alg».proof.Proof.LibRowOps
import proofs.«153964_j44006234915136_2_alg».proof.Proof.LibColumnCasts
import proofs.«153964_j44006234915136_2_alg».proof.Proof.LibBlockReads
import Idealize.ShloMosaic.Lib.Pipeline.Value
import Idealize.ShloMosaic.Lib.ValueLayout
import Idealize.ShloMosaic.PureOps.Ideal.Laws

noncomputable section

open scoped BigOperators

namespace Cert.KernelIdeal.MinePayload

open Cert.KernelIdeal Cert.KernelIdeal.Gen Idealize.ShloMosaic Idealize.ShloMosaic.ValueIdx Cert.Triplet

/-! ## Layout steps and sums, for any extents -/

section Layout
variable {α : Type}

/-- The index that a sum over the last axis of a rank-3 array reads: (p, q, k). -/
theorem lift_last {a b c : ℕ} (h : (⟨3, ![a, b, c]⟩ : Shape).Reduces [2] ⟨2, ![a, b]⟩) (p : Fin a) (q : Fin b)
    (k : Fin c) : h.lift (ix2 p q) k = ix3 p q k := by
  funext d
  apply Fin.ext
  show h.liftVal (ix2 p q) k.val d = (ix3 p q k d).val
  match d with
  | ⟨0, _⟩ => simp [Shape.Reduces.liftVal]
  | ⟨1, _⟩ => simp [Shape.Reduces.liftVal]
  | ⟨2, _⟩ => simp [Shape.Reduces.liftVal]

/-- The sum over the last axis of a rank-3 array from the zero word is, at (p, q), the sum of that fibre. -/
theorem lastSum {a b c : ℕ} (W : FVec Ideal ⟨3, ![a, b, c]⟩ .f32)
    (h : (⟨3, ![a, b, c]⟩ : Shape).Reduces [2] ⟨2, ![a, b]⟩) (hφ : FTy.f32 = FTy.f32 ∨ FTy.f32 = FTy.bf16)
    (hacc : (0x00000000#32 : BitVec 32) = 0x00000000#32) (p : Fin a) (q : Fin b) :
    multiReduction .add [2] ⟨2, ![a, b]⟩ W 0x00000000#32 h hφ hacc (ix2 p q) = ∑ k : Fin c, W (ix3 p q k) := by
  refine (Ideal.multiReduction_add_single W 0x00000000#32 h hφ hacc (ix2 p q)).trans ?_
  exact Finset.sum_congr rfl fun k _ => congrArg W (lift_last h p q k)

/-- A matrix [a, b] cast to [a, b, 1] reads, at (p, q, u), the matrix at (p, q). -/
theorem cast_ab_ab1 {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An [a, b, 1] array repeated along its last axis holds, at (p, q, r), its entry (p, q, 0). -/
theorem bcast_ab1 {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An [a, 1, c] array repeated along its middle axis holds, at (p, q, r), its entry (p, 0, r). -/
theorem bcast_a1c {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

end Layout

/-- The three nested sums of the tile pass (the last axis, then the positives, then — through a one-row
    recast — the anchors), each from the zero word, and the entry (0, 0) taken: the sum over the tile. -/
theorem tripleSum (W : FVec Ideal S32x128x128 .f32) (h2 : S32x128x128.Reduces [2] S32x128)
    (h1 : S32x128.Reduces [1] S32) (hc : S32.ShapeCasts S1x32) (h1' : S1x32.Reduces [1] S1)
    (hc' : S1.ShapeCasts S1x1) (hp : ∀ a, (![0, 0] : Fin 2 → ℕ) a < S1x1.size a)
    (hφ : FTy.f32 = FTy.f32 ∨ FTy.f32 = FTy.bf16) (hacc : (0x00000000#32 : BitVec 32) = 0x00000000#32) :
    extractAt ![0, 0] (shapeCast S1x1 (multiReduction .add [1] S1 (shapeCast S1x32
        (multiReduction .add [1] S32 (multiReduction .add [2] S32x128 W 0x00000000#32 h2 hφ hacc)
          0x00000000#32 h1 hφ hacc) hc) 0x00000000#32 h1' hφ hacc) hc') hp
      = ∑ a : Fin 32, ∑ b : Fin 128, ∑ k : Fin 128, W (ix3 a b k) := by
  have e0 : (fun a : Fin 2 => (⟨(![0, 0] : Fin 2 → ℕ) a, hp a⟩ : Fin (S1x1.size a)))
      = ix2 (0 : Fin 1) (0 : Fin 1) :=
    funext fun a => Fin.ext (by match a with | ⟨0, _⟩ => rfl | ⟨1, _⟩ => rfl)
  unfold extractAt
  refine (congrArg (shapeCast S1x1 _ hc') e0).trans ?_
  refine (Cert.LibColumnCasts.cast_column _ hc' 0 0).trans ?_
  refine (congrFun (Cert.LibRowOps.rowsum _ h1' hφ hacc) (ix1 0)).trans ?_
  refine Finset.sum_congr rfl fun a _ => ?_
  refine (shapeCast_a_1a_apply _ hc 0 a).trans ?_
  refine (congrFun (Cert.LibRowOps.rowsum _ h1 hφ hacc) (ix1 a)).trans ?_
  refine Finset.sum_congr rfl fun b _ => ?_
  exact lastSum W h2 hφ hacc a b

/-! ## Words -/

theorem ofBool_and (a b : Bool) : IntOp.andi (BitVec.ofBool a) (BitVec.ofBool b) = BitVec.ofBool (a && b) := by
  cases a <;> cases b <;> rfl

theorem ofBool_xor_one (a : Bool) : IntOp.xori (BitVec.ofBool a) 1#1 = BitVec.ofBool (!a) := by
  cases a <;> rfl

/-- Numbers below 2³² are equal exactly when their 32-bit words are. -/
theorem ofNat_beq (m n : ℕ) (hm : m < 2 ^ 32) (hn : n < 2 ^ 32) :
    (BitVec.ofNat 32 m == BitVec.ofNat 32 n) = (m == n) := by
  rw [Bool.eq_iff_iff]
  simp only [beq_iff_eq]
  constructor
  · intro h
    have h' := congrArg BitVec.toNat h
    rw [BitVec.toNat_ofNat, BitVec.toNat_ofNat, Nat.mod_eq_of_lt hm, Nat.mod_eq_of_lt hn] at h'
    exact h'
  · rintro rfl
    rfl

/-- The word of "s times x plus a". -/
theorem scaled_word (s x a : ℕ) :
    IntOp.addi (Scalar.muli (BitVec.ofNat 32 x) (BitVec.ofNat 32 s)) (BitVec.ofNat 32 a)
      = BitVec.ofNat 32 (s * x + a) := by
  show BitVec.ofNat 32 x * BitVec.ofNat 32 s + BitVec.ofNat 32 a = _
  rw [← BitVec.ofNat_mul, ← BitVec.ofNat_add, Nat.mul_comm]

/-- The positives' mask bit from its four words: two labels, two row numbers below 2³². -/
theorem pos_bit_of {A B R C la lb : BitVec 32} {m n : ℕ} (hA : A = la) (hB : B = lb)
    (hR : R = BitVec.ofNat 32 m) (hC : C = BitVec.ofNat 32 n) (hm : m < 2 ^ 32) (hn : n < 2 ^ 32) :
    IntOp.andi (IntOp.cmpi .eq A B) (IntOp.xori (IntOp.cmpi .eq R C) 1#1)
      = BitVec.ofBool ((la == lb) && !(m == n)) := by
  subst hA hB hR hC
  show IntOp.andi (BitVec.ofBool (A == B))
    (IntOp.xori (BitVec.ofBool (BitVec.ofNat 32 m == BitVec.ofNat 32 n)) 1#1) = _
  rw [ofNat_beq m n hm hn, ofBool_xor_one, ofBool_and]

/-- A converted mask bit is the indicator. -/
theorem sitofp_bit (c : Bool) : FloatOps.sitofp (F := Ideal) .f32 ((BitVec.ofBool c).setWidth 32) = ind c := by
  cases c
  · have e : ((BitVec.ofBool false).setWidth 32).toInt = 0 := by decide
    show ((((BitVec.ofBool false).setWidth 32).toInt : ℝ) : EReal) = ind false
    rw [e]
    simp [ind]
  · have e : ((BitVec.ofBool true).setWidth 32).toInt = 1 := by decide
    show ((((BitVec.ofBool true).setWidth 32).toInt : ℝ) : EReal) = ind true
    rw [e]
    simp [ind]

/-! ## The mask bits -/

section Bits
variable (i : grid1.Coords) (x2 : Vec Ideal S32x1 .i32) (x3 x4 : Vec Ideal S1x128 .i32)
  (t : Fin 256) (tg : ST.Idx → BitVec 32)

/-- The positives' mask bit at (a, b): the positive indicator of the tile's rows. -/
theorem pos_bit (hi0 : (i 0).val = t.val / 16) (hi1 : (i 1).val = t.val / 4 % 4)
    (h2 : ∀ a : Fin 32, x2 (ix2 a 0) = tg (ix1 (rowI t a)))
    (h3 : ∀ b : Fin 128, x3 (ix2 0 b) = tg (ix1 (colJ t b))) (a : Fin 32) (b : Fin 128) :
    k1_pay5 (F := Ideal) i x2 x3 (ix2 a b) = BitVec.ofBool (pos tg (rowI t a) (colJ t b)) := by
  unfold k1_pay5 k1_pay4
  dsimp only
  show IntOp.andi (IntOp.cmpi .eq (broadcastTo S32x128 _ _ (ix2 a b)) (broadcastTo S32x128 _ _ (ix2 a b)))
      (IntOp.xori (IntOp.cmpi .eq (broadcastTo S32x128 _ _ (ix2 a b)) (broadcastTo S32x128 _ _ (ix2 a b))) 1#1) = _
  have hm : (rowI t a).val < 2 ^ 32 := lt_trans (rowI t a).isLt (by norm_num)
  have hn : (colJ t b).val < 2 ^ 32 := lt_trans (colJ t b).isLt (by norm_num)
  refine (pos_bit_of (la := tg (ix1 (rowI t a))) (lb := tg (ix1 (colJ t b))) (m := (rowI t a).val)
    (n := (colJ t b).val) ?_ ?_ ?_ ?_ hm hn).trans ?_
  · exact (Cert.LibRowOps.col_bcast_apply _ _ a b).trans ((congrFun (shapeCast_self x2 _) _).trans (h2 a))
  · exact (broadcastTo_1b_ab_apply _ _ a b).trans ((congrFun (shapeCast_self x3 _) _).trans (h3 b))
  · refine (Cert.LibRowOps.col_bcast_apply _ _ a b).trans ?_
    show IntOp.addi (Scalar.muli (BitVec.ofNat 32 (i 0).val) (BitVec.ofNat 32 32))
      (iota .tc S32x1 32 [0] _ (ix2 a (0 : Fin 1))) = _
    rw [iota_single_apply, hi0]
    exact scaled_word 32 _ _
  · refine (broadcastTo_1b_ab_apply _ _ a b).trans ?_
    show IntOp.addi (Scalar.muli (BitVec.ofNat 32 (i 1).val) (BitVec.ofNat 32 128))
      (iota .tc S1x128 32 [1] _ (ix2 (0 : Fin 1) b)) = _
    rw [iota_single_apply, hi1]
    exact scaled_word 128 _ _
  · refine congrArg BitVec.ofBool ?_
    unfold pos
    refine congrArg (_ && ·) ?_
    show (!decide ((rowI t a).val = (colJ t b).val)) = !decide (rowI t a = colJ t b)
    exact congrArg (!·) (decide_eq_decide.2 Fin.ext_iff.symm)

/-- The negatives' mask bit at (a, k): the negative indicator of the tile's rows. -/
theorem neg_bit (h2 : ∀ a : Fin 32, x2 (ix2 a 0) = tg (ix1 (rowI t a)))
    (h4 : ∀ k : Fin 128, x4 (ix2 0 k) = tg (ix1 (colK t k))) (a : Fin 32) (k : Fin 128) :
    k1_pay6 (F := Ideal) x2 x4 (ix2 a k) = BitVec.ofBool (neg tg (rowI t a) (colK t k)) := by
  unfold k1_pay6 k1_pay4
  dsimp only
  show IntOp.cmpi .ne (broadcastTo S32x128 _ _ (ix2 a k)) (broadcastTo S32x128 _ _ (ix2 a k)) = _
  have ea := (Cert.LibRowOps.col_bcast_apply _ broadcasts_S32x1_S32x128 a k).trans
    ((congrFun (shapeCast_self x2 shapeCasts_S32x1_S32x1) _).trans (h2 a))
  have eb := (broadcastTo_1b_ab_apply _ broadcasts_S1x128_S32x128 a k).trans
    ((congrFun (shapeCast_self x4 shapeCasts_S1x128_S1x128) _).trans (h4 k))
  exact (congrArg₂ (IntOp.cmpi .ne) ea eb).trans rfl

end Bits

/-! ## The tile's entries -/

section Entries
variable (x0 x1 : Vec Ideal S32x128 .f32)

/-- The anchors-by-positives block with a unit axis appended. -/
theorem ap_at (a : Fin 32) (b : Fin 128) (u : Fin 1) : k1_pay7 (F := Ideal) x0 (ix3 a b u) = x0 (ix2 a b) := by
  unfold k1_pay7
  exact (cast_ab_ab1 _ _ a b u).trans (congrFun (shapeCast_self x0 _) _)

/-- The anchors-by-negatives block repeated over the positives. -/
theorem an_at (a : Fin 32) (b k : Fin 128) : k1_pay8 (F := Ideal) x1 (ix3 a b k) = x1 (ix2 a k) := by
  unfold k1_pay8
  exact (bcast_a1c _ _ a b k).trans
    ((Cert.LibBlockReads.shapeCast_ab_a1b_apply _ _ a 0 k).trans (congrFun (shapeCast_self x1 _) _))

end Entries

section Triple
variable (P N : IVec S32x128 1) (A : FVec Ideal S32x128x1 .f32) (B : FVec Ideal S32x128x128 .f32)

/-- The difference "negative's distance minus positive's distance" at a triple. -/
theorem gap_at (a : Fin 32) (b k : Fin 128) :
    k1_pay9 (F := Ideal) A B (ix3 a b k) = B (ix3 a b k) - A (ix3 a b (0 : Fin 1)) := by
  unfold k1_pay9
  show B (ix3 a b k) - broadcastTo S32x128x128 A _ (ix3 a b k) = _
  exact congrArg (B (ix3 a b k) - ·) (bcast_ab1 A _ a b k)

/-- The mask at a triple: the product of the three indicators. -/
theorem mask_at (a : Fin 32) (b k : Fin 128) (pb nb : Bool) (dap dan : EReal)
    (hP : P (ix2 a b) = BitVec.ofBool pb) (hN : N (ix2 a k) = BitVec.ofBool nb)
    (hA : A (ix3 a b (0 : Fin 1)) = dap) (hB : B (ix3 a b k) = dan) :
    k1_pay10 (F := Ideal) P N A B (ix3 a b k) = (ind pb * ind nb) * ind (decide (dan - dap < half)) := by
  unfold k1_pay10
  show (broadcastTo S32x128x128 (shapeCast S32x128x1 (sitofp .f32 (extui 32 P _)) _) _ (ix3 a b k)
      * broadcastTo S32x128x128 (shapeCast S32x1x128 (sitofp .f32 (extui 32 N _)) _) _ (ix3 a b k))
      * FloatOps.sitofp .f32 ((FloatOps.cmpf .olt (k1_pay9 A B (ix3 a b k)) (Scalar.ofBits .f32 0x3F000000#32)).setWidth 32) = _
  have e1 : broadcastTo S32x128x128 (shapeCast S32x128x1 (sitofp (F := Ideal) .f32 (extui 32 P natLt_1_32))
      shapeCasts_S32x128_S32x128x1) broadcasts_S32x128x1_S32x128x128 (ix3 a b k) = ind pb := by
    refine (bcast_ab1 _ _ a b k).trans ((cast_ab_ab1 _ _ a b 0).trans ?_)
    show FloatOps.sitofp (F := Ideal) .f32 ((P (ix2 a b)).setWidth 32) = _
    rw [hP]
    exact sitofp_bit pb
  have e2 : broadcastTo S32x128x128 (shapeCast S32x1x128 (sitofp (F := Ideal) .f32 (extui 32 N natLt_1_32))
      shapeCasts_S32x128_S32x1x128) broadcasts_S32x1x128_S32x128x128 (ix3 a b k) = ind nb := by
    refine (bcast_a1c _ _ a b k).trans ((Cert.LibBlockReads.shapeCast_ab_a1b_apply _ _ a 0 k).trans ?_)
    show FloatOps.sitofp (F := Ideal) .f32 ((N (ix2 a k)).setWidth 32) = _
    rw [hN]
    exact sitofp_bit nb
  have e3 : FloatOps.sitofp (F := Ideal) .f32 ((FloatOps.cmpf .olt (k1_pay9 (F := Ideal) A B (ix3 a b k))
      (Scalar.ofBits .f32 0x3F000000#32)).setWidth 32) = ind (decide (dan - dap < half)) := by
    rw [gap_at, hA, hB]
    exact sitofp_bit _
  exact congrArg₂ (· * ·) (congrArg₂ (· * ·) e1 e2) e3

end Triple

/-! ## The tile's sums -/

section Tile
variable {i : grid1.Coords} {x0 x1 : Vec Ideal S32x128 .f32} {x2 : Vec Ideal S32x1 .i32}
  {x3 x4 : Vec Ideal S1x128 .i32} {t : Fin 256} {D : Fin 512 → Fin 512 → EReal} {tg : ST.Idx → BitVec 32}

/-- The mask at a triple of the tile. -/
theorem mask_entry (hi0 : (i 0).val = t.val / 16) (hi1 : (i 1).val = t.val / 4 % 4)
    (h0 : ∀ (a : Fin 32) (b : Fin 128), x0 (ix2 a b) = D (rowI t a) (colJ t b))
    (h1 : ∀ (a : Fin 32) (k : Fin 128), x1 (ix2 a k) = D (rowI t a) (colK t k))
    (h2 : ∀ a : Fin 32, x2 (ix2 a 0) = tg (ix1 (rowI t a)))
    (h3 : ∀ b : Fin 128, x3 (ix2 0 b) = tg (ix1 (colJ t b)))
    (h4 : ∀ k : Fin 128, x4 (ix2 0 k) = tg (ix1 (colK t k))) (a : Fin 32) (b k : Fin 128) :
    k1_pay10 (F := Ideal) (k1_pay5 i x2 x3) (k1_pay6 x2 x4) (k1_pay7 x0) (k1_pay8 x1) (ix3 a b k)
      = maskK tg D (rowI t a) (colJ t b) (colK t k) :=
  mask_at _ _ _ _ a b k _ _ _ _ (pos_bit i x2 x3 t tg hi0 hi1 h2 h3 a b) (neg_bit x2 x4 t tg h2 h4 a k)
    ((ap_at x0 a b 0).trans (h0 a b)) ((an_at x1 a b k).trans (h1 a k))

end Tile

/-- The tile's step on the running total: the tile's sum of masked hinges is added. -/
theorem total_step (tg : ST.Idx → BitVec 32) (D : Fin 512 → Fin 512 → EReal) (i : grid1.Coords) (t : Fin 256)
    (hi0 : (i 0).val = t.val / 16) (hi1 : (i 1).val = t.val / 4 % 4) (hi2 : (i 2).val = t.val % 4)
    (x0 x1 : Vec Ideal S32x128 .f32) (x2 : Vec Ideal S32x1 .i32) (x3 x4 : Vec Ideal S1x128 .i32)
    (h0 : ∀ (a : Fin 32) (b : Fin 128), x0 (ix2 a b) = D (rowI t a) (colJ t b))
    (h1 : ∀ (a : Fin 32) (k : Fin 128), x1 (ix2 a k) = D (rowI t a) (colK t k))
    (h2 : ∀ a : Fin 32, x2 (ix2 a 0) = tg (ix1 (rowI t a)))
    (h3 : ∀ b : Fin 128, x3 (ix2 0 b) = tg (ix1 (colJ t b)))
    (h4 : ∀ k : Fin 128, x4 (ix2 0 k) = tg (ix1 (colK t k))) (v74 : Vec Ideal S1x1 .f32) (j : S1x1.Idx) :
    k1_pay11 (k1_pay5 i x2 x3) (k1_pay6 x2 x4) (k1_pay7 x0) (k1_pay8 x1) v74 j = v74 j + tileTotal tg D t := by
  unfold k1_pay11
  refine (addf_apply _ _ j).trans ?_
  refine congrArg₂ (· + ·) (congrFun (shapeCast_self v74 _) j) ((broadcast_apply _ j).trans ?_)
  refine (tripleSum _ _ _ _ _ _ _ _ _).trans ?_
  unfold tileTotal
  refine Finset.sum_congr rfl fun a _ => Finset.sum_congr rfl fun b _ => Finset.sum_congr rfl fun k _ => ?_
  unfold hingeK
  refine (mulf_apply _ _ _).trans (congrArg₂ (· * ·) (mask_entry hi0 hi1 h0 h1 h2 h3 h4 a b k) ?_)
  show max ((Ideal.ofBits .f32 0x00000000#32 - k1_pay9 (F := Ideal) (k1_pay7 x0) (k1_pay8 x1) (ix3 a b k))
    + Ideal.ofBits .f32 0x3F000000#32) (Ideal.ofBits .f32 0x00000000#32) = _
  rw [gap_at, ap_at, an_at, h0, h1, Ideal.ofBits_zero_f32]
  rfl

/-- The tile's sum of masks. -/
theorem mask_sum (tg : ST.Idx → BitVec 32) (D : Fin 512 → Fin 512 → EReal) (i : grid1.Coords) (t : Fin 256)
    (hi0 : (i 0).val = t.val / 16) (hi1 : (i 1).val = t.val / 4 % 4) (hi2 : (i 2).val = t.val % 4)
    (x0 x1 : Vec Ideal S32x128 .f32) (x2 : Vec Ideal S32x1 .i32) (x3 x4 : Vec Ideal S1x128 .i32)
    (h0 : ∀ (a : Fin 32) (b : Fin 128), x0 (ix2 a b) = D (rowI t a) (colJ t b))
    (h1 : ∀ (a : Fin 32) (k : Fin 128), x1 (ix2 a k) = D (rowI t a) (colK t k))
    (h2 : ∀ a : Fin 32, x2 (ix2 a 0) = tg (ix1 (rowI t a)))
    (h3 : ∀ b : Fin 128, x3 (ix2 0 b) = tg (ix1 (colJ t b)))
    (h4 : ∀ k : Fin 128, x4 (ix2 0 k) = tg (ix1 (colK t k))) (j : S1x1.Idx) :
    k1_pay13 (k1_pay5 i x2 x3) (k1_pay6 x2 x4) (k1_pay7 x0) (k1_pay8 x1) j = tileMask tg D t := by
  unfold k1_pay13
  refine (broadcast_apply _ j).trans ?_
  refine (tripleSum _ _ _ _ _ _ _ _ _).trans ?_
  unfold tileMask
  exact Finset.sum_congr rfl fun a _ => Finset.sum_congr rfl fun b _ => Finset.sum_congr rfl fun k _ =>
    mask_entry hi0 hi1 h0 h1 h2 h3 h4 a b k

/-! ## The count's step and the two resets -/

/-- The tile's step on the running count: the tile's mask sum, converted to a word, is added. -/
theorem count_step (v80 : IVec S1x1 32) (v81 : FVec Ideal S1x1 .f32) (j : S1x1.Idx) :
    k1_pay1 v80 v81 j = v80 j + Ideal.fptosi 32 (v81 j) := rfl

/-- The total's reset value. -/
theorem pay2_zero (j : S1x1.Idx) : k1_pay2 (F := Ideal) j = 0 := by
  show Ideal.ofBits .f32 0x00000000#32 = 0
  exact Ideal.ofBits_zero_f32

/-- The count's reset value. -/
theorem pay3_zero (j : S1x1.Idx) : k1_pay3 j = 0#32 := rfl

end Cert.KernelIdeal.MinePayload

end
-- ==== Proof.MineBlocks.lean ====
/-
  The mining pass's block reads: which entries of the distance matrix and of the two label arrays the blocks
  of a tile hold. At grid point t the three grid coordinates are t / 16, t / 4 % 4 and t % 4; a block's element
  sits in its array, on each axis, at the block index times the block's size plus its coordinate inside the
  block, so the anchors' block holds rows 32 (t / 16) + a, the positives' block columns 128 (t / 4 % 4) + b and
  the negatives' block columns 128 (t % 4) + k.
-/
import proofs.«153964_j44006234915136_2_alg».proof.Proof.MineBase
import proofs.«153964_j44006234915136_2_alg».proof.Proof.TripletSpec

set_option maxRecDepth 16384

noncomputable section

namespace Cert.KernelIdeal.MineBlocks

open Cert.KernelIdeal Cert.KernelIdeal.Gen Cert.KernelIdeal.Mine
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The grid coordinates of point t of the 16 × 4 × 4 grid, in row-major order. -/
theorem coords1 : ∀ t : Fin cfg1.N, ((grid1.coords t) 0).val = t.val / 16 ∧ ((grid1.coords t) 1).val = t.val / 4 % 4
    ∧ ((grid1.coords t) 2).val = t.val % 4 :=
  (by decide +kernel : ∀ t : Fin grid1.N, ((grid1.coords t) 0).val = t.val / 16
    ∧ ((grid1.coords t) 1).val = t.val / 4 % 4 ∧ ((grid1.coords t) 2).val = t.val % 4)

/-- The block indices of the five input windows at point t. -/
theorem idx1 : ∀ t : Fin cfg1.N,
    win1_0.index t (0 : Fin 2) = t.val / 16 ∧ win1_0.index t (1 : Fin 2) = t.val / 4 % 4
    ∧ win1_1.index t (0 : Fin 2) = t.val / 16 ∧ win1_1.index t (1 : Fin 2) = t.val % 4
    ∧ win1_2.index t (0 : Fin 2) = t.val / 16 ∧ win1_2.index t (1 : Fin 2) = 0
    ∧ win1_3.index t (0 : Fin 2) = 0 ∧ win1_3.index t (1 : Fin 2) = t.val / 4 % 4
    ∧ win1_4.index t (0 : Fin 2) = 0 ∧ win1_4.index t (1 : Fin 2) = t.val % 4 :=
  (by decide +kernel : ∀ t : Fin grid1.N,
    win1_0.index t (0 : Fin 2) = t.val / 16 ∧ win1_0.index t (1 : Fin 2) = t.val / 4 % 4
    ∧ win1_1.index t (0 : Fin 2) = t.val / 16 ∧ win1_1.index t (1 : Fin 2) = t.val % 4
    ∧ win1_2.index t (0 : Fin 2) = t.val / 16 ∧ win1_2.index t (1 : Fin 2) = 0
    ∧ win1_3.index t (0 : Fin 2) = 0 ∧ win1_3.index t (1 : Fin 2) = t.val / 4 % 4
    ∧ win1_4.index t (0 : Fin 2) = 0 ∧ win1_4.index t (1 : Fin 2) = t.val % 4)

section Regions
variable (V : (c : Dev nD) → (b : Ref sig .tc) → Buf (Elt F) ((c : Thread nD τ).loc b))
variable (c : Dev nD) (t : Fin cfg1.N) (t' : Fin 256) (ht : t'.val = t.val)
include ht

/-- The anchors-by-positives block of the distance matrix. -/
theorem blk0 (a : Fin 32) (b : Fin 128) :
    iblk1 V c 0 t (ValueIdx.ix2 a b)
      = V c main_v0 (ValueIdx.ix2 (Cert.Triplet.rowI t' a) (Cert.Triplet.colJ t' b)) := by
  obtain ⟨e0, e1, -⟩ := idx1 t
  show V c main_v0 (((cfg1.win 0).blk t).view.emb (ValueIdx.ix2 a b)) = V c main_v0 _
  refine congrArg _ ?_
  funext d; apply Fin.ext
  match d with
  | ⟨0, _⟩ => show win1_0.index t (0 : Fin 2) * 32 + 1 * a.val = 32 * (t'.val / 16) + a.val; omega
  | ⟨1, _⟩ => show win1_0.index t (1 : Fin 2) * 128 + 1 * b.val = 128 * (t'.val / 4 % 4) + b.val; omega

/-- The anchors-by-negatives block of the distance matrix. -/
theorem blk1 (a : Fin 32) (k : Fin 128) :
    iblk1 V c 1 t (ValueIdx.ix2 a k)
      = V c main_v0 (ValueIdx.ix2 (Cert.Triplet.rowI t' a) (Cert.Triplet.colK t' k)) := by
  obtain ⟨-, -, e0, e1, -⟩ := idx1 t
  show V c main_v0 (((cfg1.win 1).blk t).view.emb (ValueIdx.ix2 a k)) = V c main_v0 _
  refine congrArg _ ?_
  funext d; apply Fin.ext
  match d with
  | ⟨0, _⟩ => show win1_1.index t (0 : Fin 2) * 32 + 1 * a.val = 32 * (t'.val / 16) + a.val; omega
  | ⟨1, _⟩ => show win1_1.index t (1 : Fin 2) * 128 + 1 * k.val = 128 * (t'.val % 4) + k.val; omega

/-- The anchors' block of the labels as a column. -/
theorem blk2 (a : Fin 32) :
    iblk1 V c 2 t (ValueIdx.ix2 a (0 : Fin 1))
      = V c main_v1 (ValueIdx.ix2 (Cert.Triplet.rowI t' a) (0 : Fin 1)) := by
  obtain ⟨-, -, -, -, e0, e1, -⟩ := idx1 t
  show V c main_v1 (((cfg1.win 2).blk t).view.emb (ValueIdx.ix2 a (0 : Fin 1))) = V c main_v1 _
  refine congrArg _ ?_
  funext d; apply Fin.ext
  match d with
  | ⟨0, _⟩ => show win1_2.index t (0 : Fin 2) * 32 + 1 * a.val = 32 * (t'.val / 16) + a.val; omega
  | ⟨1, _⟩ => show win1_2.index t (1 : Fin 2) * 1 + 1 * 0 = 0; omega

/-- The positives' block of the labels as a row. -/
theorem blk3 (b : Fin 128) :
    iblk1 V c 3 t (ValueIdx.ix2 (0 : Fin 1) b)
      = V c main_v2 (ValueIdx.ix2 (0 : Fin 1) (Cert.Triplet.colJ t' b)) := by
  obtain ⟨-, -, -, -, -, -, e0, e1, -⟩ := idx1 t
  show V c main_v2 (((cfg1.win 3).blk t).view.emb (ValueIdx.ix2 (0 : Fin 1) b)) = V c main_v2 _
  refine congrArg _ ?_
  funext d; apply Fin.ext
  match d with
  | ⟨0, _⟩ => show win1_3.index t (0 : Fin 2) * 1 + 1 * 0 = 0; omega
  | ⟨1, _⟩ => show win1_3.index t (1 : Fin 2) * 128 + 1 * b.val = 128 * (t'.val / 4 % 4) + b.val; omega

/-- The negatives' block of the labels as a row. -/
theorem blk4 (k : Fin 128) :
    iblk1 V c 4 t (ValueIdx.ix2 (0 : Fin 1) k)
      = V c main_v2 (ValueIdx.ix2 (0 : Fin 1) (Cert.Triplet.colK t' k)) := by
  obtain ⟨-, -, -, -, -, -, -, -, e0, e1⟩ := idx1 t
  show V c main_v2 (((cfg1.win 4).blk t).view.emb (ValueIdx.ix2 (0 : Fin 1) k)) = V c main_v2 _
  refine congrArg _ ?_
  funext d; apply Fin.ext
  match d with
  | ⟨0, _⟩ => show win1_4.index t (0 : Fin 2) * 1 + 1 * 0 = 0; omega
  | ⟨1, _⟩ => show win1_4.index t (1 : Fin 2) * 128 + 1 * k.val = 128 * (t'.val % 4) + k.val; omega

end Regions

end Cert.KernelIdeal.MineBlocks

end
-- ==== Proof.MineValue.lean ====
/-
  What the mining pass accumulates, over the extended reals.  At point `t` the body adds the tile's sum of
  masked hinges to the running total and the tile's mask sum, converted to a word, to the running count,
  and the first point starts both from the zeros it has just stored.  So after point `n` the total is the sum
  of the tiles' totals up to `n` and the count the sum, modulo 2³², of the tiles' converted mask sums; after
  the last of the 256 points these are the tile-by-tile loss's total and count.
-/
import proofs.«153964_j44006234915136_2_alg».proof.Proof.MinePieces
import Idealize.ShloMosaic.PureOps.Ideal.Laws
import proofs.«153964_j44006234915136_2_alg».proof.Proof.MineFinal
import proofs.«153964_j44006234915136_2_alg».proof.Proof.MinePayload
import proofs.«153964_j44006234915136_2_alg».proof.Proof.MineBlocks

set_option maxRecDepth 16384

noncomputable section

namespace Cert.KernelIdeal.MineValue

open Cert.KernelIdeal Cert.KernelIdeal.Gen Cert.KernelIdeal.Mine
open Idealize.ShloMosaic Idealize.ShloMosaic.TcCoe Idealize.SL.Sem Idealize.ShloMosaic.Tactic
open Idealize.ShloMosaic.Pipeline (Dat)
open Cert.Triplet Idealize.ShloMosaic.ValueIdx

section
variable (V : (c : Dev nD) → (b : Ref sig .tc) → Buf (Elt Ideal) ((c : Thread nD τ).loc b)) (c : Dev nD)
  (tg : Cert.Triplet.ST.Idx → BitVec 32)
  (hcol : ∀ p : Fin 512, V c main_v1 (ValueIdx.ix2 p 0) = tg (ValueIdx.ix1 p))
  (hrow : ∀ q : Fin 512, V c main_v2 (ValueIdx.ix2 0 q) = tg (ValueIdx.ix1 q))

/-- The reset total is zero (the zero word denotes 0), the reset count the zero word, and the count's update
    adds to the running count the mask sum converted to a word. -/
theorem total_reset (j : S1x1.Idx) : k1_pay2 (F := Ideal) j = (0 : EReal) := by
  unfold k1_pay2
  exact Ideal.ofBits_zero_f32
theorem count_reset (j : S1x1.Idx) : k1_pay3 j = 0#32 := rfl
theorem count_add (v80 : IVec S1x1 32) (v81 : FVec Ideal S1x1 .f32) (j : S1x1.Idx) :
    k1_pay1 v80 v81 j = v80 j + Ideal.fptosi 32 (v81 j) := rfl

/-- The distance matrix as the region finds it. -/
abbrev Dm : Fin 512 → Fin 512 → EReal := fun p q => V c main_v0 (ValueIdx.ix2 p q)

/-- The tiles' totals up to tile `n`, and their converted mask sums up to tile `n`. -/
def totUpTo (n : ℕ) : EReal :=
  ∑ k ∈ Finset.range (n + 1), if h : k < 256 then tileTotal tg (Dm V c) ⟨k, h⟩ else 0
def cntUpTo (n : ℕ) : BitVec 32 :=
  ∑ k ∈ Finset.range (n + 1), if h : k < 256 then Ideal.fptosi 32 (tileMask tg (Dm V c) ⟨k, h⟩) else 0

include hcol hrow in
/-- One point's addition to the total: the tile's sum of masked hinges. -/
theorem tot_point (t : Fin cfg1.N) (t' : Fin 256) (ht : t'.val = t.val) (v74 : Vec Ideal S1x1 .f32) (j : S1x1.Idx) :
    k1_pay11 (p5At V c t) (p6At V c t) (p7At V c t) (p8At V c t) v74 j = v74 j + tileTotal tg (Dm V c) t' :=
  MinePayload.total_step tg (Dm V c) (grid1.coords t) t' (by rw [ht]; exact (MineBlocks.coords1 t).1) (by rw [ht]; exact (MineBlocks.coords1 t).2.1) (by rw [ht]; exact (MineBlocks.coords1 t).2.2)
    (iblk1 V c 0 t) (iblk1 V c 1 t) (iblk1 V c 2 t) (iblk1 V c 3 t) (iblk1 V c 4 t)
    (fun a b => MineBlocks.blk0 V c t t' ht a b) (fun a k => MineBlocks.blk1 V c t t' ht a k)
    (fun a => (MineBlocks.blk2 V c t t' ht a).trans (hcol _)) (fun b => (MineBlocks.blk3 V c t t' ht b).trans (hrow _))
    (fun k => (MineBlocks.blk4 V c t t' ht k).trans (hrow _)) v74 j

include hcol hrow in
/-- One point's mask sum: the tile's. -/
theorem mask_point (t : Fin cfg1.N) (t' : Fin 256) (ht : t'.val = t.val) (j : S1x1.Idx) :
    k1_pay13 (p5At V c t) (p6At V c t) (p7At V c t) (p8At V c t) j = tileMask tg (Dm V c) t' :=
  MinePayload.mask_sum tg (Dm V c) (grid1.coords t) t' (by rw [ht]; exact (MineBlocks.coords1 t).1) (by rw [ht]; exact (MineBlocks.coords1 t).2.1) (by rw [ht]; exact (MineBlocks.coords1 t).2.2)
    (iblk1 V c 0 t) (iblk1 V c 1 t) (iblk1 V c 2 t) (iblk1 V c 3 t) (iblk1 V c 4 t)
    (fun a b => MineBlocks.blk0 V c t t' ht a b) (fun a k => MineBlocks.blk1 V c t t' ht a k)
    (fun a => (MineBlocks.blk2 V c t t' ht a).trans (hcol _)) (fun b => (MineBlocks.blk3 V c t t' ht b).trans (hrow _))
    (fun k => (MineBlocks.blk4 V c t t' ht k).trans (hrow _)) j

include hcol hrow in
/-- THE RUNNING PAIR: after point `n` the total is the tiles' totals up to `n`, the count their converted mask sums. -/
theorem outs_eq : ∀ (n : ℕ) (hn : n < cfg1.N) (j : S1x1.Idx),
    outsAt1_5 V c n hn j = totUpTo V c tg n ∧ outsAt1_6 V c n hn j = cntUpTo V c tg n
  | 0, hn, j => by
    have h256 : (0 : ℕ) < 256 := by decide
    constructor
    · refine (congrFun (outs5_zero V c hn) j).trans ?_
      refine (tot_point V c tg hcol hrow ⟨0, hn⟩ ⟨0, h256⟩ rfl _ j).trans ?_
      rw [total_reset, zero_add]
      unfold totUpTo
      rw [Finset.sum_range_one, dif_pos h256]
    · refine (congrFun (outs6_zero V c hn) j).trans ?_
      refine (count_add _ _ j).trans ?_
      rw [pay12_eq, count_reset, BitVec.zero_add, mask_point V c tg hcol hrow ⟨0, hn⟩ ⟨0, h256⟩ rfl j]
      unfold cntUpTo
      rw [Finset.sum_range_one, dif_pos h256]
  | n + 1, hn, j => by
    have h256 : n + 1 < 256 := lt_of_lt_of_eq hn (show cfg1.N = 256 from N_1)
    have ih := outs_eq n (Nat.lt_of_succ_lt hn) j
    constructor
    · refine (congrFun (outs5_succ V c n hn) j).trans ?_
      refine (tot_point V c tg hcol hrow ⟨n + 1, hn⟩ ⟨n + 1, h256⟩ rfl _ j).trans ?_
      rw [ih.1]
      unfold totUpTo
      rw [Finset.sum_range_succ _ (n + 1), dif_pos h256]
    · refine (congrFun (outs6_succ V c n hn) j).trans ?_
      refine (count_add _ _ j).trans ?_
      rw [pay12_eq, ih.2, mask_point V c tg hcol hrow ⟨n + 1, hn⟩ ⟨n + 1, h256⟩ rfl j]
      unfold cntUpTo
      rw [Finset.sum_range_succ _ (n + 1), dif_pos h256]

/-- Up to the last tile the sums are the tile-by-tile loss's total and count. -/
theorem totUpTo_last : totUpTo V c tg 255 = totalK tg (Dm V c) := by
  unfold totUpTo totalK
  rw [← Fin.sum_univ_eq_sum_range (fun k => if h : k < 256 then tileTotal tg (Dm V c) ⟨k, h⟩ else 0) 256]
  exact Finset.sum_congr rfl fun t _ => dif_pos t.isLt
theorem cntUpTo_last : cntUpTo V c tg 255 = countK tg (Dm V c) := by
  unfold cntUpTo countK
  rw [← Fin.sum_univ_eq_sum_range (fun k => if h : k < 256 then Ideal.fptosi 32 (tileMask tg (Dm V c) ⟨k, h⟩) else 0) 256]
  exact Finset.sum_congr rfl fun t _ => dif_pos t.isLt

include hcol hrow in
/-- After the last point: the tile-by-tile total and count. -/
theorem total_last (h : 255 < cfg1.N) (j : S1x1.Idx) :
    outsAt1_5 V c 255 h j = totalK tg (fun p q => V c main_v0 (ValueIdx.ix2 p q)) :=
  ((outs_eq V c tg hcol hrow 255 h j).1).trans (totUpTo_last V c tg)
include hcol hrow in
theorem count_last (h : 255 < cfg1.N) (j : S1x1.Idx) :
    outsAt1_6 V c 255 h j = countK tg (fun p q => V c main_v0 (ValueIdx.ix2 p q)) :=
  ((outs_eq V c tg hcol hrow 255 h j).2).trans (cntUpTo_last V c tg)

include hcol hrow in
/-- THE TOTAL'S ARRAY after the region: the tile-by-tile total of the distance matrix the region found. -/
theorem total_final (j : S1x1.Idx) :
    (Cert.KernelIdeal.Mine.dat1 (F := Ideal) V c).arrAt 5 cfg1.N j = Cert.Triplet.totalK tg (fun p q => V c main_v0 (ValueIdx.ix2 p q)) :=
  (MineFinal.arr5_final V c j).trans (total_last V c tg hcol hrow _ j)
include hcol hrow in
/-- THE COUNT'S ARRAY after the region: the tile-by-tile count. -/
theorem count_final (j : S1x1.Idx) :
    (Cert.KernelIdeal.Mine.dat1 (F := Ideal) V c).arrAt 6 cfg1.N j = Cert.Triplet.countK tg (fun p q => V c main_v0 (ValueIdx.ix2 p q)) :=
  (MineFinal.arr6_final V c j).trans (count_last V c tg hcol hrow _ j)

end

end Cert.KernelIdeal.MineValue

end
-- ==== Proof.ResultValue.lean ====
/-
  The kernel program's result as the tiled loss of the specification.

  After both calls and the host's last six operations the result buffer holds the accumulated total divided by the
  accumulated count clamped at one (as a real). The mining call was entered with the distance matrix as the first call
  left it and with the labels reshaped to a column and to a row, so by the two calls' value theorems the accumulators
  hold `totalK` and `countK` over the specification's distance matrix, and the tile algebra identifies the quotient
  with the specification's loss when the embeddings are real numbers.
-/
import proofs.«153964_j44006234915136_2_alg».proof.Proof.Records
import proofs.«153964_j44006234915136_2_alg».proof.Proof.TileAlgebra
import proofs.«153964_j44006234915136_2_alg».proof.Proof.DistValue
import proofs.«153964_j44006234915136_2_alg».proof.Proof.MineValue
import Idealize.ShloMosaic.Lib.StableHlo.Run
import Idealize.ShloMosaic.Lib.ValueIdx
import Idealize.ShloMosaic.Lib.Pipeline.Value

set_option maxRecDepth 16384

noncomputable section

namespace Cert.KernelIdeal.Result

open Cert.KernelIdeal Cert.KernelIdeal.Gen Cert.KernelIdeal.Records
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-- A one-entry matrix recast as a scalar holds that entry. -/
theorem scalar_of_one {α : Type} (x : S1x1.Idx → α) (j : S_.Idx) : shapeCast S_ x shapeCasts_S1x1_S_ j = x (ix2 0 0) :=
  shapeCast_apply x shapeCasts_S1x1_S_ j (ix2 0 0) (by
    have h1 := (S_.rowMajor j).isLt; have h2 := (S1x1.rowMajor (ix2 0 0)).isLt
    change _ < 1 at h1; change _ < 1 at h2; omega)

/-- The host's last operations: the quotient of the total by the count clamped at one. -/
theorem tail_value (c : Dev nD) (j : S_.Idx) :
    (W4 m c main_v8 : S_.Idx → EReal) j
      = Ideal.div ((W3 m c main_v3_0 : S1x1.Idx → EReal) (ix2 0 0))
          ((((IntOp.maxsi ((W3 m c main_v3_1 : S1x1.Idx → BitVec 32) (ix2 0 0)) 1#32).toInt : ℝ)) : EReal) := by
  have e : (W4 m c main_v8 : S_.Idx → EReal)
      = Host.divf (F := Ideal) (shapeCast S_ (W3 m c main_v3_0 : S1x1.Idx → EReal) shapeCasts_S1x1_S_)
          (sitofp (F := Ideal) .f32 (maxsi (shapeCast S_ (W3 m c main_v3_1 : S1x1.Idx → BitVec 32) shapeCasts_S1x1_S_) (constantI S_ 32 1#32))) := by
    show StableHlo.after hostOps2 (W3 m c) (Proc.devRef .tc main_v8) = _
    after_results; rfl
  rw [e]
  simp only [Host.divf, sitofp, maxsi, constantI, scalar_of_one, Ideal.hostDivf_def, Ideal.scalar_sitofp_def]
  rfl

/-- The labels reshaped to a column: entry `(p, 0)` is label `p`. -/
theorem col_eq (c : Dev nD) (p : Fin 512) :
    (W2 m c main_v1 : S512x1.Idx → BitVec 32) (ix2 p 0) = (m ((c : Thread nD τ).loc main_arg1) : S512.Idx → BitVec 32) (ix1 p) := by
  have e : (W2 m c main_v1 : S512x1.Idx → BitVec 32) = shapeCast S512x1 (W1 m c main_arg1 : S512.Idx → BitVec 32) shapeCasts_S512_S512x1 := by
    show StableHlo.after hostOps1 (W1 m c) (Proc.devRef .tc main_v1) = _
    after_results; rfl
  rw [e, shapeCast_apply _ shapeCasts_S512_S512x1 (ix2 p 0) (ix1 p) (by
    rw [Shape.rowMajor_val_one, Shape.rowMajor_val_two]; show p.val = p.val * 1 + 0; omega), W1_of_ne m c main_arg1 (by decide)]

/-- The labels reshaped to a row: entry `(0, q)` is label `q`. -/
theorem row_eq (c : Dev nD) (q : Fin 512) :
    (W2 m c main_v2 : S1x512.Idx → BitVec 32) (ix2 0 q) = (m ((c : Thread nD τ).loc main_arg1) : S512.Idx → BitVec 32) (ix1 q) := by
  have e : (W2 m c main_v2 : S1x512.Idx → BitVec 32) = shapeCast S1x512 (W1 m c main_arg1 : S512.Idx → BitVec 32) shapeCasts_S512_S1x512 := by
    show StableHlo.after hostOps1 (W1 m c) (Proc.devRef .tc main_v2) = _
    after_results; rfl
  rw [e, shapeCast_apply _ shapeCasts_S512_S1x512 (ix2 0 q) (ix1 q) (by
    rw [Shape.rowMajor_val_one, Shape.rowMajor_val_two]; show q.val = 0 * 512 + q.val; omega), W1_of_ne m c main_arg1 (by decide)]

/-- The reshapes leave the distance matrix as the first call left it. -/
theorem dist_kept (c : Dev nD) : W2 m c main_v0 = W1 m c main_v0 :=
  StableHlo.after_of_writes_sub hostOps1 _ Gen.hostOps1_writes (by decide)

/-- The distance matrix the mining call is entered with is the specification's. -/
theorem dist_entry (c : Dev nD) :
    (fun p q : Fin 512 => (E1 m c main_v0 : S512x512.Idx → EReal) (ix2 p q))
      = Cert.Triplet.dist (m ((c : Thread nD τ).loc main_arg0)) := by
  funext p q
  show (W2 m c main_v0 : S512x512.Idx → EReal) (ix2 p q) = _
  rw [dist_kept, ← W1_main_v0]
  exact Cert.KernelIdeal.DistValue.dist_final (E0 m) c p q

/-- The kernel program's result is the specification's loss when the embeddings are real numbers. -/
theorem result_value (c : Dev nD)
    (hx : ∀ i, ∃ r : ℝ, (m ((c : Thread nD τ).loc main_arg0) : S512x2048.Idx → EReal) i = (r : EReal)) (j : S_.Idx) :
    (W4 m c main_v8 : S_.Idx → EReal) j
      = Cert.Triplet.result (m ((c : Thread nD τ).loc main_arg0)) (m ((c : Thread nD τ).loc main_arg1)) := by
  rw [tail_value, ← W3_main_v3_0, ← W3_main_v3_1,
    Cert.KernelIdeal.MineValue.total_final (E1 m) c (m ((c : Thread nD τ).loc main_arg1)) (col_eq m c) (row_eq m c),
    Cert.KernelIdeal.MineValue.count_final (E1 m) c (m ((c : Thread nD τ).loc main_arg1)) (col_eq m c) (row_eq m c),
    dist_entry]
  exact Cert.Triplet.resultK_eq _ _ hx

end Cert.KernelIdeal.Result

end
-- ==== Proof.RefIsSpec.lean ====
/-
  The host reference, read one stage at a time at an index, is the triplet-mining loss of the specification:
  the squared norms, the Gram matrix, the clamped squared distances and the guarded root give the distance
  matrix; the label comparisons and the diagonal mask give the positive and negative indicators; the margin
  test gives the selection; the selected hinges are summed, the selections are counted in 32-bit words, and the
  quotient is the loss.
-/
import proofs.«153964_j44006234915136_2_alg».proof.Proof.Gen.ReferenceIdeal.Read
import proofs.«153964_j44006234915136_2_alg».proof.Proof.TripletSpec

noncomputable section

open scoped BigOperators

namespace Cert.RefSpec

open Cert.ReferenceIdeal Cert.ReferenceIdeal.Gen Cert.ReferenceIdeal.Read Idealize.ShloMosaic Idealize.ShloMosaic.ValueIdx Cert.Triplet

/-! ## Indices of rank three -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

/-! ## The distance matrix -/

section Dist
variable (x0 : (⟨S512x2048, .f32⟩ : BufTy).Contents (Elt Ideal))

/-- The row sums of squares are the squared norms. -/
theorem sqn_at (p : Fin 512) : val_main_v1 (F := Ideal) x0 (ix1 p) = sqn x0 p := by
  rw [val_main_v1_apply]
  have e : ∀ k : Fin 2048, idx_main_v1 (ix1 p) k = ix2 p k := fun k =>
    funext fun a => Fin.ext (by match a with | ⟨0, _⟩ => rfl | ⟨1, _⟩ => rfl)
  simp only [val_main_cst_apply, val_main_v0_apply, Ideal.ofBits_def, Ideal.ofBits_zero_f32, zero_add,
    Ideal.mulf_def, e]
  rfl

/-- The sum of the two broadcast norms. -/
theorem sqsum_at (p q : Fin 512) : val_main_v6 (F := Ideal) x0 (ix2 p q) = sqn x0 p + sqn x0 q := by
  have e1 : idx_main_v2 (idx_main_v4 (ix2 p q)) = ix1 p :=
    funext fun a => Fin.ext (by match a with | ⟨0, _⟩ => rfl)
  have e2 : idx_main_v3 (idx_main_v5 (ix2 p q)) = ix1 q :=
    funext fun a => Fin.ext (by match a with | ⟨0, _⟩ => rfl)
  rw [val_main_v6_apply, val_main_v4_apply, val_main_v2_apply, val_main_v5_apply, val_main_v3_apply, e1, e2,
    sqn_at, sqn_at]
  rfl

/-- The matrix product with the transpose is the Gram matrix. -/
theorem gram_at (p q : Fin 512) : val_main_v8 (F := Ideal) x0 (ix2 p q) = gram x0 p q := by
  rw [val_main_v8_apply]
  have el : ∀ k : Fin 2048, lidx_main_v8 (ix2 p q) k = ix2 p k := fun k =>
    funext fun a => Fin.ext (by match a with | ⟨0, _⟩ => rfl | ⟨1, _⟩ => rfl)
  have er : ∀ k : Fin 2048, idx_main_v7 (ridx_main_v8 (ix2 p q) k) = ix2 q k := fun k =>
    funext fun a => Fin.ext (by match a with | ⟨0, _⟩ => rfl | ⟨1, _⟩ => rfl)
  simp only [val_main_v7_apply, el, er]
  rfl

/-- The clamped squared distance. -/
theorem d2_at (p q : Fin 512) : val_main_v12 (F := Ideal) x0 (ix2 p q) = d2 x0 p q := by
  rw [val_main_v12_apply, val_main_call0_v1_apply, val_main_call0_v0_apply, val_main_cst_1_apply,
    val_main_v11_apply, val_main_v10_apply, val_main_v9_apply, val_main_cst_0_apply, sqsum_at, gram_at]
  simp only [Ideal.ofBits_def, Ideal.ofBits_zero_f32, Ideal.maximumf_def, Ideal.subf_def, Ideal.mulf_def]
  rw [max_comm]
  rfl

/-- The guarded root: the distance. -/
theorem dist_at (p q : Fin 512) : val_main_v17 (F := Ideal) x0 (ix2 p q) = dist x0 p q := by
  rw [val_main_v17_apply, val_main_v16_apply, val_main_v15_apply, val_main_v14_apply, val_main_v13_apply,
    val_main_cst_2_apply, val_main_call1_v1_apply, val_main_call1_v0_apply, val_main_cst_3_apply,
    val_main_call2_v1_apply, val_main_call2_v0_apply, val_main_cst_4_apply, d2_at]
  simp only [Ideal.ofBits_def, Ideal.ofBits_zero_f32, Ideal.hostUnary_sqrt_def]
  exact guarded_sqrt (d2 x0 p q)

end Dist

/-! ## One-bit words -/

theorem ofBool_and (a b : Bool) : IntOp.andi (BitVec.ofBool a) (BitVec.ofBool b) = BitVec.ofBool (a && b) := by
  cases a <;> cases b <;> rfl

theorem not_ofBool (a : Bool) : ~~~(BitVec.ofBool a) = BitVec.ofBool (!a) := by
  cases a <;> rfl

/-- Two row numbers below 512 are equal exactly when their 32-bit words are. -/
theorem ofNat_beq (p q : Fin 512) : (BitVec.ofNat 32 p.val == BitVec.ofNat 32 q.val) = (p == q) := by
  rw [Bool.eq_iff_iff]
  simp only [beq_iff_eq]
  constructor
  · intro h
    have h' := congrArg BitVec.toNat h
    rw [BitVec.toNat_ofNat, BitVec.toNat_ofNat] at h'
    have hp := p.isLt
    have hq := q.isLt
    exact Fin.ext (by omega)
  · rintro rfl
    rfl

/-! ## The selection -/

section Mask
variable (x0 : (⟨S512x2048, .f32⟩ : BufTy).Contents (Elt Ideal)) (x1 : (⟨S512, .i32⟩ : BufTy).Contents (Elt Ideal))

/-- The label comparison. -/
theorem same_at (p q : Fin 512) :
    val_main_v22 (F := Ideal) x1 (ix2 p q) = BitVec.ofBool (x1 (ix1 p) == x1 (ix1 q)) := by
  have e1 : idx_main_v18 (idx_main_v20 (ix2 p q)) = ix1 p :=
    funext fun a => Fin.ext (by match a with | ⟨0, _⟩ => rfl)
  have e2 : idx_main_v19 (idx_main_v21 (ix2 p q)) = ix1 q :=
    funext fun a => Fin.ext (by match a with | ⟨0, _⟩ => rfl)
  rw [val_main_v22_apply, val_main_v20_apply, val_main_v18_apply, val_main_v21_apply, val_main_v19_apply, e1, e2]
  rfl

/-- The diagonal: the row number along axis 0 (plus the zero word) against the one along axis 1. -/
theorem eye_at (p q : Fin 512) : val_main_v27 (F := Ideal) (ix2 p q) = BitVec.ofBool (p == q) := by
  rw [val_main_v27_apply, val_main_v26_apply, val_main_v23_apply, val_main_v25_apply, val_main_c_apply,
    val_main_v24_apply]
  show BitVec.ofBool (BitVec.ofNat 32 p.val + 0#32 == BitVec.ofNat 32 q.val) = _
  rw [BitVec.add_zero, ofNat_beq]

/-- A positive of the anchor: same label, off the diagonal. -/
theorem pos_at (p q : Fin 512) : val_main_v29 (F := Ideal) x1 (ix2 p q) = BitVec.ofBool (pos x1 p q) := by
  rw [val_main_v29_apply, val_main_v28_apply, same_at, eye_at, not_ofBool, ofBool_and]
  rfl

/-- A negative of the anchor: another label. -/
theorem neg_at (p r : Fin 512) : val_main_v30 (F := Ideal) x1 (ix2 p r) = BitVec.ofBool (neg x1 p r) := by
  rw [val_main_v30_apply, same_at, not_ofBool]
  rfl

/-- The selection of a triple. -/
theorem viol_at (p q r : Fin 512) :
    val_main_v43 (F := Ideal) x0 x1 (ix3 p q r) = BitVec.ofBool (viol x0 x1 p q r) := by
  have e1 : idx_main_v33 (idx_main_v35 (ix3 p q r)) = ix2 p q :=
    funext fun a => Fin.ext (by match a with | ⟨0, _⟩ => rfl | ⟨1, _⟩ => rfl)
  have e2 : idx_main_v34 (idx_main_v36 (ix3 p q r)) = ix2 p r :=
    funext fun a => Fin.ext (by match a with | ⟨0, _⟩ => rfl | ⟨1, _⟩ => rfl)
  have e3 : idx_main_v32 (idx_main_v38 (ix3 p q r)) = ix2 p r :=
    funext fun a => Fin.ext (by match a with | ⟨0, _⟩ => rfl | ⟨1, _⟩ => rfl)
  have e4 : idx_main_v31 (idx_main_v39 (ix3 p q r)) = ix2 p q :=
    funext fun a => Fin.ext (by match a with | ⟨0, _⟩ => rfl | ⟨1, _⟩ => rfl)
  rw [val_main_v43_apply, val_main_v37_apply, val_main_v35_apply, val_main_v33_apply, val_main_v36_apply,
    val_main_v34_apply, val_main_v42_apply, val_main_v40_apply, val_main_v38_apply, val_main_v32_apply,
    val_main_v39_apply, val_main_v31_apply, val_main_v41_apply, val_main_cst_5_apply, e1, e2, e3, e4,
    pos_at, neg_at, dist_at, dist_at, ofBool_and]
  exact ofBool_and _ _

/-- The hinge of a triple. -/
theorem per_at (p q r : Fin 512) : val_main_v50 (F := Ideal) x0 (ix3 p q r) = per x0 p q r := by
  have e1 : idx_main_v31 (idx_main_v44 (ix3 p q r)) = ix2 p q :=
    funext fun a => Fin.ext (by match a with | ⟨0, _⟩ => rfl | ⟨1, _⟩ => rfl)
  have e2 : idx_main_v32 (idx_main_v45 (ix3 p q r)) = ix2 p r :=
    funext fun a => Fin.ext (by match a with | ⟨0, _⟩ => rfl | ⟨1, _⟩ => rfl)
  rw [val_main_v50_apply, val_main_v48_apply, val_main_v46_apply, val_main_v44_apply, val_main_v31_apply,
    val_main_v45_apply, val_main_v32_apply, val_main_v47_apply, val_main_cst_6_apply, val_main_v49_apply,
    val_main_cst_7_apply, e1, e2, dist_at, dist_at]
  simp only [Ideal.ofBits_def, Ideal.ofBits_zero_f32, Ideal.maximumf_def, Ideal.addf_def, Ideal.subf_def]
  rfl

/-- The hinge where the triple is selected, zero elsewhere. -/
theorem masked_at (p q r : Fin 512) :
    val_main_v53 (F := Ideal) x0 x1 (ix3 p q r) = if viol x0 x1 p q r then per x0 p q r else 0 := by
  rw [val_main_v53_apply, viol_at, per_at, val_main_call3_v1_apply, val_main_call3_v0_apply,
    val_main_cst_9_apply]
  simp only [Ideal.ofBits_def, Ideal.ofBits_zero_f32]
  cases viol x0 x1 p q r
  · exact select_zero _ _
  · exact select_one _ _

/-- The sum of the selected hinges. -/
theorem total_at (i : S_.Idx) : val_main_v54 (F := Ideal) x0 x1 i = total x0 x1 := by
  rw [val_main_v54_apply, val_main_cst_10_apply, sum_idx3]
  simp only [masked_at, Ideal.ofBits_def, Ideal.ofBits_zero_f32, zero_add]
  rfl

/-! ## The count -/

/-- A fold by the words' addition is the initial word plus the sum. -/
theorem fold_addi_eq_sum {ι : Type*} (S : Finset ι) (init : BitVec 32) (y : ι → BitVec 32) :
    S.fold IntOp.addi init y = init + ∑ j ∈ S, y j := by
  induction S using Finset.cons_induction with
  | empty => simp
  | cons a S ha ih =>
    rw [Finset.fold_cons, Finset.sum_cons, ih]
    show y a + (init + _) = init + (y a + _)
    rw [add_left_comm]

/-- The reduction by addition over all three axes is the initial word plus the sum over every index. -/
theorem reduce_addi_all (y : S512x512x512.Idx → BitVec 32) (init : S_.Idx → BitVec 32) (i : S_.Idx) :
    Host.reduce IntOp.addi y init reducesTo_S512x512x512_S_d0_1_2 h_S_ i
      = init (Shape.Idx.first h_S_) + ∑ j, y j := by
  rw [Host.reduce_eq_fold, Finset.filter_true_of_mem (fun j _ => funext fun a => a.elim0), fold_addi_eq_sum]

/-- The number of selected triples, as a word. -/
theorem count_at (i : S_.Idx) : val_main_v52 (F := Ideal) x0 x1 i = Cert.Triplet.count x0 x1 := by
  unfold val_main_v52
  rw [reduce_addi_all, val_main_c_8_apply, sum_idx3, BitVec.zero_add]
  unfold Cert.Triplet.count
  refine Finset.sum_congr rfl fun p _ => Finset.sum_congr rfl fun q _ => Finset.sum_congr rfl fun r _ => ?_
  rw [val_main_v51_apply, viol_at]
  cases viol x0 x1 p q r <;> rfl

end Mask

/-! ## The loss -/

/-- THE REFERENCE IS THE SPECIFICATION. -/
theorem ref_is_result (x0 : (⟨Cert.ReferenceIdeal.S512x2048, .f32⟩ : BufTy).Contents (Elt Ideal))
    (x1 : (⟨Cert.ReferenceIdeal.S512, .i32⟩ : BufTy).Contents (Elt Ideal)) :
    Cert.ReferenceIdeal.Read.val_main_v57 (F := Ideal) x0 x1 = fun _ => Cert.Triplet.result x0 x1 := by
  funext i
  rw [val_main_v57_apply, val_main_v56_apply, val_main_v55_apply, val_main_c_11_apply, total_at, count_at]
  rfl

end Cert.RefSpec

end
-- ==== Proof.FiniteInputs.lean ====
/-
  The precondition says that every entry of the embeddings is finite: the printed predicate is the conjunction,
  over all entries, of |x| < +∞, and an extended real whose absolute value is below +∞ is a real number.
-/
import proofs.«153964_j44006234915136_2_alg».proof.KernelIdeal
import proofs.«153964_j44006234915136_2_alg».proof.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic

instance : Subsingleton Cert.Pre_finite_inputs.S_.Idx := ⟨fun a b => funext fun d => d.elim0⟩

/-- The binary32 pattern of +∞ denotes the top element. -/
theorem inf_word : Ideal.ofBits .f32 0x7F800000#32 = (⊤ : EReal) := by
  simp [Ideal.ofBits, Ideal.ieee]

/-- An extended real whose absolute value is below +∞ is a real. -/
theorem real_of_abs_lt_top (y : EReal) (h : max y (-y) < ⊤) : ∃ r : ℝ, y = (r : EReal) := by
  induction y using EReal.rec with
  | bot => simp at h
  | coe r => exact ⟨r, rfl⟩
  | top => simp at h

/-- Under the precondition every entry of the embeddings is a real number. -/
theorem real_of_pre [hP : Cert.Pre_finite_inputs.Facts]
    (x : (⟨Cert.KernelIdeal.S512x2048, .f32⟩ : BufTy).Contents (Elt Ideal))
    (tg : (⟨Cert.KernelIdeal.S512, .i32⟩ : BufTy).Contents (Elt Ideal))
    (h : Cert.Pre_finite_inputs.fn (F := Ideal) x tg = fun _ => 1#1) : ∀ i, ∃ r : ℝ, x i = (r : EReal) := by
  intro i
  have h0 := congrFun h ValueIdx.ix0
  dsimp only [Cert.Pre_finite_inputs.fn] at h0
  have hi := Host.reduce_andi_all _ _ _ _ _ h0 i
  have hb : BitVec.ofBool (decide (max (x i) (-(x i)) < Ideal.ofBits .f32 0x7F800000#32)) = 1#1 := hi
  have hlt : max (x i) (-(x i)) < Ideal.ofBits .f32 0x7F800000#32 := by
    by_contra hn
    rw [decide_eq_false hn] at hb
    exact absurd hb (by decide)
  rw [inf_word] at hlt
  exact real_of_abs_lt_top _ hlt

end Cert.FiniteInputs

end
-- ==== Proof.lean ====
/-
  The triplet-mining loss kernel against its jnp reference: the two kernel programs run (every weakly fair execution
  terminates, nothing faults, the arguments end as launched), the idealized kernel is the printed kernel's text read
  over the extended reals (no rewrite was applied), and the idealized kernel and the idealized reference, from memories
  agreeing on the arguments, end with equal results.

  Both programs compute the mean, over the selected triples (anchor, positive, negative), of the hinge
  `max (d(a,p) - d(a,n) + 1/2) 0`, with `d` the pairwise Euclidean distance by the expansion of the square. The kernel
  program computes the distance matrix in a first pipelined call and walks 16 × 4 × 4 tiles of triples in a second one,
  accumulating the masked hinges' sum and the masks' count; the reference sums over all 512³ triples at once. On the
  extended reals the two sums are regroupings of each other; the one identity that is not a regrouping,
  `0 - (x - y) = y - x`, holds because the distances are real numbers when the embeddings are — which is what the
  precondition says.
-/
import proofs.«153964_j44006234915136_2_alg».proof.Defs
import proofs.«153964_j44006234915136_2_alg».proof.Proof.Gen.Kernel
import proofs.«153964_j44006234915136_2_alg».proof.Proof.Gen.KernelIdeal
import proofs.«153964_j44006234915136_2_alg».proof.Proof.Gen.ReferenceIdeal
import proofs.«153964_j44006234915136_2_alg».proof.Proof.Gen.Pre_finite_inputs
import proofs.«153964_j44006234915136_2_alg».proof.Proof.Gen.ReferenceIdeal.Read
import proofs.«153964_j44006234915136_2_alg».proof.Proof.RecordsW
import proofs.«153964_j44006234915136_2_alg».proof.Proof.ResultValue
import proofs.«153964_j44006234915136_2_alg».proof.Proof.RefIsSpec
import proofs.«153964_j44006234915136_2_alg».proof.Proof.FiniteInputs

noncomputable section

namespace Cert.Proof

open Idealize.ShloMosaic Idealize.ShloMosaic.TcCoe Idealize.SL.Sem

/-- The printed kernel runs and leaves its arguments as launched: the run of its four items at the word-level values. -/
theorem frame_k : Cert.frame_Kernel := fun m ρ _ =>
  (θ_run (Cert.Kernel.defs (F := Bits)) _ _).mono (fun _ h c => ⟨(h c).2.1, (h c).2.2⟩)
    (Cert.Kernel.Records.run_all (F := Bits) m ρ)

/-- The same run at the extended reals. -/
theorem frame_ki : Cert.frame_KernelIdeal := fun m ρ _ =>
  (θ_run (Cert.KernelIdeal.defs (F := Ideal)) _ _).mono (fun _ h c => ⟨(h c).2.1, (h c).2.2⟩)
    (Cert.KernelIdeal.Records.run_all (F := Ideal) m ρ)

/-- The reference is a line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both results are the specification's loss of the arguments: the kernel program's by the two calls' values and the
    tile algebra (the embeddings real by the precondition), the reference's by reading its operations one at a time. -/
theorem algebraic : Cert.algebraic_KernelIdeal_ReferenceIdeal := by
  intro m ρ m' ρ' hpre hagree
  refine ⟨fun c => Cert.KernelIdeal.Records.W4 m c Cert.KernelIdeal.main_v8,
    Cert.KernelIdeal.Records.run_all (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v57_eq, Cert.RefSpec.ref_is_result, (hagree c).1, (hagree c).2]
  funext j
  exact (Cert.KernelIdeal.Result.result_value m c (Cert.FiniteInputs.real_of_pre _ _ (hpre c)) j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
